-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x32 : Shape := ⟨2, ![1250000, 32]⟩
abbrev S3x32x64 : Shape := ⟨3, ![3, 32, 64]⟩
abbrev S3x64 : Shape := ⟨2, ![3, 64]⟩
abbrev S3x64x64 : Shape := ⟨3, ![3, 64, 64]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x32 : S_.BroadcastsInDim S1250000x32 (![] : Fin 0 → Fin S1250000x32.rank)
  reducesTo_S1250000x32_S_d0_1 : S1250000x32.ReducesTo [0, 1] S_
  bcast_S_S3x32x64 : S_.BroadcastsInDim S3x32x64 (![] : Fin 0 → Fin S3x32x64.rank)
  reducesTo_S3x32x64_S_d0_1_2 : S3x32x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3x64 .f32) (main_arg9 : FVec F S3 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S3x64x64 .f32) (main_arg6 : FVec F S3x64 .f32) (main_arg7 : FVec F S3x64x64 .f32) (main_arg8 : FVec F S3x64 .f32) (main_arg9 : FVec F S3 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S1250000x32 .f32) (main_arg3 : FVec F S3x32x64 .f32) (main_arg4 : FVec F S3x64 .f32) (main_arg5 : FVec F S3x64x64 .f32) (main_arg6 : FVec F S3x64 .f32) (main_arg7 : FVec F S3x64x64 .f32) (main_arg8 : FVec F S3x64 .f32) (main_arg9 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x32 .f32 := Host.absf main_arg2
  let main_cst_0 : FVec F S_ .f32 := constant S_ .f32 0x7F800000#32
  let main_v5 : FVec F S1250000x32 .f32 := broadcastInDim S1250000x32 ![] bcast_S_S1250000x32 main_cst_0
  let main_v6 : IVec S1250000x32 1 := cmpf .olt main_v4 main_v5
  let main_c_1 : IVec S_ 1 := constantI S_ 1 1#1
  let main_v7 : IVec S_ 1 := (fun x v => Host.reduce IntOp.andi x v reducesTo_S1250000x32_S_d0_1 h_S_) main_v6 main_c_1
  let main_v8 : IVec S_ 1 := andi main_v3 main_v7
  let main_v9 : FVec F S3x32x64 .f32 := Host.absf main_arg3
  let main_cst_2 : FVec F S_ .f32 := constant S_ .f32 0x7F800000#32
  let main_v10 : FVec F S3x32x64 .f32 := broadcastInDim S3x32x64 ![] bcast_S_S3x32x64 main_cst_2
  let main_v11 : IVec S3x32x64 1 := cmpf .olt main_v9 main_v10
  let main_c_3 : IVec S_ 1 := constantI S_ 1 1#1
  let main_v12 : IVec S_ 1 := (fun x v => Host.reduce IntOp.andi x v reducesTo_S3x32x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S1250000x32 : Shape := ⟨2, ![1250000, 32]⟩
abbrev S3x32x64 : Shape := ⟨3, ![3, 32, 64]⟩
abbrev S3x64 : Shape := ⟨2, ![3, 64]⟩
abbrev S3x64x64 : Shape := ⟨3, ![3, 64, 64]⟩
abbrev S3 : Shape := ⟨1, ![3]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x32x64 : Shape := ⟨3, ![1, 32, 64]⟩
abbrev S32x64 : Shape := ⟨2, ![32, 64]⟩
abbrev S1x64 : Shape := ⟨2, ![1, 64]⟩
abbrev S64 : Shape := ⟨1, ![64]⟩
abbrev S5000x32 : Shape := ⟨2, ![5000, 32]⟩
abbrev S5000x64 : Shape := ⟨2, ![5000, 64]⟩
abbrev S1x64x64 : Shape := ⟨3, ![1, 64, 64]⟩
abbrev S64x64 : Shape := ⟨2, ![64, 64]⟩
abbrev S1 : Shape := ⟨1, ![1]⟩
abbrev S100000x256 : Shape := ⟨2, ![100000, 256]⟩

abbrev nBuf : Space → Nat
  | .hbm => 132
  | .vmem => 54
  | .smem => 0
  | _ => 0

abbrev hbmTy0_0 (i : Nat) : BufTy := match i % 128 with
  | 0 => ⟨S100000x64, .f32⟩
  | 1 => ⟨S2x1250000, .i32⟩
  | 2 => ⟨S1250000x32, .f32⟩
  | 3 => ⟨S3x32x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3, .f32⟩
  | 10 => ⟨S1x1250000, .i32⟩
  | 11 => ⟨S1250000, .i32⟩
  | 12 => ⟨S1x1250000, .i32⟩
  | 13 => ⟨S1250000, .i32⟩
  | 14 => ⟨S_, .i32⟩
  | 15 => ⟨S1250000, .i32⟩
  | 16 => ⟨S1250000, .i1⟩
  | 17 => ⟨S_, .i32⟩
  | 18 => ⟨S1250000, .i32⟩
  | 19 => ⟨S1250000, .i32⟩
  | 20 => ⟨S1250000, .i32⟩
  | 21 => ⟨S1250000x1, .i32⟩
  | 22 => ⟨S1250000x64, .f32⟩
  | 23 => ⟨S1x32x64, .f32⟩
  | 24 => ⟨S32x64, .f32⟩
  | 25 => ⟨S1x64, .f32⟩
  | 26 => ⟨S64, .f32⟩
  | 27 => ⟨S1x64, .f32⟩
  | 28 => ⟨S1250000x64, .f32⟩
  | 29 => ⟨S_, .f32⟩
  | 30 => ⟨S100000x64, .f32⟩
  | 31 => ⟨S1250000x1, .i32⟩
  | 32 => ⟨S100000x64, .f32⟩
  | 33 => ⟨S1x64x64, .f32⟩
  | 34 => ⟨S64x64, .f32⟩
  | 35 => ⟨S1x64, .f32⟩
  | 36 => ⟨S64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S1x64, .f32⟩
  | 43 => ⟨S100000x64, .f32⟩
  | 44 => ⟨S1, .f32⟩
  | 45 => ⟨S_, .f32⟩
  | 46 => ⟨S100000x64, .f32⟩
  | 47 => ⟨S100000x64, .f32⟩
  | 48 => ⟨S_, .f32⟩
  | 49 => ⟨S_, .f32⟩
  | 50 => ⟨S100000x64, .f32⟩
  | 51 => ⟨S100000x64, .f32⟩
  | 52 => ⟨S100000x64, .f32⟩
  | 53 => ⟨S_, .i32⟩
  | 54 => ⟨S1250000, .i32⟩
  | 55 => ⟨S1250000, .i1⟩
  | 56 => ⟨S_, .i32⟩
  | 57 => ⟨S1250000, .i32⟩
  | 58 => ⟨S1250000, .i32⟩
  | 59 => ⟨S1250000, .i32⟩
  | 60 => ⟨S1250000x1, .i32⟩
  | 61 => ⟨S1250000x64, .f32⟩
  | 62 => ⟨S1x32x64, .f32⟩
  | 63 => ⟨S32x64, .f32⟩
  | 64 => ⟨S1x64, .f32⟩
  | 65 => ⟨S64, .f32⟩
  | 66 => ⟨S1x64, .f32⟩
  | 67 => ⟨S1250000x64, .f32⟩
  | 68 => ⟨S_, .f32⟩
  | 69 => ⟨S100000x64, .f32⟩
  | 70 => ⟨S1250000x1, .i32⟩
  | 71 => ⟨S100000x64, .f32⟩
  | 72 => ⟨S1x64x64, .f32⟩
  | 73 => ⟨S64x64, .f32⟩
  | 74 => ⟨S1x64, .f32⟩
  | 75 => ⟨S64, .f32⟩
  | 76 => ⟨S1x64x64, .f32⟩
  | 77 => ⟨S64x64, .f32⟩
  | 78 => ⟨S1x64, .f32⟩
  | 79 => ⟨S64, .f32⟩
  | 80 => ⟨S1x64, .f32⟩
  | 81 => ⟨S1x64, .f32⟩
  | 82 => ⟨S100000x64, .f32⟩
  | 83 => ⟨S1, .f32⟩
  | 84 => ⟨S_, .f32⟩
  | 85 => ⟨S100000x64, .f32⟩
  | 86 => ⟨S100000x64, .f32⟩
  | 87 => ⟨S_, .f32⟩
  | 88 => ⟨S_, .f32⟩
  | 89 => ⟨S100000x64, .f32⟩
  | 90 => ⟨S100000x64, .f32⟩
  | 91 => ⟨S100000x64, .f32⟩
  | 92 => ⟨S_, .i32⟩
  | 93 => ⟨S1250000, .i32⟩
  | 94 => ⟨S1250000, .i1⟩
  | 95 => ⟨S_, .i32⟩
  | 96 => ⟨S1250000, .i32⟩
  | 97 => ⟨S1250000, .i32⟩
  | 98 => ⟨S1250000, .i32⟩
  | 99 => ⟨S1250000x1, .i32⟩
  | 100 => ⟨S1250000x64, .f32⟩
  | 101 => ⟨S1x32x64, .f32⟩
  | 102 => ⟨S32x64, .f32⟩
  | 103 => ⟨S1x64, .f32⟩
  | 104 => ⟨S64, .f32⟩
  | 105 => ⟨S1x64, .f32⟩
  | 106 => ⟨S1250000x64, .f32⟩
  | 107 => ⟨S_, .f32⟩
  | 108 => ⟨S100000x64, .f32⟩
  | 109 => ⟨S1250000x1, .i32⟩
  | 110 => ⟨S100000x64, .f32⟩
  | 111 => ⟨S1x64x64, .f32⟩
  | 112 => ⟨S64x64, .f32⟩
  | 113 => ⟨S1x64, .f32⟩
  | 114 => ⟨S64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S1x64, .f32⟩
  | 121 => ⟨S100000x64, .f32⟩
  | 122 => ⟨S1, .f32⟩
  | 123 => ⟨S_, .f32⟩
  | 124 => ⟨S100000x64, .f32⟩
  | 125 => ⟨S100000x64, .f32⟩
  | 126 => ⟨S_, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S5000x64, .f32⟩
  | .local _ .vmem, ⟨3, _⟩ => ⟨S5000x64, .f32⟩
  | .local _ .vmem, ⟨4, _⟩ => ⟨S32x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x32, .f32⟩
  | .local _ .vmem, ⟨19, _⟩ => ⟨S5000x32, .f32⟩
  | .local _ .vmem, ⟨20, _⟩ => ⟨S5000x64, .f32⟩
  | .local _ .vmem, ⟨21, _⟩ => ⟨S5000x64, .f32⟩
  | .local _ .vmem, ⟨22, _⟩ => ⟨S32x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x32, .f32⟩
  | .local _ .vmem, ⟨37, _⟩ => ⟨S5000x32, .f32⟩
  | .local _ .vmem, ⟨38, _⟩ => ⟨S5000x64, .f32⟩
  | .local _ .vmem, ⟨39, _⟩ => ⟨S5000x64, .f32⟩
  | .local _ .vmem, ⟨40, _⟩ => ⟨S32x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_2 : Ref sig .tc := ⟨.hbm, 53, rfl⟩
abbrev main_v39 : Ref sig .tc := ⟨.hbm, 54, rfl⟩
abbrev main_v40 : Ref sig .tc := ⟨.hbm, 55, rfl⟩
abbrev main_c_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_5 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_6 : Ref sig .tc := ⟨.hbm, 92, rfl⟩
abbrev main_v74 : Ref sig .tc := ⟨.hbm, 93, rfl⟩
abbrev main_v75 : Ref sig .tc := ⟨.hbm, 94, rfl⟩
abbrev main_c_7 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_8 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_9 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3_S1_0 : S3.Slices ![0] S1
  shapeCasts_S1_S_ : S1.ShapeCasts S_
  slices_S3x32x64_S1x32x64_1_0_0 : S3x32x64.Slices ![1, 0, 0] S1x32x64
  slices_S3x64_S1x64_1_0 : S3x64.Slices ![1, 0] S1x64
  slices_S3x64x64_S1x64x64_1_0_0 : S3x64x64.Slices ![1, 0, 0] S1x64x64
  slices_S3_S1_1 : S3.Slices ![1] S1
  slices_S3x32x64_S1x32x64_2_0_0 : S3x32x64.Slices ![2, 0, 0] S1x32x64
  slices_S3x64_S1x64_2_0 : S3x64.Slices ![2, 0] S1x64
  slices_S3x64x64_S1x64x64_2_0_0 : S3x64x64.Slices ![2, 0, 0] S1x64x64
  slices_S3_S1_2 : S3.Slices ![2] S1
  concatenates_S100000x64_S100000x64_S100000x64_S100000x64_S100000x256_d1 : Shape.Concatenates [S100000x64, S100000x64, S100000x64, S100000x64] S100000x256 1
  gather_S100000x64_S1250000x1_S1250000x64_1_0_n_n_0_1_164_wf : GatherDims.WF S100000x64 S1250000x1 S1250000x64 [1] [0] [] [0] [] 1 ![1, 64]
  dot_S5000x32_S32x64_S5000x64_1_0_0_1_n_n_wf : DotDims.WF S5000x32 S32x64 S5000x64 [1] [0] [0] [1] [] []
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S1250000x32.size a
  hwx0_0 : ∀ i : grid0.Coords, EltTy.bits .f32 = 32 ∨ (Rect.block (s := S1250000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1250000x64.size a
  hwx0_1 : ∀ i : grid0.Coords, EltTy.bits .f32 = 32 ∨ (Rect.block (s := S1250000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S1250000x64.size a
  hwx0_4 : ∀ i : grid0.Coords, EltTy.bits .f32 = 32 ∨ (Rect.block (s := S1250000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S1250000x32.size a
  hwx2_0 : ∀ i : grid2.Coords, EltTy.bits .f32 = 32 ∨ (Rect.block (s := S1250000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S1250000x64.size a
  hwx2_1 : ∀ i : grid2.Coords, EltTy.bits .f32 = 32 ∨ (Rect.block (s := S1250000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S1250000x64.size a
  hwx2_4 : ∀ i : grid2.Coords, EltTy.bits .f32 = 32 ∨ (Rect.block (s := S1250000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S1250000x32.size a
  hwx4_0 : ∀ i : grid4.Coords, EltTy.bits .f32 = 32 ∨ (Rect.block (s := S1250000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S1250000x64.size a
  hwx4_1 : ∀ i : grid4.Coords, EltTy.bits .f32 = 32 ∨ (Rect.block (s := S1250000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x64.size a ≤ S32x64.size a
  hwx4_2 : ∀ i : grid4.Coords, EltTy.bits .f32 = 32 ∨ (Rect.block (s := S32x64) S32x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S1250000x64.size a
  hwx4_4 : ∀ i : grid4.Coords, EltTy.bits .f32 = 32 ∨ (Rect.block (s := S1250000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg2) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg2) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S32x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v99) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x32 : Shape := ⟨2, ![1250000, 32]⟩
abbrev S3x32x64 : Shape := ⟨3, ![3, 32, 64]⟩
abbrev S3x64 : Shape := ⟨2, ![3, 64]⟩
abbrev S3x64x64 : Shape := ⟨3, ![3, 64, 64]⟩
abbrev S3 : Shape := ⟨1, ![3]⟩
abbrev S1x1250000 : Shape := ⟨2, ![1, 1250000]⟩
abbrev S1250000 : Shape := ⟨1, ![1250000]⟩
abbrev S1x32x64 : Shape := ⟨3, ![1, 32, 64]⟩
abbrev S32x64 : Shape := ⟨2, ![32, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1250000x64 : Shape := ⟨2, ![1250000, 64]⟩
abbrev S_ : Shape := ⟨0, ![]⟩
abbrev S1250000x1 : Shape := ⟨2, ![1250000, 1]⟩
abbrev S1 : Shape := ⟨1, ![1]⟩
abbrev S100000x256 : Shape := ⟨2, ![100000, 256]⟩

abbrev nBuf : Space → Nat
  | .hbm => 183
  | .vmem => 0
  | .smem => 0
  | _ => 0

abbrev hbmTy0_0 (i : Nat) : BufTy := match i % 128 with
  | 0 => ⟨S100000x64, .f32⟩
  | 1 => ⟨S2x1250000, .i32⟩
  | 2 => ⟨S1250000x32, .f32⟩
  | 3 => ⟨S3x32x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3, .f32⟩
  | 10 => ⟨S1x1250000, .i32⟩
  | 11 => ⟨S1250000, .i32⟩
  | 12 => ⟨S1x1250000, .i32⟩
  | 13 => ⟨S1250000, .i32⟩
  | 14 => ⟨S1x32x64, .f32⟩
  | 15 => ⟨S32x64, .f32⟩
  | 16 => ⟨S1x64, .f32⟩
  | 17 => ⟨S64, .f32⟩
  | 18 => ⟨S1x64x64, .f32⟩
  | 19 => ⟨S64x64, .f32⟩
  | 20 => ⟨S1x64, .f32⟩
  | 21 => ⟨S64, .f32⟩
  | 22 => ⟨S1x64x64, .f32⟩
  | 23 => ⟨S64x64, .f32⟩
  | 24 => ⟨S1x64, .f32⟩
  | 25 => ⟨S64, .f32⟩
  | 26 => ⟨S1250000x64, .f32⟩
  | 27 => ⟨S1x64, .f32⟩
  | 28 => ⟨S1250000x64, .f32⟩
  | 29 => ⟨S1250000x64, .f32⟩
  | 30 => ⟨S_, .i32⟩
  | 31 => ⟨S1250000, .i32⟩
  | 32 => ⟨S1250000, .i1⟩
  | 33 => ⟨S_, .i32⟩
  | 34 => ⟨S1250000, .i32⟩
  | 35 => ⟨S1250000, .i32⟩
  | 36 => ⟨S1250000, .i32⟩
  | 37 => ⟨S1250000x1, .i32⟩
  | 38 => ⟨S1250000x64, .f32⟩
  | 39 => ⟨S1250000x64, .f32⟩
  | 40 => ⟨S_, .f32⟩
  | 41 => ⟨S1250000x64, .f32⟩
  | 42 => ⟨S1250000x64, .f32⟩
  | 43 => ⟨S_, .f32⟩
  | 44 => ⟨S100000x64, .f32⟩
  | 45 => ⟨S1250000x1, .i32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S1, .f32⟩
  | 60 => ⟨S_, .f32⟩
  | 61 => ⟨S100000x64, .f32⟩
  | 62 => ⟨S100000x64, .f32⟩
  | 63 => ⟨S1, .f32⟩
  | 64 => ⟨S_, .f32⟩
  | 65 => ⟨S_, .f32⟩
  | 66 => ⟨S_, .f32⟩
  | 67 => ⟨S100000x64, .f32⟩
  | 68 => ⟨S100000x64, .f32⟩
  | 69 => ⟨S100000x64, .f32⟩
  | 70 => ⟨S1x32x64, .f32⟩
  | 71 => ⟨S32x64, .f32⟩
  | 72 => ⟨S1x64, .f32⟩
  | 73 => ⟨S64, .f32⟩
  | 74 => ⟨S1x64x64, .f32⟩
  | 75 => ⟨S64x64, .f32⟩
  | 76 => ⟨S1x64, .f32⟩
  | 77 => ⟨S64, .f32⟩
  | 78 => ⟨S1x64x64, .f32⟩
  | 79 => ⟨S64x64, .f32⟩
  | 80 => ⟨S1x64, .f32⟩
  | 81 => ⟨S64, .f32⟩
  | 82 => ⟨S1250000x64, .f32⟩
  | 83 => ⟨S1x64, .f32⟩
  | 84 => ⟨S1250000x64, .f32⟩
  | 85 => ⟨S1250000x64, .f32⟩
  | 86 => ⟨S_, .i32⟩
  | 87 => ⟨S1250000, .i32⟩
  | 88 => ⟨S1250000, .i1⟩
  | 89 => ⟨S_, .i32⟩
  | 90 => ⟨S1250000, .i32⟩
  | 91 => ⟨S1250000, .i32⟩
  | 92 => ⟨S1250000, .i32⟩
  | 93 => ⟨S1250000x1, .i32⟩
  | 94 => ⟨S1250000x64, .f32⟩
  | 95 => ⟨S1250000x64, .f32⟩
  | 96 => ⟨S_, .f32⟩
  | 97 => ⟨S1250000x64, .f32⟩
  | 98 => ⟨S1250000x64, .f32⟩
  | 99 => ⟨S_, .f32⟩
  | 100 => ⟨S100000x64, .f32⟩
  | 101 => ⟨S1250000x1, .i32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S1, .f32⟩
  | 116 => ⟨S_, .f32⟩
  | 117 => ⟨S100000x64, .f32⟩
  | 118 => ⟨S100000x64, .f32⟩
  | 119 => ⟨S1, .f32⟩
  | 120 => ⟨S_, .f32⟩
  | 121 => ⟨S_, .f32⟩
  | 122 => ⟨S_, .f32⟩
  | 123 => ⟨S100000x64, .f32⟩
  | 124 => ⟨S100000x64, .f32⟩
  | 125 => ⟨S100000x64, .f32⟩
  | 126 => ⟨S1x32x64, .f32⟩
  | 127 => ⟨S32x64, .f32⟩
  | _ => ⟨S100000x64, .f32⟩

abbrev hbmTy0_1 (i : Nat) : BufTy := match i % 128 with
  | 0 => ⟨S1x64, .f32⟩
  | 1 => ⟨S64, .f32⟩
  | 2 => ⟨S1x64x64, .f32⟩
  | 3 => ⟨S64x64, .f32⟩
  | 4 => ⟨S1x64, .f32⟩
  | 5 => ⟨S64, .f32⟩
  | 6 => ⟨S1x64x64, .f32⟩
  | 7 => ⟨S64x64, .f32⟩
  | 8 => ⟨S1x64, .f32⟩
  | 9 => ⟨S64, .f32⟩
  | 10 => ⟨S1250000x64, .f32⟩
  | 11 => ⟨S1x64, .f32⟩
  | 12 => ⟨S1250000x64, .f32⟩
  | 13 => ⟨S1250000x64, .f32⟩
  | 14 => ⟨S_, .i32⟩
  | 15 => ⟨S1250000, .i32⟩
  | 16 => ⟨S1250000, .i1⟩
  | 17 => ⟨S_, .i32⟩
  | 18 => ⟨S1250000, .i32⟩
  | 19 => ⟨S1250000, .i32⟩
  | 20 => ⟨S1250000, .i32⟩
  | 21 => ⟨S1250000x1, .i32⟩
  | 22 => ⟨S1250000x64, .f32⟩
  | 23 => ⟨S1250000x64, .f32⟩
  | 24 => ⟨S_, .f32⟩
  | 25 => ⟨S1250000x64, .f32⟩
  | 26 => ⟨S1250000x64, .f32⟩
  | 27 => ⟨S_, .f32⟩
  | 28 => ⟨S100000x64, .f32⟩
  | 29 => ⟨S1250000x1, .i32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S1, .f32⟩
  | 44 => ⟨S_, .f32⟩
  | 45 => ⟨S100000x64, .f32⟩
  | 46 => ⟨S100000x64, .f32⟩
  | 47 => ⟨S1, .f32⟩
  | 48 => ⟨S_, .f32⟩
  | 49 => ⟨S_, .f32⟩
  | 50 => ⟨S_, .f32⟩
  | 51 => ⟨S100000x64, .f32⟩
  | 52 => ⟨S100000x64, .f32⟩
  | 53 => ⟨S100000x64, .f32⟩
  | 54 => ⟨S100000x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_cst : Ref sig .tc := ⟨.hbm, 52, rfl⟩
abbrev main_call1_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_1 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_2 : Ref sig .tc := ⟨.hbm, 86, rfl⟩
abbrev main_v68 : Ref sig .tc := ⟨.hbm, 87, rfl⟩
abbrev main_v69 : Ref sig .tc := ⟨.hbm, 88, rfl⟩
abbrev main_c_3 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call2_cst : Ref sig .tc := ⟨.hbm, 96, rfl⟩
abbrev main_call2_v0 : Ref sig .tc := ⟨.hbm, 97, rfl⟩
abbrev main_v76 : Ref sig .tc := ⟨.hbm, 98, rfl⟩
abbrev main_cst_4 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call3_cst : Ref sig .tc := ⟨.hbm, 108, rfl⟩
abbrev main_call3_v0 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_5 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_c_6 : Ref sig .tc := ⟨.hbm, 142, rfl⟩
abbrev main_v116 : Ref sig .tc := ⟨.hbm, 143, rfl⟩
abbrev main_v117 : Ref sig .tc := ⟨.hbm, 144, rfl⟩
abbrev main_c_7 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_call4_cst : Ref sig .tc := ⟨.hbm, 152, rfl⟩
abbrev main_call4_v0 : Ref sig .tc := ⟨.hbm, 153, rfl⟩
abbrev main_v124 : Ref sig .tc := ⟨.hbm, 154, rfl⟩
abbrev main_cst_8 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_call5_cst : Ref sig .tc := ⟨.hbm, 164, rfl⟩
abbrev main_call5_v0 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_9 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  slices_S3_S1_0 : S3.Slices ![0] S1
  shapeCasts_S1_S_ : S1.ShapeCasts S_
  slices_S3x32x64_S1x32x64_1_0_0 : S3x32x64.Slices ![1, 0, 0] S1x32x64
  slices_S3x64_S1x64_1_0 : S3x64.Slices ![1, 0] S1x64
  slices_S3x64x64_S1x64x64_1_0_0 : S3x64x64.Slices ![1, 0, 0] S1x64x64
  slices_S3_S1_1 : S3.Slices ![1] S1
  slices_S3x32x64_S1x32x64_2_0_0 : S3x32x64.Slices ![2, 0, 0] S1x32x64
  slices_S3x64_S1x64_2_0 : S3x64.Slices ![2, 0] S1x64
  slices_S3x64x64_S1x64x64_2_0_0 : S3x64x64.Slices ![2, 0, 0] S1x64x64
  slices_S3_S1_2 : S3.Slices ![2] S1
  concatenates_S100000x64_S100000x64_S100000x64_S100000x64_S100000x256_d1 : Shape.Concatenates [S100000x64, S100000x64, S100000x64, S100000x64] S100000x256 1
  dot_S1250000x32_S32x64_S1250000x64_1_0_0_1_n_n_wf : DotDims.WF S1250000x32 S32x64 S1250000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def dot_S1250000x32_S32x64_S1250000x64_1_0_0_1_n_n : DotDims S1250000x32 S32x64 S1250000x64 where
  lhsContracting := [1]
  rhsContracting := [0]
  lhsNonContracting := [0]
  rhsNonContracting := [1]
  lhsBatch := []
  rhsBatch := []
  wf := dot_S1250000x32_S32x64_S1250000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelEdge0.lean ====
/-
  Region 0 of the program: one edge-message call. Over a grid of 250 points, point t reads rows
  5000·t … 5000·t+4999 of the edge features (width 32) and of the gathered source-node rows (width 64), the whole
  32×64 edge weight and the 1×64 edge bias, and writes the same rows of the message array:
  max(source + (features · weight + bias), 0).  Stated here, at any float instance and for any contents V the
  region is entered with: what each window's block is, what the body leaves in the output block as a pure function
  of the four input blocks, that the body runs without fault from whole staging buffers, and the resulting
  per-point obligation of the pipeline.
-/
import proofs.«155749_j23802708754725_1_alg».proof.Proof.Gen.Kernel.Launch
import proofs.«155749_j23802708754725_1_alg».proof.Proof.Gen.Kernel.Skeleton
import proofs.«155749_j23802708754725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds that window's block at every point, whether or not it was fetched
    there: an unfetched window's block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds that window's block at every point, whether or not it was fetched
    there: an unfetched window's block index has not moved since the previous point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds that window's block at every point, whether or not it was fetched
    there: an unfetched window's block index has not moved since the previous point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds that window's block at every point, whether or not it was fetched
    there: an unfetched window's block index has not moved since the previous point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rFeat0 : Rect S5000x32 := Rect.unit (s := S5000x32) ![0, 0] S5000x32.size inb_S5000x32_S5000x32_0_0
abbrev rRows0 : Rect S5000x64 := Rect.unit (s := S5000x64) ![0, 0] S5000x64.size inb_S5000x64_S5000x64_0_0
abbrev rWeight0 : Rect S32x64 := Rect.unit (s := S32x64) ![0, 0] S32x64.size inb_S32x64_S32x64_0_0
abbrev rBias0 : Rect S1x64 := Rect.unit (s := S1x64) ![0, 0] S1x64.size inb_S1x64_S1x64_0_0

/-- What the body leaves in the output block, from the four input blocks (features, source rows, weight, bias):
    its single whole-block store of the body's arithmetic. -/
def out0_4 (x0 : Vec F S5000x32 .f32) (x1 : Vec F S5000x64 .f32) (x2 : Vec F S32x64 .f32) (x3 : Vec F S1x64 .f32) : Vec F S5000x64 .f32 :=
  View.canon [⟨rRows0, k0_pay1 (View.ld x0 rFeat0) (View.ld x2 rWeight0) (View.ld x3 rBias0) (View.ld x1 rRows0)⟩]

/-- The one store covers the whole output block. -/
theorem cover0_4 (p0 : Vec F S5000x64 .f32) (y : S5000x64.Idx) :
    ∃ pc ∈ ([⟨rRows0, p0⟩] : List (View.Piece (Elt F) S5000x64 .f32)), y ∈ pc.1.set :=
  View.cover_of_tiled [⟨rRows0, p0⟩] S5000x64.size (by rfl) y

set_option maxHeartbeats 1000000 in
/-- The body, called on whole staging buffers whose inputs read x0 … x3 and whose output holds anything, runs to its
    end without fault, leaves the inputs as they were and the output at `out0_4` of the inputs. -/
theorem sound_kernel0 (c : Dev nD) (E : Set ℕ) (i : grid0.Coords)
    (arg1 : Memref sig .tc .vmem S5000x32 .f32) (harg1 : arg1.IsWhole) (arg2 : Memref sig .tc .vmem S5000x64 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x32 .f32) (x1 : Vec F S5000x64 .f32) (x2 : Vec F S32x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_kernel i arg1 harg1 arg2 harg2 arg3 harg3 arg4 harg4 arg5 harg5) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The pipeline's proof data on core c: the arrays as the region finds them; after the body at point t every input's
    buffer still at its block and the output's at `out0_4` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t: the invariant, the core's dues, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this region. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.KernelNode1.lean ====
/-
  Region 1 of the program: one node-update call. Over a grid of 20 points, point t reads rows
  5000·t … 5000·t+4999 of the node features and of the aggregated messages (both of width 64), the two whole 64×64
  weights and the two 1×64 biases, and writes the same rows of the updated array:
  max((x + aggregate) · W₁ + b₁, 0) · W₂ + b₂.  Stated here, at any float instance and for any contents V the
  region is entered with: what each window's block is, what the body leaves in the output block as a pure function
  of the six input blocks, that the body runs without fault from whole staging buffers, and the resulting
  per-point obligation of the pipeline.
-/
import proofs.«155749_j23802708754725_1_alg».proof.Proof.Gen.Kernel.Launch
import proofs.«155749_j23802708754725_1_alg».proof.Proof.Gen.Kernel.Skeleton
import proofs.«155749_j23802708754725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds that window's block at every point, whether or not it was fetched
    there: an unfetched window's block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds that window's block at every point, whether or not it was fetched
    there: an unfetched window's block index has not moved since the previous point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds that window's block at every point, whether or not it was fetched
    there: an unfetched window's block index has not moved since the previous point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds that window's block at every point, whether or not it was fetched
    there: an unfetched window's block index has not moved since the previous point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds that window's block at every point, whether or not it was fetched
    there: an unfetched window's block index has not moved since the previous point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds that window's block at every point, whether or not it was fetched
    there: an unfetched window's block index has not moved since the previous point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rRows1 : Rect S5000x64 := Rect.unit (s := S5000x64) ![0, 0] S5000x64.size inb_S5000x64_S5000x64_0_0
abbrev rWeight1 : Rect S64x64 := Rect.unit (s := S64x64) ![0, 0] S64x64.size inb_S64x64_S64x64_0_0
abbrev rBias1 : Rect S1x64 := Rect.unit (s := S1x64) ![0, 0] S1x64.size inb_S1x64_S1x64_0_0

/-- What the body leaves in the output block, from the six input blocks (node rows, aggregate rows, first weight,
    first bias, second weight, second bias): its single whole-block store of the body's arithmetic. -/
def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rRows1, k1_pay1 (View.ld x0 rRows1) (View.ld x1 rRows1) (View.ld x2 rWeight1) (View.ld x3 rBias1) (View.ld x4 rWeight1) (View.ld x5 rBias1)⟩]

/-- The one store covers the whole output block. -/
theorem cover1_6 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body, called on whole staging buffers whose inputs read x0 … x5 and whose output holds anything, runs to its
    end without fault, leaves the inputs as they were and the output at `out1_6` of the inputs. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__node_kernel i arg1 harg1 arg2 harg2 arg3 harg3 arg4 harg4 arg5 harg5 arg6 harg6 arg7 harg7) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The pipeline's proof data on core c: the arrays as the region finds them; after the body at point t every input's
    buffer still at its block and the output's at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t: the invariant, the core's dues, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's per-point obligation for this region. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.KernelEdge2.lean ====
/-
  Region 2 of the program: one edge-message call. Over a grid of 250 points, point t reads rows
  5000·t … 5000·t+4999 of the edge features (width 32) and of the gathered source-node rows (width 64), the whole
  32×64 edge weight and the 1×64 edge bias, and writes the same rows of the message array:
  max(source + (features · weight + bias), 0).  Stated here, at any float instance and for any contents V the
  region is entered with: what each window's block is, what the body leaves in the output block as a pure function
  of the four input blocks, that the body runs without fault from whole staging buffers, and the resulting
  per-point obligation of the pipeline.
-/
import proofs.«155749_j23802708754725_1_alg».proof.Proof.Gen.Kernel.Launch
import proofs.«155749_j23802708754725_1_alg».proof.Proof.Gen.Kernel.Skeleton
import proofs.«155749_j23802708754725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds that window's block at every point, whether or not it was fetched
    there: an unfetched window's block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds that window's block at every point, whether or not it was fetched
    there: an unfetched window's block index has not moved since the previous point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds that window's block at every point, whether or not it was fetched
    there: an unfetched window's block index has not moved since the previous point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds that window's block at every point, whether or not it was fetched
    there: an unfetched window's block index has not moved since the previous point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rFeat2 : Rect S5000x32 := Rect.unit (s := S5000x32) ![0, 0] S5000x32.size inb_S5000x32_S5000x32_0_0
abbrev rRows2 : Rect S5000x64 := Rect.unit (s := S5000x64) ![0, 0] S5000x64.size inb_S5000x64_S5000x64_0_0
abbrev rWeight2 : Rect S32x64 := Rect.unit (s := S32x64) ![0, 0] S32x64.size inb_S32x64_S32x64_0_0
abbrev rBias2 : Rect S1x64 := Rect.unit (s := S1x64) ![0, 0] S1x64.size inb_S1x64_S1x64_0_0

/-- What the body leaves in the output block, from the four input blocks (features, source rows, weight, bias):
    its single whole-block store of the body's arithmetic. -/
def out2_4 (x0 : Vec F S5000x32 .f32) (x1 : Vec F S5000x64 .f32) (x2 : Vec F S32x64 .f32) (x3 : Vec F S1x64 .f32) : Vec F S5000x64 .f32 :=
  View.canon [⟨rRows2, k2_pay1 (View.ld x0 rFeat2) (View.ld x2 rWeight2) (View.ld x3 rBias2) (View.ld x1 rRows2)⟩]

/-- The one store covers the whole output block. -/
theorem cover2_4 (p0 : Vec F S5000x64 .f32) (y : S5000x64.Idx) :
    ∃ pc ∈ ([⟨rRows2, p0⟩] : List (View.Piece (Elt F) S5000x64 .f32)), y ∈ pc.1.set :=
  View.cover_of_tiled [⟨rRows2, p0⟩] S5000x64.size (by rfl) y

set_option maxHeartbeats 1000000 in
/-- The body, called on whole staging buffers whose inputs read x0 … x3 and whose output holds anything, runs to its
    end without fault, leaves the inputs as they were and the output at `out2_4` of the inputs. -/
theorem sound_kernel2 (c : Dev nD) (E : Set ℕ) (i : grid2.Coords)
    (arg1 : Memref sig .tc .vmem S5000x32 .f32) (harg1 : arg1.IsWhole) (arg2 : Memref sig .tc .vmem S5000x64 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x32 .f32) (x1 : Vec F S5000x64 .f32) (x2 : Vec F S32x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__edge_kernel i arg1 harg1 arg2 harg2 arg3 harg3 arg4 harg4 arg5 harg5) K := by
  simp only [cc2__edge_kernel_eq_skeleton]; unfold cc2__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The pipeline's proof data on core c: the arrays as the region finds them; after the body at point t every input's
    buffer still at its block and the output's at `out2_4` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t: the invariant, the core's dues, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this region. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.KernelNode3.lean ====
/-
  Region 3 of the program: one node-update call. Over a grid of 20 points, point t reads rows
  5000·t … 5000·t+4999 of the node features and of the aggregated messages (both of width 64), the two whole 64×64
  weights and the two 1×64 biases, and writes the same rows of the updated array:
  max((x + aggregate) · W₁ + b₁, 0) · W₂ + b₂.  Stated here, at any float instance and for any contents V the
  region is entered with: what each window's block is, what the body leaves in the output block as a pure function
  of the six input blocks, that the body runs without fault from whole staging buffers, and the resulting
  per-point obligation of the pipeline.
-/
import proofs.«155749_j23802708754725_1_alg».proof.Proof.Gen.Kernel.Launch
import proofs.«155749_j23802708754725_1_alg».proof.Proof.Gen.Kernel.Skeleton
import proofs.«155749_j23802708754725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds that window's block at every point, whether or not it was fetched
    there: an unfetched window's block index has not moved since the previous point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds that window's block at every point, whether or not it was fetched
    there: an unfetched window's block index has not moved since the previous point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds that window's block at every point, whether or not it was fetched
    there: an unfetched window's block index has not moved since the previous point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds that window's block at every point, whether or not it was fetched
    there: an unfetched window's block index has not moved since the previous point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds that window's block at every point, whether or not it was fetched
    there: an unfetched window's block index has not moved since the previous point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds that window's block at every point, whether or not it was fetched
    there: an unfetched window's block index has not moved since the previous point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev rRows3 : Rect S5000x64 := Rect.unit (s := S5000x64) ![0, 0] S5000x64.size inb_S5000x64_S5000x64_0_0
abbrev rWeight3 : Rect S64x64 := Rect.unit (s := S64x64) ![0, 0] S64x64.size inb_S64x64_S64x64_0_0
abbrev rBias3 : Rect S1x64 := Rect.unit (s := S1x64) ![0, 0] S1x64.size inb_S1x64_S1x64_0_0

/-- What the body leaves in the output block, from the six input blocks (node rows, aggregate rows, first weight,
    first bias, second weight, second bias): its single whole-block store of the body's arithmetic. -/
def out3_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rRows3, k3_pay1 (View.ld x0 rRows3) (View.ld x1 rRows3) (View.ld x2 rWeight3) (View.ld x3 rBias3) (View.ld x4 rWeight3) (View.ld x5 rBias3)⟩]

/-- The one store covers the whole output block. -/
theorem cover3_6 (p0 : Vec F S5000x64 .f32) (y : S5000x64.Idx) :
    ∃ pc ∈ ([⟨rRows3, p0⟩] : List (View.Piece (Elt F) S5000x64 .f32)), y ∈ pc.1.set :=
  View.cover_of_tiled [⟨rRows3, p0⟩] S5000x64.size (by rfl) y

set_option maxHeartbeats 1000000 in
/-- The body, called on whole staging buffers whose inputs read x0 … x5 and whose output holds anything, runs to its
    end without fault, leaves the inputs as they were and the output at `out3_6` of the inputs. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__node_kernel i arg1 harg1 arg2 harg2 arg3 harg3 arg4 harg4 arg5 harg5 arg6 harg6 arg7 harg7) K := by
  simp only [cc3__node_kernel_eq_skeleton]; unfold cc3__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The pipeline's proof data on core c: the arrays as the region finds them; after the body at point t every input's
    buffer still at its block and the output's at `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point t: the invariant, the core's dues, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's run applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's per-point obligation for this region. -/
theorem body_obligation3 (c : Dev nD) : BodyObligation (dat3 (F := F) V c) (defs₀ (F := F)) Variants.none () Set.univ := fun t => by
  rw [bigSep_W3, bigSep_W3]
  exact sound_body3 V c t

end Cert.Kernel.Regions

end
-- ==== Proof.KernelEdge4.lean ====
/-
  Region 4 of the program: one edge-message call. Over a grid of 250 points, point t reads rows
  5000·t … 5000·t+4999 of the edge features (width 32) and of the gathered source-node rows (width 64), the whole
  32×64 edge weight and the 1×64 edge bias, and writes the same rows of the message array:
  max(source + (features · weight + bias), 0).  Stated here, at any float instance and for any contents V the
  region is entered with: what each window's block is, what the body leaves in the output block as a pure function
  of the four input blocks, that the body runs without fault from whole staging buffers, and the resulting
  per-point obligation of the pipeline.
-/
import proofs.«155749_j23802708754725_1_alg».proof.Proof.Gen.Kernel.Launch
import proofs.«155749_j23802708754725_1_alg».proof.Proof.Gen.Kernel.Skeleton
import proofs.«155749_j23802708754725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds that window's block at every point, whether or not it was fetched
    there: an unfetched window's block index has not moved since the previous point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds that window's block at every point, whether or not it was fetched
    there: an unfetched window's block index has not moved since the previous point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds that window's block at every point, whether or not it was fetched
    there: an unfetched window's block index has not moved since the previous point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds that window's block at every point, whether or not it was fetched
    there: an unfetched window's block index has not moved since the previous point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev rFeat4 : Rect S5000x32 := Rect.unit (s := S5000x32) ![0, 0] S5000x32.size inb_S5000x32_S5000x32_0_0
abbrev rRows4 : Rect S5000x64 := Rect.unit (s := S5000x64) ![0, 0] S5000x64.size inb_S5000x64_S5000x64_0_0
abbrev rWeight4 : Rect S32x64 := Rect.unit (s := S32x64) ![0, 0] S32x64.size inb_S32x64_S32x64_0_0
abbrev rBias4 : Rect S1x64 := Rect.unit (s := S1x64) ![0, 0] S1x64.size inb_S1x64_S1x64_0_0

/-- What the body leaves in the output block, from the four input blocks (features, source rows, weight, bias):
    its single whole-block store of the body's arithmetic. -/
def out4_4 (x0 : Vec F S5000x32 .f32) (x1 : Vec F S5000x64 .f32) (x2 : Vec F S32x64 .f32) (x3 : Vec F S1x64 .f32) : Vec F S5000x64 .f32 :=
  View.canon [⟨rRows4, k4_pay1 (View.ld x0 rFeat4) (View.ld x2 rWeight4) (View.ld x3 rBias4) (View.ld x1 rRows4)⟩]

/-- The one store covers the whole output block. -/
theorem cover4_4 (p0 : Vec F S5000x64 .f32) (y : S5000x64.Idx) :
    ∃ pc ∈ ([⟨rRows4, p0⟩] : List (View.Piece (Elt F) S5000x64 .f32)), y ∈ pc.1.set :=
  View.cover_of_tiled [⟨rRows4, p0⟩] S5000x64.size (by rfl) y

set_option maxHeartbeats 1000000 in
/-- The body, called on whole staging buffers whose inputs read x0 … x3 and whose output holds anything, runs to its
    end without fault, leaves the inputs as they were and the output at `out4_4` of the inputs. -/
theorem sound_kernel4 (c : Dev nD) (E : Set ℕ) (i : grid4.Coords)
    (arg1 : Memref sig .tc .vmem S5000x32 .f32) (harg1 : arg1.IsWhole) (arg2 : Memref sig .tc .vmem S5000x64 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x32 .f32) (x1 : Vec F S5000x64 .f32) (x2 : Vec F S32x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__edge_kernel i arg1 harg1 arg2 harg2 arg3 harg3 arg4 harg4 arg5 harg5) K := by
  simp only [cc4__edge_kernel_eq_skeleton]; unfold cc4__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The pipeline's proof data on core c: the arrays as the region finds them; after the body at point t every input's
    buffer still at its block and the output's at `out4_4` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point t: the invariant, the core's dues, and each window's current buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the body's run applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this region. -/
theorem body_obligation4 (c : Dev nD) : BodyObligation (dat4 (F := F) V c) (defs₀ (F := F)) Variants.none () Set.univ := fun t => by
  rw [bigSep_W4, bigSep_W4]
  exact sound_body4 V c t

end Cert.Kernel.Regions

end
-- ==== Proof.KernelNode5.lean ====
/-
  Region 5 of the program: one node-update call. Over a grid of 20 points, point t reads rows
  5000·t … 5000·t+4999 of the node features and of the aggregated messages (both of width 64), the two whole 64×64
  weights and the two 1×64 biases, and writes the same rows of the updated array:
  max((x + aggregate) · W₁ + b₁, 0) · W₂ + b₂.  Stated here, at any float instance and for any contents V the
  region is entered with: what each window's block is, what the body leaves in the output block as a pure function
  of the six input blocks, that the body runs without fault from whole staging buffers, and the resulting
  per-point obligation of the pipeline.
-/
import proofs.«155749_j23802708754725_1_alg».proof.Proof.Gen.Kernel.Launch
import proofs.«155749_j23802708754725_1_alg».proof.Proof.Gen.Kernel.Skeleton
import proofs.«155749_j23802708754725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds that window's block at every point, whether or not it was fetched
    there: an unfetched window's block index has not moved since the previous point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds that window's block at every point, whether or not it was fetched
    there: an unfetched window's block index has not moved since the previous point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds that window's block at every point, whether or not it was fetched
    there: an unfetched window's block index has not moved since the previous point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds that window's block at every point, whether or not it was fetched
    there: an unfetched window's block index has not moved since the previous point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds that window's block at every point, whether or not it was fetched
    there: an unfetched window's block index has not moved since the previous point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds that window's block at every point, whether or not it was fetched
    there: an unfetched window's block index has not moved since the previous point. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev rRows5 : Rect S5000x64 := Rect.unit (s := S5000x64) ![0, 0] S5000x64.size inb_S5000x64_S5000x64_0_0
abbrev rWeight5 : Rect S64x64 := Rect.unit (s := S64x64) ![0, 0] S64x64.size inb_S64x64_S64x64_0_0
abbrev rBias5 : Rect S1x64 := Rect.unit (s := S1x64) ![0, 0] S1x64.size inb_S1x64_S1x64_0_0

/-- What the body leaves in the output block, from the six input blocks (node rows, aggregate rows, first weight,
    first bias, second weight, second bias): its single whole-block store of the body's arithmetic. -/
def out5_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rRows5, k5_pay1 (View.ld x0 rRows5) (View.ld x1 rRows5) (View.ld x2 rWeight5) (View.ld x3 rBias5) (View.ld x4 rWeight5) (View.ld x5 rBias5)⟩]

/-- The one store covers the whole output block. -/
theorem cover5_6 (p0 : Vec F S5000x64 .f32) (y : S5000x64.Idx) :
    ∃ pc ∈ ([⟨rRows5, p0⟩] : List (View.Piece (Elt F) S5000x64 .f32)), y ∈ pc.1.set :=
  View.cover_of_tiled [⟨rRows5, p0⟩] S5000x64.size (by rfl) y

set_option maxHeartbeats 1000000 in
/-- The body, called on whole staging buffers whose inputs read x0 … x5 and whose output holds anything, runs to its
    end without fault, leaves the inputs as they were and the output at `out5_6` of the inputs. -/
theorem sound_kernel5 (c : Dev nD) (E : Set ℕ) (i : grid5.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__node_kernel i arg1 harg1 arg2 harg2 arg3 harg3 arg4 harg4 arg5 harg5 arg6 harg6 arg7 harg7) K := by
  simp only [cc5__node_kernel_eq_skeleton]; unfold cc5__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The pipeline's proof data on core c: the arrays as the region finds them; after the body at point t every input's
    buffer still at its block and the output's at `out5_6` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point t: the invariant, the core's dues, and each window's current buffer. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's run applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's per-point obligation for this region. -/
theorem body_obligation5 (c : Dev nD) : BodyObligation (dat5 (F := F) V c) (defs₀ (F := F)) Variants.none () Set.univ := fun t => by
  rw [bigSep_W5, bigSep_W5]
  exact sound_body5 V c t

end Cert.Kernel.Regions

end
-- ==== Proof.KernelRun.lean ====
/-
  The whole program as a run. @main is seven stretches of host operations with six kernel regions between them
  (edge message, node update, three times over). The contents of every buffer at each of the fourteen boundaries
  are a fold from the launch memory: a host stretch applies its operations in order; a region replaces its output
  array by what its grid points wrote back and leaves every other buffer as entered. From the six regions' per-point
  obligations, every weakly fair execution terminates without fault with EVERY unscoped buffer at the last
  boundary's contents — which gives both that the argument arrays end as launched and what the result array holds.
-/
import proofs.«155749_j23802708754725_1_alg».proof.Proof.Gen.Kernel.Launch
import proofs.«155749_j23802708754725_1_alg».proof.Proof.Gen.Kernel.Skeleton
import proofs.«155749_j23802708754725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155749_j23802708754725_1_alg».proof.Proof.KernelEdge0
import proofs.«155749_j23802708754725_1_alg».proof.Proof.KernelNode1
import proofs.«155749_j23802708754725_1_alg».proof.Proof.KernelEdge2
import proofs.«155749_j23802708754725_1_alg».proof.Proof.KernelNode3
import proofs.«155749_j23802708754725_1_alg».proof.Proof.KernelEdge4
import proofs.«155749_j23802708754725_1_alg».proof.Proof.KernelNode5
import proofs.«155749_j23802708754725_1_alg».proof.Proof.Gen.Kernel.Regions
set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After host stretch 0. -/
abbrev W1 : Dev nD → Valuation τ sig (Elt F) := fun c => StableHlo.after hostOps0 (W0 m ρ c)
/-- The same, read at the TensorCore's references: what region 0 is entered with. -/
abbrev entry0 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (entry0 m ρ) c).arrAt w cfg0.N
theorem W2_arr (c : Dev nD) (w : Fin cfg0.W) :
    W2 m ρ c (Proc.devRef .tc (Pipeline.arrRef spec0 w)) = (dat0 (entry0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev exit0 : (c : Dev nD) → (b : Ref sig .tc) → Buf (Elt F) ((c : Thread nD τ).loc b) := fun c b => W2 m ρ c b
theorem hF0 (c : Dev nD) (w : Fin cfg0.W) : (dat0 (entry0 m ρ) c).arrAt w cfg0.N = exit0 m ρ c (Pipeline.arrRef spec0 w) :=
  (W2_arr m ρ c w).symm
theorem hrest0 (c : Dev nD) : ∀ b, b ∉ Finset.univ.image (Pipeline.arrRef spec0) → exit0 m ρ c b = entry0 m ρ c b :=
  fun b hb => W2_of_ne m ρ c b fun w e => hb (Finset.mem_image.mpr ⟨w, Finset.mem_univ _, e⟩)
/-- A region changes only its output array: an input window's array ends as entered, any other buffer is untouched. -/
theorem W2_keep (c : Dev nD) (b : Ref sig .tc) (hb : b ≠ main_v16) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 5, Pipeline.arrRef spec0 w ≠ main_v16 → (cfg0.win w).isOut = false) w hb
    rw [W2_arr]
    exact ((dat0 (entry0 m ρ) c).arrAt_in w hin _).trans (A_eq0 (entry0 m ρ) c w)
  · exact W2_of_ne m ρ c b fun w e => h ⟨w, e⟩
/-- After host stretch 1. -/
abbrev W3 : Dev nD → Valuation τ sig (Elt F) := fun c => StableHlo.after hostOps1 (W2 m ρ c)
/-- The same, read at the TensorCore's references: what region 1 is entered with. -/
abbrev entry1 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (entry1 m ρ) c).arrAt w cfg1.N
theorem W4_arr (c : Dev nD) (w : Fin cfg1.W) :
    W4 m ρ c (Proc.devRef .tc (Pipeline.arrRef spec1 w)) = (dat1 (entry1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev exit1 : (c : Dev nD) → (b : Ref sig .tc) → Buf (Elt F) ((c : Thread nD τ).loc b) := fun c b => W4 m ρ c b
theorem hF1 (c : Dev nD) (w : Fin cfg1.W) : (dat1 (entry1 m ρ) c).arrAt w cfg1.N = exit1 m ρ c (Pipeline.arrRef spec1 w) :=
  (W4_arr m ρ c w).symm
theorem hrest1 (c : Dev nD) : ∀ b, b ∉ Finset.univ.image (Pipeline.arrRef spec1) → exit1 m ρ c b = entry1 m ρ c b :=
  fun b hb => W4_of_ne m ρ c b fun w e => hb (Finset.mem_image.mpr ⟨w, Finset.mem_univ _, e⟩)
/-- A region changes only its output array: an input window's array ends as entered, any other buffer is untouched. -/
theorem W4_keep (c : Dev nD) (b : Ref sig .tc) (hb : b ≠ main_v30) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 7, Pipeline.arrRef spec1 w ≠ main_v30 → (cfg1.win w).isOut = false) w hb
    rw [W4_arr]
    exact ((dat1 (entry1 m ρ) c).arrAt_in w hin _).trans (A_eq1 (entry1 m ρ) c w)
  · exact W4_of_ne m ρ c b fun w e => h ⟨w, e⟩
/-- After host stretch 2. -/
abbrev W5 : Dev nD → Valuation τ sig (Elt F) := fun c => StableHlo.after hostOps2 (W4 m ρ c)
/-- The same, read at the TensorCore's references: what region 2 is entered with. -/
abbrev entry2 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (entry2 m ρ) c).arrAt w cfg2.N
theorem W6_arr (c : Dev nD) (w : Fin cfg2.W) :
    W6 m ρ c (Proc.devRef .tc (Pipeline.arrRef spec2 w)) = (dat2 (entry2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev exit2 : (c : Dev nD) → (b : Ref sig .tc) → Buf (Elt F) ((c : Thread nD τ).loc b) := fun c b => W6 m ρ c b
theorem hF2 (c : Dev nD) (w : Fin cfg2.W) : (dat2 (entry2 m ρ) c).arrAt w cfg2.N = exit2 m ρ c (Pipeline.arrRef spec2 w) :=
  (W6_arr m ρ c w).symm
theorem hrest2 (c : Dev nD) : ∀ b, b ∉ Finset.univ.image (Pipeline.arrRef spec2) → exit2 m ρ c b = entry2 m ρ c b :=
  fun b hb => W6_of_ne m ρ c b fun w e => hb (Finset.mem_image.mpr ⟨w, Finset.mem_univ _, e⟩)
/-- A region changes only its output array: an input window's array ends as entered, any other buffer is untouched. -/
theorem W6_keep (c : Dev nD) (b : Ref sig .tc) (hb : b ≠ main_v51) :
    W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin 5, Pipeline.arrRef spec2 w ≠ main_v51 → (cfg2.win w).isOut = false) w hb
    rw [W6_arr]
    exact ((dat2 (entry2 m ρ) c).arrAt_in w hin _).trans (A_eq2 (entry2 m ρ) c w)
  · exact W6_of_ne m ρ c b fun w e => h ⟨w, e⟩
/-- After host stretch 3. -/
abbrev W7 : Dev nD → Valuation τ sig (Elt F) := fun c => StableHlo.after hostOps3 (W6 m ρ c)
/-- The same, read at the TensorCore's references: what region 3 is entered with. -/
abbrev entry3 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (entry3 m ρ) c).arrAt w cfg3.N
theorem W8_arr (c : Dev nD) (w : Fin cfg3.W) :
    W8 m ρ c (Proc.devRef .tc (Pipeline.arrRef spec3 w)) = (dat3 (entry3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev exit3 : (c : Dev nD) → (b : Ref sig .tc) → Buf (Elt F) ((c : Thread nD τ).loc b) := fun c b => W8 m ρ c b
theorem hF3 (c : Dev nD) (w : Fin cfg3.W) : (dat3 (entry3 m ρ) c).arrAt w cfg3.N = exit3 m ρ c (Pipeline.arrRef spec3 w) :=
  (W8_arr m ρ c w).symm
theorem hrest3 (c : Dev nD) : ∀ b, b ∉ Finset.univ.image (Pipeline.arrRef spec3) → exit3 m ρ c b = entry3 m ρ c b :=
  fun b hb => W8_of_ne m ρ c b fun w e => hb (Finset.mem_image.mpr ⟨w, Finset.mem_univ _, e⟩)
/-- A region changes only its output array: an input window's array ends as entered, any other buffer is untouched. -/
theorem W8_keep (c : Dev nD) (b : Ref sig .tc) (hb : b ≠ main_v65) :
    W8 m ρ c (Proc.devRef .tc b) = W7 m ρ c (Proc.devRef .tc b) := by
  by_cases h : ∃ w, Pipeline.arrRef spec3 w = b
  · obtain ⟨w, rfl⟩ := h
    have hin : (cfg3.win w).isOut = false :=
      (by decide : ∀ w : Fin 7, Pipeline.arrRef spec3 w ≠ main_v65 → (cfg3.win w).isOut = false) w hb
    rw [W8_arr]
    exact ((dat3 (entry3 m ρ) c).arrAt_in w hin _).trans (A_eq3 (entry3 m ρ) c w)
  · exact W8_of_ne m ρ c b fun w e => h ⟨w, e⟩
/-- After host stretch 4. -/
abbrev W9 : Dev nD → Valuation τ sig (Elt F) := fun c => StableHlo.after hostOps4 (W8 m ρ c)
/-- The same, read at the TensorCore's references: what region 4 is entered with. -/
abbrev entry4 : (c : Dev nD) → (b : Ref sig .tc) → Buf (Elt F) ((c : Thread nD τ).loc b) := fun c b => W9 m ρ c b
/-- After region 4: its arrays at what the pipeline leaves, every other buffer as entered. -/
def W10 (c : Dev nD) : Valuation τ sig (Elt F) :=
  Pipeline.withArrays spec4 c (W9 m ρ c) fun w => (dat4 (entry4 m ρ) c).arrAt w cfg4.N
theorem W10_arr (c : Dev nD) (w : Fin cfg4.W) :
    W10 m ρ c (Proc.devRef .tc (Pipeline.arrRef spec4 w)) = (dat4 (entry4 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev exit4 : (c : Dev nD) → (b : Ref sig .tc) → Buf (Elt F) ((c : Thread nD τ).loc b) := fun c b => W10 m ρ c b
theorem hF4 (c : Dev nD) (w : Fin cfg4.W) : (dat4 (entry4 m ρ) c).arrAt w cfg4.N = exit4 m ρ c (Pipeline.arrRef spec4 w) :=
  (W10_arr m ρ c w).symm
theorem hrest4 (c : Dev nD) : ∀ b, b ∉ Finset.univ.image (Pipeline.arrRef spec4) → exit4 m ρ c b = entry4 m ρ c b :=
  fun b hb => W10_of_ne m ρ c b fun w e => hb (Finset.mem_image.mpr ⟨w, Finset.mem_univ _, e⟩)
/-- A region changes only its output array: an input window's array ends as entered, any other buffer is untouched. -/
theorem W10_keep (c : Dev nD) (b : Ref sig .tc) (hb : b ≠ main_v86) :
    W10 m ρ c (Proc.devRef .tc b) = W9 m ρ c (Proc.devRef .tc b) := by
  by_cases h : ∃ w, Pipeline.arrRef spec4 w = b
  · obtain ⟨w, rfl⟩ := h
    have hin : (cfg4.win w).isOut = false :=
      (by decide : ∀ w : Fin 5, Pipeline.arrRef spec4 w ≠ main_v86 → (cfg4.win w).isOut = false) w hb
    rw [W10_arr]
    exact ((dat4 (entry4 m ρ) c).arrAt_in w hin _).trans (A_eq4 (entry4 m ρ) c w)
  · exact W10_of_ne m ρ c b fun w e => h ⟨w, e⟩
/-- After host stretch 5. -/
abbrev W11 : Dev nD → Valuation τ sig (Elt F) := fun c => StableHlo.after hostOps5 (W10 m ρ c)
/-- The same, read at the TensorCore's references: what region 5 is entered with. -/
abbrev entry5 : (c : Dev nD) → (b : Ref sig .tc) → Buf (Elt F) ((c : Thread nD τ).loc b) := fun c b => W11 m ρ c b
/-- After region 5: its arrays at what the pipeline leaves, every other buffer as entered. -/
def W12 (c : Dev nD) : Valuation τ sig (Elt F) :=
  Pipeline.withArrays spec5 c (W11 m ρ c) fun w => (dat5 (entry5 m ρ) c).arrAt w cfg5.N
theorem W12_arr (c : Dev nD) (w : Fin cfg5.W) :
    W12 m ρ c (Proc.devRef .tc (Pipeline.arrRef spec5 w)) = (dat5 (entry5 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev exit5 : (c : Dev nD) → (b : Ref sig .tc) → Buf (Elt F) ((c : Thread nD τ).loc b) := fun c b => W12 m ρ c b
theorem hF5 (c : Dev nD) (w : Fin cfg5.W) : (dat5 (entry5 m ρ) c).arrAt w cfg5.N = exit5 m ρ c (Pipeline.arrRef spec5 w) :=
  (W12_arr m ρ c w).symm
theorem hrest5 (c : Dev nD) : ∀ b, b ∉ Finset.univ.image (Pipeline.arrRef spec5) → exit5 m ρ c b = entry5 m ρ c b :=
  fun b hb => W12_of_ne m ρ c b fun w e => hb (Finset.mem_image.mpr ⟨w, Finset.mem_univ _, e⟩)
/-- A region changes only its output array: an input window's array ends as entered, any other buffer is untouched. -/
theorem W12_keep (c : Dev nD) (b : Ref sig .tc) (hb : b ≠ main_v100) :
    W12 m ρ c (Proc.devRef .tc b) = W11 m ρ c (Proc.devRef .tc b) := by
  by_cases h : ∃ w, Pipeline.arrRef spec5 w = b
  · obtain ⟨w, rfl⟩ := h
    have hin : (cfg5.win w).isOut = false :=
      (by decide : ∀ w : Fin 7, Pipeline.arrRef spec5 w ≠ main_v100 → (cfg5.win w).isOut = false) w hb
    rw [W12_arr]
    exact ((dat5 (entry5 m ρ) c).arrAt_in w hin _).trans (A_eq5 (entry5 m ρ) c w)
  · exact W12_of_ne m ρ c b fun w e => h ⟨w, e⟩
/-- After host stretch 6. -/
abbrev W13 : Dev nD → Valuation τ sig (Elt F) := fun c => StableHlo.after hostOps6 (W12 m ρ c)

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (entry0 m ρ) c
  | ⟨1, _⟩ => fun c => dat1 (entry1 m ρ) c
  | ⟨2, _⟩ => fun c => dat2 (entry2 m ρ) c
  | ⟨3, _⟩ => fun c => dat3 (entry3 m ρ) c
  | ⟨4, _⟩ => fun c => dat4 (entry4 m ρ) c
  | ⟨5, _⟩ => fun c => dat5 (entry5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 over the thread state: entered with every unscoped buffer at boundary 1's contents, left at boundary 2's.
    Its arrays are split out of the unscoped buffers on entry and put back at their final contents on exit; the
    generator register passes through the pipeline's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (exit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at boundary 3's contents, left at boundary 4's.
    Its arrays are split out of the unscoped buffers on entry and put back at their final contents on exit; the
    generator register passes through the pipeline's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (entry1 m ρ c) (exit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at boundary 5's contents, left at boundary 6's.
    Its arrays are split out of the unscoped buffers on entry and put back at their final contents on exit; the
    generator register passes through the pipeline's invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (entry2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (entry2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (entry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (entry2 m ρ c) (exit2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at boundary 7's contents, left at boundary 8's.
    Its arrays are split out of the unscoped buffers on entry and put back at their final contents on exit; the
    generator register passes through the pipeline's invariant; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (entry3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (entry3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (entry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (entry3 m ρ c) (exit3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at boundary 9's contents, left at boundary 10's.
    Its arrays are split out of the unscoped buffers on entry and put back at their final contents on exit; the
    generator register passes through the pipeline's invariant; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (entry4 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (entry4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (entry4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (entry4 m ρ c) (exit4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at boundary 11's contents, left at boundary 12's.
    Its arrays are split out of the unscoped buffers on entry and put back at their final contents on exit; the
    generator register passes through the pipeline's invariant; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (entry5 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (entry5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (entry5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (entry5 m ρ c) (exit5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters, every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-! ## The argument arrays end as launched -/

/-- A host stretch leaves alone every buffer it does not write; a region every buffer but its output array. So a
    buffer written by nothing reaches the last boundary with its launch contents. -/
theorem W13_of_unwritten (c : Dev nD) (b : Ref sig .tc)
    (h0 : b ∉ hostOps0_W) (h1 : b ∉ hostOps1_W) (h2 : b ∉ hostOps2_W) (h3 : b ∉ hostOps3_W) (h4 : b ∉ hostOps4_W)
    (h5 : b ∉ hostOps5_W) (h6 : b ∉ hostOps6_W)
    (r0 : b ≠ main_v16) (r1 : b ≠ main_v30) (r2 : b ≠ main_v51) (r3 : b ≠ main_v65) (r4 : b ≠ main_v86) (r5 : b ≠ main_v100) :
    W13 m ρ c (Proc.devRef .tc b) = m ((c : Thread nD τ).loc b) :=
  calc W13 m ρ c (Proc.devRef .tc b)
    _ = W12 m ρ c (Proc.devRef .tc b) := StableHlo.after_of_writes_sub hostOps6 _ hostOps6_writes h6
    _ = W11 m ρ c (Proc.devRef .tc b) := W12_keep m ρ c b r5
    _ = W10 m ρ c (Proc.devRef .tc b) := StableHlo.after_of_writes_sub hostOps5 _ hostOps5_writes h5
    _ = W9 m ρ c (Proc.devRef .tc b) := W10_keep m ρ c b r4
    _ = W8 m ρ c (Proc.devRef .tc b) := StableHlo.after_of_writes_sub hostOps4 _ hostOps4_writes h4
    _ = W7 m ρ c (Proc.devRef .tc b) := W8_keep m ρ c b r3
    _ = W6 m ρ c (Proc.devRef .tc b) := StableHlo.after_of_writes_sub hostOps3 _ hostOps3_writes h3
    _ = W5 m ρ c (Proc.devRef .tc b) := W6_keep m ρ c b r2
    _ = W4 m ρ c (Proc.devRef .tc b) := StableHlo.after_of_writes_sub hostOps2 _ hostOps2_writes h2
    _ = W3 m ρ c (Proc.devRef .tc b) := W4_keep m ρ c b r1
    _ = W2 m ρ c (Proc.devRef .tc b) := StableHlo.after_of_writes_sub hostOps1 _ hostOps1_writes h1
    _ = W1 m ρ c (Proc.devRef .tc b) := W2_keep m ρ c b r0
    _ = W0 m ρ c (Proc.devRef .tc b) := StableHlo.after_of_writes_sub hostOps0 _ hostOps0_writes h0
    _ = m ((c : Thread nD τ).loc b) := rfl

/-- The run with the ten argument arrays read back: the frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W13_of_unwritten m ρ c main_arg0 (by decide) (by decide) (by decide) (by decide) (by decide) (by decide) (by decide) (by decide) (by decide) (by decide) (by decide) (by decide) (by decide)),
    (h c _ (mem_uc main_arg1 (by decide))).trans (W13_of_unwritten m ρ c main_arg1 (by decide) (by decide) (by decide) (by decide) (by decide) (by decide) (by decide) (by decide) (by decide) (by decide) (by decide) (by decide) (by decide)),
    (h c _ (mem_uc main_arg2 (by decide))).trans (W13_of_unwritten m ρ c main_arg2 (by decide) (by decide) (by decide) (by decide) (by decide) (by decide) (by decide) (by decide) (by decide) (by decide) (by decide) (by decide) (by decide)),
    (h c _ (mem_uc main_arg3 (by decide))).trans (W13_of_unwritten m ρ c main_arg3 (by decide) (by decide) (by decide) (by decide) (by decide) (by decide) (by decide) (by decide) (by decide) (by decide) (by decide) (by decide) (by decide)),
    (h c _ (mem_uc main_arg4 (by decide))).trans (W13_of_unwritten m ρ c main_arg4 (by decide) (by decide) (by decide) (by decide) (by decide) (by decide) (by decide) (by decide) (by decide) (by decide) (by decide) (by decide) (by decide)),
    (h c _ (mem_uc main_arg5 (by decide))).trans (W13_of_unwritten m ρ c main_arg5 (by decide) (by decide) (by decide) (by decide) (by decide) (by decide) (by decide) (by decide) (by decide) (by decide) (by decide) (by decide) (by decide)),
    (h c _ (mem_uc main_arg6 (by decide))).trans (W13_of_unwritten m ρ c main_arg6 (by decide) (by decide) (by decide) (by decide) (by decide) (by decide) (by decide) (by decide) (by decide) (by decide) (by decide) (by decide) (by decide)),
    (h c _ (mem_uc main_arg7 (by decide))).trans (W13_of_unwritten m ρ c main_arg7 (by decide) (by decide) (by decide) (by decide) (by decide) (by decide) (by decide) (by decide) (by decide) (by decide) (by decide) (by decide) (by decide)),
    (h c _ (mem_uc main_arg8 (by decide))).trans (W13_of_unwritten m ρ c main_arg8 (by decide) (by decide) (by decide) (by decide) (by decide) (by decide) (by decide) (by decide) (by decide) (by decide) (by decide) (by decide) (by decide)),
    (h c _ (mem_uc main_arg9 (by decide))).trans (W13_of_unwritten m ρ c main_arg9 (by decide) (by decide) (by decide) (by decide) (by decide) (by decide) (by decide) (by decide) (by decide) (by decide) (by decide) (by decide) (by decide))⟩)
    (run_all m ρ)

end Cert.Kernel.Regions

end
-- ==== Proof.KernelIdealEdge0.lean ====
/-
  Region 0 of the program: one edge-message call. Over a grid of 250 points, point t reads rows
  5000·t … 5000·t+4999 of the edge features (width 32) and of the gathered source-node rows (width 64), the whole
  32×64 edge weight and the 1×64 edge bias, and writes the same rows of the message array:
  max(source + (features · weight + bias), 0).  Stated here, at any float instance and for any contents V the
  region is entered with: what each window's block is, what the body leaves in the output block as a pure function
  of the four input blocks, that the body runs without fault from whole staging buffers, and the resulting
  per-point obligation of the pipeline.
-/
import proofs.«155749_j23802708754725_1_alg».proof.Proof.Gen.KernelIdeal.Launch
import proofs.«155749_j23802708754725_1_alg».proof.Proof.Gen.KernelIdeal.Skeleton
import proofs.«155749_j23802708754725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds that window's block at every point, whether or not it was fetched
    there: an unfetched window's block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds that window's block at every point, whether or not it was fetched
    there: an unfetched window's block index has not moved since the previous point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds that window's block at every point, whether or not it was fetched
    there: an unfetched window's block index has not moved since the previous point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds that window's block at every point, whether or not it was fetched
    there: an unfetched window's block index has not moved since the previous point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rFeat0 : Rect S5000x32 := Rect.unit (s := S5000x32) ![0, 0] S5000x32.size inb_S5000x32_S5000x32_0_0
abbrev rRows0 : Rect S5000x64 := Rect.unit (s := S5000x64) ![0, 0] S5000x64.size inb_S5000x64_S5000x64_0_0
abbrev rWeight0 : Rect S32x64 := Rect.unit (s := S32x64) ![0, 0] S32x64.size inb_S32x64_S32x64_0_0
abbrev rBias0 : Rect S1x64 := Rect.unit (s := S1x64) ![0, 0] S1x64.size inb_S1x64_S1x64_0_0

/-- What the body leaves in the output block, from the four input blocks (features, source rows, weight, bias):
    its single whole-block store of the body's arithmetic. -/
def out0_4 (x0 : Vec F S5000x32 .f32) (x1 : Vec F S5000x64 .f32) (x2 : Vec F S32x64 .f32) (x3 : Vec F S1x64 .f32) : Vec F S5000x64 .f32 :=
  View.canon [⟨rRows0, k0_pay1 (View.ld x0 rFeat0) (View.ld x2 rWeight0) (View.ld x3 rBias0) (View.ld x1 rRows0)⟩]

/-- The one store covers the whole output block. -/
theorem cover0_4 (p0 : Vec F S5000x64 .f32) (y : S5000x64.Idx) :
    ∃ pc ∈ ([⟨rRows0, p0⟩] : List (View.Piece (Elt F) S5000x64 .f32)), y ∈ pc.1.set :=
  View.cover_of_tiled [⟨rRows0, p0⟩] S5000x64.size (by rfl) y

set_option maxHeartbeats 1000000 in
/-- The body, called on whole staging buffers whose inputs read x0 … x3 and whose output holds anything, runs to its
    end without fault, leaves the inputs as they were and the output at `out0_4` of the inputs. -/
theorem sound_kernel0 (c : Dev nD) (E : Set ℕ) (i : grid0.Coords)
    (arg1 : Memref sig .tc .vmem S5000x32 .f32) (harg1 : arg1.IsWhole) (arg2 : Memref sig .tc .vmem S5000x64 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x32 .f32) (x1 : Vec F S5000x64 .f32) (x2 : Vec F S32x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_kernel i arg1 harg1 arg2 harg2 arg3 harg3 arg4 harg4 arg5 harg5) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The pipeline's proof data on core c: the arrays as the region finds them; after the body at point t every input's
    buffer still at its block and the output's at `out0_4` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t: the invariant, the core's dues, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this region. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.KernelIdealNode1.lean ====
/-
  Region 1 of the program: one node-update call. Over a grid of 20 points, point t reads rows
  5000·t … 5000·t+4999 of the node features and of the aggregated messages (both of width 64), the two whole 64×64
  weights and the two 1×64 biases, and writes the same rows of the updated array:
  max((x + aggregate) · W₁ + b₁, 0) · W₂ + b₂.  Stated here, at any float instance and for any contents V the
  region is entered with: what each window's block is, what the body leaves in the output block as a pure function
  of the six input blocks, that the body runs without fault from whole staging buffers, and the resulting
  per-point obligation of the pipeline.
-/
import proofs.«155749_j23802708754725_1_alg».proof.Proof.Gen.KernelIdeal.Launch
import proofs.«155749_j23802708754725_1_alg».proof.Proof.Gen.KernelIdeal.Skeleton
import proofs.«155749_j23802708754725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds that window's block at every point, whether or not it was fetched
    there: an unfetched window's block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds that window's block at every point, whether or not it was fetched
    there: an unfetched window's block index has not moved since the previous point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds that window's block at every point, whether or not it was fetched
    there: an unfetched window's block index has not moved since the previous point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds that window's block at every point, whether or not it was fetched
    there: an unfetched window's block index has not moved since the previous point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds that window's block at every point, whether or not it was fetched
    there: an unfetched window's block index has not moved since the previous point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds that window's block at every point, whether or not it was fetched
    there: an unfetched window's block index has not moved since the previous point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rRows1 : Rect S5000x64 := Rect.unit (s := S5000x64) ![0, 0] S5000x64.size inb_S5000x64_S5000x64_0_0
abbrev rWeight1 : Rect S64x64 := Rect.unit (s := S64x64) ![0, 0] S64x64.size inb_S64x64_S64x64_0_0
abbrev rBias1 : Rect S1x64 := Rect.unit (s := S1x64) ![0, 0] S1x64.size inb_S1x64_S1x64_0_0

/-- What the body leaves in the output block, from the six input blocks (node rows, aggregate rows, first weight,
    first bias, second weight, second bias): its single whole-block store of the body's arithmetic. -/
def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rRows1, k1_pay1 (View.ld x0 rRows1) (View.ld x1 rRows1) (View.ld x2 rWeight1) (View.ld x3 rBias1) (View.ld x4 rWeight1) (View.ld x5 rBias1)⟩]

/-- The one store covers the whole output block. -/
theorem cover1_6 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body, called on whole staging buffers whose inputs read x0 … x5 and whose output holds anything, runs to its
    end without fault, leaves the inputs as they were and the output at `out1_6` of the inputs. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__node_kernel i arg1 harg1 arg2 harg2 arg3 harg3 arg4 harg4 arg5 harg5 arg6 harg6 arg7 harg7) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The pipeline's proof data on core c: the arrays as the region finds them; after the body at point t every input's
    buffer still at its block and the output's at `out1_6` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t: the invariant, the core's dues, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's per-point obligation for this region. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.KernelIdealEdge2.lean ====
/-
  Region 2 of the program: one edge-message call. Over a grid of 250 points, point t reads rows
  5000·t … 5000·t+4999 of the edge features (width 32) and of the gathered source-node rows (width 64), the whole
  32×64 edge weight and the 1×64 edge bias, and writes the same rows of the message array:
  max(source + (features · weight + bias), 0).  Stated here, at any float instance and for any contents V the
  region is entered with: what each window's block is, what the body leaves in the output block as a pure function
  of the four input blocks, that the body runs without fault from whole staging buffers, and the resulting
  per-point obligation of the pipeline.
-/
import proofs.«155749_j23802708754725_1_alg».proof.Proof.Gen.KernelIdeal.Launch
import proofs.«155749_j23802708754725_1_alg».proof.Proof.Gen.KernelIdeal.Skeleton
import proofs.«155749_j23802708754725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds that window's block at every point, whether or not it was fetched
    there: an unfetched window's block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds that window's block at every point, whether or not it was fetched
    there: an unfetched window's block index has not moved since the previous point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds that window's block at every point, whether or not it was fetched
    there: an unfetched window's block index has not moved since the previous point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds that window's block at every point, whether or not it was fetched
    there: an unfetched window's block index has not moved since the previous point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rFeat2 : Rect S5000x32 := Rect.unit (s := S5000x32) ![0, 0] S5000x32.size inb_S5000x32_S5000x32_0_0
abbrev rRows2 : Rect S5000x64 := Rect.unit (s := S5000x64) ![0, 0] S5000x64.size inb_S5000x64_S5000x64_0_0
abbrev rWeight2 : Rect S32x64 := Rect.unit (s := S32x64) ![0, 0] S32x64.size inb_S32x64_S32x64_0_0
abbrev rBias2 : Rect S1x64 := Rect.unit (s := S1x64) ![0, 0] S1x64.size inb_S1x64_S1x64_0_0

/-- What the body leaves in the output block, from the four input blocks (features, source rows, weight, bias):
    its single whole-block store of the body's arithmetic. -/
def out2_4 (x0 : Vec F S5000x32 .f32) (x1 : Vec F S5000x64 .f32) (x2 : Vec F S32x64 .f32) (x3 : Vec F S1x64 .f32) : Vec F S5000x64 .f32 :=
  View.canon [⟨rRows2, k2_pay1 (View.ld x0 rFeat2) (View.ld x2 rWeight2) (View.ld x3 rBias2) (View.ld x1 rRows2)⟩]

/-- The one store covers the whole output block. -/
theorem cover2_4 (p0 : Vec F S5000x64 .f32) (y : S5000x64.Idx) :
    ∃ pc ∈ ([⟨rRows2, p0⟩] : List (View.Piece (Elt F) S5000x64 .f32)), y ∈ pc.1.set :=
  View.cover_of_tiled [⟨rRows2, p0⟩] S5000x64.size (by rfl) y

set_option maxHeartbeats 1000000 in
/-- The body, called on whole staging buffers whose inputs read x0 … x3 and whose output holds anything, runs to its
    end without fault, leaves the inputs as they were and the output at `out2_4` of the inputs. -/
theorem sound_kernel2 (c : Dev nD) (E : Set ℕ) (i : grid2.Coords)
    (arg1 : Memref sig .tc .vmem S5000x32 .f32) (harg1 : arg1.IsWhole) (arg2 : Memref sig .tc .vmem S5000x64 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x32 .f32) (x1 : Vec F S5000x64 .f32) (x2 : Vec F S32x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__edge_kernel i arg1 harg1 arg2 harg2 arg3 harg3 arg4 harg4 arg5 harg5) K := by
  simp only [cc2__edge_kernel_eq_skeleton]; unfold cc2__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The pipeline's proof data on core c: the arrays as the region finds them; after the body at point t every input's
    buffer still at its block and the output's at `out2_4` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t: the invariant, the core's dues, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this region. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.KernelIdealNode3.lean ====
/-
  Region 3 of the program: one node-update call. Over a grid of 20 points, point t reads rows
  5000·t … 5000·t+4999 of the node features and of the aggregated messages (both of width 64), the two whole 64×64
  weights and the two 1×64 biases, and writes the same rows of the updated array:
  max((x + aggregate) · W₁ + b₁, 0) · W₂ + b₂.  Stated here, at any float instance and for any contents V the
  region is entered with: what each window's block is, what the body leaves in the output block as a pure function
  of the six input blocks, that the body runs without fault from whole staging buffers, and the resulting
  per-point obligation of the pipeline.
-/
import proofs.«155749_j23802708754725_1_alg».proof.Proof.Gen.KernelIdeal.Launch
import proofs.«155749_j23802708754725_1_alg».proof.Proof.Gen.KernelIdeal.Skeleton
import proofs.«155749_j23802708754725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds that window's block at every point, whether or not it was fetched
    there: an unfetched window's block index has not moved since the previous point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds that window's block at every point, whether or not it was fetched
    there: an unfetched window's block index has not moved since the previous point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds that window's block at every point, whether or not it was fetched
    there: an unfetched window's block index has not moved since the previous point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds that window's block at every point, whether or not it was fetched
    there: an unfetched window's block index has not moved since the previous point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds that window's block at every point, whether or not it was fetched
    there: an unfetched window's block index has not moved since the previous point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds that window's block at every point, whether or not it was fetched
    there: an unfetched window's block index has not moved since the previous point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev rRows3 : Rect S5000x64 := Rect.unit (s := S5000x64) ![0, 0] S5000x64.size inb_S5000x64_S5000x64_0_0
abbrev rWeight3 : Rect S64x64 := Rect.unit (s := S64x64) ![0, 0] S64x64.size inb_S64x64_S64x64_0_0
abbrev rBias3 : Rect S1x64 := Rect.unit (s := S1x64) ![0, 0] S1x64.size inb_S1x64_S1x64_0_0

/-- What the body leaves in the output block, from the six input blocks (node rows, aggregate rows, first weight,
    first bias, second weight, second bias): its single whole-block store of the body's arithmetic. -/
def out3_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rRows3, k3_pay1 (View.ld x0 rRows3) (View.ld x1 rRows3) (View.ld x2 rWeight3) (View.ld x3 rBias3) (View.ld x4 rWeight3) (View.ld x5 rBias3)⟩]

/-- The one store covers the whole output block. -/
theorem cover3_6 (p0 : Vec F S5000x64 .f32) (y : S5000x64.Idx) :
    ∃ pc ∈ ([⟨rRows3, p0⟩] : List (View.Piece (Elt F) S5000x64 .f32)), y ∈ pc.1.set :=
  View.cover_of_tiled [⟨rRows3, p0⟩] S5000x64.size (by rfl) y

set_option maxHeartbeats 1000000 in
/-- The body, called on whole staging buffers whose inputs read x0 … x5 and whose output holds anything, runs to its
    end without fault, leaves the inputs as they were and the output at `out3_6` of the inputs. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__node_kernel i arg1 harg1 arg2 harg2 arg3 harg3 arg4 harg4 arg5 harg5 arg6 harg6 arg7 harg7) K := by
  simp only [cc3__node_kernel_eq_skeleton]; unfold cc3__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The pipeline's proof data on core c: the arrays as the region finds them; after the body at point t every input's
    buffer still at its block and the output's at `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point t: the invariant, the core's dues, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's run applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's per-point obligation for this region. -/
theorem body_obligation3 (c : Dev nD) : BodyObligation (dat3 (F := F) V c) (defs₀ (F := F)) Variants.none () Set.univ := fun t => by
  rw [bigSep_W3, bigSep_W3]
  exact sound_body3 V c t

end Cert.KernelIdeal.Regions

end
-- ==== Proof.KernelIdealEdge4.lean ====
/-
  Region 4 of the program: one edge-message call. Over a grid of 250 points, point t reads rows
  5000·t … 5000·t+4999 of the edge features (width 32) and of the gathered source-node rows (width 64), the whole
  32×64 edge weight and the 1×64 edge bias, and writes the same rows of the message array:
  max(source + (features · weight + bias), 0).  Stated here, at any float instance and for any contents V the
  region is entered with: what each window's block is, what the body leaves in the output block as a pure function
  of the four input blocks, that the body runs without fault from whole staging buffers, and the resulting
  per-point obligation of the pipeline.
-/
import proofs.«155749_j23802708754725_1_alg».proof.Proof.Gen.KernelIdeal.Launch
import proofs.«155749_j23802708754725_1_alg».proof.Proof.Gen.KernelIdeal.Skeleton
import proofs.«155749_j23802708754725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds that window's block at every point, whether or not it was fetched
    there: an unfetched window's block index has not moved since the previous point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds that window's block at every point, whether or not it was fetched
    there: an unfetched window's block index has not moved since the previous point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds that window's block at every point, whether or not it was fetched
    there: an unfetched window's block index has not moved since the previous point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds that window's block at every point, whether or not it was fetched
    there: an unfetched window's block index has not moved since the previous point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev rFeat4 : Rect S5000x32 := Rect.unit (s := S5000x32) ![0, 0] S5000x32.size inb_S5000x32_S5000x32_0_0
abbrev rRows4 : Rect S5000x64 := Rect.unit (s := S5000x64) ![0, 0] S5000x64.size inb_S5000x64_S5000x64_0_0
abbrev rWeight4 : Rect S32x64 := Rect.unit (s := S32x64) ![0, 0] S32x64.size inb_S32x64_S32x64_0_0
abbrev rBias4 : Rect S1x64 := Rect.unit (s := S1x64) ![0, 0] S1x64.size inb_S1x64_S1x64_0_0

/-- What the body leaves in the output block, from the four input blocks (features, source rows, weight, bias):
    its single whole-block store of the body's arithmetic. -/
def out4_4 (x0 : Vec F S5000x32 .f32) (x1 : Vec F S5000x64 .f32) (x2 : Vec F S32x64 .f32) (x3 : Vec F S1x64 .f32) : Vec F S5000x64 .f32 :=
  View.canon [⟨rRows4, k4_pay1 (View.ld x0 rFeat4) (View.ld x2 rWeight4) (View.ld x3 rBias4) (View.ld x1 rRows4)⟩]

/-- The one store covers the whole output block. -/
theorem cover4_4 (p0 : Vec F S5000x64 .f32) (y : S5000x64.Idx) :
    ∃ pc ∈ ([⟨rRows4, p0⟩] : List (View.Piece (Elt F) S5000x64 .f32)), y ∈ pc.1.set :=
  View.cover_of_tiled [⟨rRows4, p0⟩] S5000x64.size (by rfl) y

set_option maxHeartbeats 1000000 in
/-- The body, called on whole staging buffers whose inputs read x0 … x3 and whose output holds anything, runs to its
    end without fault, leaves the inputs as they were and the output at `out4_4` of the inputs. -/
theorem sound_kernel4 (c : Dev nD) (E : Set ℕ) (i : grid4.Coords)
    (arg1 : Memref sig .tc .vmem S5000x32 .f32) (harg1 : arg1.IsWhole) (arg2 : Memref sig .tc .vmem S5000x64 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x32 .f32) (x1 : Vec F S5000x64 .f32) (x2 : Vec F S32x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__edge_kernel i arg1 harg1 arg2 harg2 arg3 harg3 arg4 harg4 arg5 harg5) K := by
  simp only [cc4__edge_kernel_eq_skeleton]; unfold cc4__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The pipeline's proof data on core c: the arrays as the region finds them; after the body at point t every input's
    buffer still at its block and the output's at `out4_4` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point t: the invariant, the core's dues, and each window's current buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the body's run applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this region. -/
theorem body_obligation4 (c : Dev nD) : BodyObligation (dat4 (F := F) V c) (defs₀ (F := F)) Variants.none () Set.univ := fun t => by
  rw [bigSep_W4, bigSep_W4]
  exact sound_body4 V c t

end Cert.KernelIdeal.Regions

end
-- ==== Proof.KernelIdealNode5.lean ====
/-
  Region 5 of the program: one node-update call. Over a grid of 20 points, point t reads rows
  5000·t … 5000·t+4999 of the node features and of the aggregated messages (both of width 64), the two whole 64×64
  weights and the two 1×64 biases, and writes the same rows of the updated array:
  max((x + aggregate) · W₁ + b₁, 0) · W₂ + b₂.  Stated here, at any float instance and for any contents V the
  region is entered with: what each window's block is, what the body leaves in the output block as a pure function
  of the six input blocks, that the body runs without fault from whole staging buffers, and the resulting
  per-point obligation of the pipeline.
-/
import proofs.«155749_j23802708754725_1_alg».proof.Proof.Gen.KernelIdeal.Launch
import proofs.«155749_j23802708754725_1_alg».proof.Proof.Gen.KernelIdeal.Skeleton
import proofs.«155749_j23802708754725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds that window's block at every point, whether or not it was fetched
    there: an unfetched window's block index has not moved since the previous point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds that window's block at every point, whether or not it was fetched
    there: an unfetched window's block index has not moved since the previous point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds that window's block at every point, whether or not it was fetched
    there: an unfetched window's block index has not moved since the previous point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds that window's block at every point, whether or not it was fetched
    there: an unfetched window's block index has not moved since the previous point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds that window's block at every point, whether or not it was fetched
    there: an unfetched window's block index has not moved since the previous point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds that window's block at every point, whether or not it was fetched
    there: an unfetched window's block index has not moved since the previous point. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev rRows5 : Rect S5000x64 := Rect.unit (s := S5000x64) ![0, 0] S5000x64.size inb_S5000x64_S5000x64_0_0
abbrev rWeight5 : Rect S64x64 := Rect.unit (s := S64x64) ![0, 0] S64x64.size inb_S64x64_S64x64_0_0
abbrev rBias5 : Rect S1x64 := Rect.unit (s := S1x64) ![0, 0] S1x64.size inb_S1x64_S1x64_0_0

/-- What the body leaves in the output block, from the six input blocks (node rows, aggregate rows, first weight,
    first bias, second weight, second bias): its single whole-block store of the body's arithmetic. -/
def out5_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rRows5, k5_pay1 (View.ld x0 rRows5) (View.ld x1 rRows5) (View.ld x2 rWeight5) (View.ld x3 rBias5) (View.ld x4 rWeight5) (View.ld x5 rBias5)⟩]

/-- The one store covers the whole output block. -/
theorem cover5_6 (p0 : Vec F S5000x64 .f32) (y : S5000x64.Idx) :
    ∃ pc ∈ ([⟨rRows5, p0⟩] : List (View.Piece (Elt F) S5000x64 .f32)), y ∈ pc.1.set :=
  View.cover_of_tiled [⟨rRows5, p0⟩] S5000x64.size (by rfl) y

set_option maxHeartbeats 1000000 in
/-- The body, called on whole staging buffers whose inputs read x0 … x5 and whose output holds anything, runs to its
    end without fault, leaves the inputs as they were and the output at `out5_6` of the inputs. -/
theorem sound_kernel5 (c : Dev nD) (E : Set ℕ) (i : grid5.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__node_kernel i arg1 harg1 arg2 harg2 arg3 harg3 arg4 harg4 arg5 harg5 arg6 harg6 arg7 harg7) K := by
  simp only [cc5__node_kernel_eq_skeleton]; unfold cc5__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The pipeline's proof data on core c: the arrays as the region finds them; after the body at point t every input's
    buffer still at its block and the output's at `out5_6` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point t: the invariant, the core's dues, and each window's current buffer. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's run applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's per-point obligation for this region. -/
theorem body_obligation5 (c : Dev nD) : BodyObligation (dat5 (F := F) V c) (defs₀ (F := F)) Variants.none () Set.univ := fun t => by
  rw [bigSep_W5, bigSep_W5]
  exact sound_body5 V c t

end Cert.KernelIdeal.Regions

end
-- ==== Proof.KernelIdealRun.lean ====
/-
  The whole program as a run. @main is seven stretches of host operations with six kernel regions between them
  (edge message, node update, three times over). The contents of every buffer at each of the fourteen boundaries
  are a fold from the launch memory: a host stretch applies its operations in order; a region replaces its output
  array by what its grid points wrote back and leaves every other buffer as entered. From the six regions' per-point
  obligations, every weakly fair execution terminates without fault with EVERY unscoped buffer at the last
  boundary's contents — which gives both that the argument arrays end as launched and what the result array holds.
-/
import proofs.«155749_j23802708754725_1_alg».proof.Proof.Gen.KernelIdeal.Launch
import proofs.«155749_j23802708754725_1_alg».proof.Proof.Gen.KernelIdeal.Skeleton
import proofs.«155749_j23802708754725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155749_j23802708754725_1_alg».proof.Proof.KernelIdealEdge0
import proofs.«155749_j23802708754725_1_alg».proof.Proof.KernelIdealNode1
import proofs.«155749_j23802708754725_1_alg».proof.Proof.KernelIdealEdge2
import proofs.«155749_j23802708754725_1_alg».proof.Proof.KernelIdealNode3
import proofs.«155749_j23802708754725_1_alg».proof.Proof.KernelIdealEdge4
import proofs.«155749_j23802708754725_1_alg».proof.Proof.KernelIdealNode5
import proofs.«155749_j23802708754725_1_alg».proof.Proof.Gen.KernelIdeal.Regions
set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After host stretch 0. -/
abbrev W1 : Dev nD → Valuation τ sig (Elt F) := fun c => StableHlo.after hostOps0 (W0 m ρ c)
/-- The same, read at the TensorCore's references: what region 0 is entered with. -/
abbrev entry0 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (entry0 m ρ) c).arrAt w cfg0.N
theorem W2_arr (c : Dev nD) (w : Fin cfg0.W) :
    W2 m ρ c (Proc.devRef .tc (Pipeline.arrRef spec0 w)) = (dat0 (entry0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev exit0 : (c : Dev nD) → (b : Ref sig .tc) → Buf (Elt F) ((c : Thread nD τ).loc b) := fun c b => W2 m ρ c b
theorem hF0 (c : Dev nD) (w : Fin cfg0.W) : (dat0 (entry0 m ρ) c).arrAt w cfg0.N = exit0 m ρ c (Pipeline.arrRef spec0 w) :=
  (W2_arr m ρ c w).symm
theorem hrest0 (c : Dev nD) : ∀ b, b ∉ Finset.univ.image (Pipeline.arrRef spec0) → exit0 m ρ c b = entry0 m ρ c b :=
  fun b hb => W2_of_ne m ρ c b fun w e => hb (Finset.mem_image.mpr ⟨w, Finset.mem_univ _, e⟩)
/-- A region changes only its output array: an input window's array ends as entered, any other buffer is untouched. -/
theorem W2_keep (c : Dev nD) (b : Ref sig .tc) (hb : b ≠ main_v16) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 5, Pipeline.arrRef spec0 w ≠ main_v16 → (cfg0.win w).isOut = false) w hb
    rw [W2_arr]
    exact ((dat0 (entry0 m ρ) c).arrAt_in w hin _).trans (A_eq0 (entry0 m ρ) c w)
  · exact W2_of_ne m ρ c b fun w e => h ⟨w, e⟩
/-- After host stretch 1. -/
abbrev W3 : Dev nD → Valuation τ sig (Elt F) := fun c => StableHlo.after hostOps1 (W2 m ρ c)
/-- The same, read at the TensorCore's references: what region 1 is entered with. -/
abbrev entry1 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (entry1 m ρ) c).arrAt w cfg1.N
theorem W4_arr (c : Dev nD) (w : Fin cfg1.W) :
    W4 m ρ c (Proc.devRef .tc (Pipeline.arrRef spec1 w)) = (dat1 (entry1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev exit1 : (c : Dev nD) → (b : Ref sig .tc) → Buf (Elt F) ((c : Thread nD τ).loc b) := fun c b => W4 m ρ c b
theorem hF1 (c : Dev nD) (w : Fin cfg1.W) : (dat1 (entry1 m ρ) c).arrAt w cfg1.N = exit1 m ρ c (Pipeline.arrRef spec1 w) :=
  (W4_arr m ρ c w).symm
theorem hrest1 (c : Dev nD) : ∀ b, b ∉ Finset.univ.image (Pipeline.arrRef spec1) → exit1 m ρ c b = entry1 m ρ c b :=
  fun b hb => W4_of_ne m ρ c b fun w e => hb (Finset.mem_image.mpr ⟨w, Finset.mem_univ _, e⟩)
/-- A region changes only its output array: an input window's array ends as entered, any other buffer is untouched. -/
theorem W4_keep (c : Dev nD) (b : Ref sig .tc) (hb : b ≠ main_v30) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 7, Pipeline.arrRef spec1 w ≠ main_v30 → (cfg1.win w).isOut = false) w hb
    rw [W4_arr]
    exact ((dat1 (entry1 m ρ) c).arrAt_in w hin _).trans (A_eq1 (entry1 m ρ) c w)
  · exact W4_of_ne m ρ c b fun w e => h ⟨w, e⟩
/-- After host stretch 2. -/
abbrev W5 : Dev nD → Valuation τ sig (Elt F) := fun c => StableHlo.after hostOps2 (W4 m ρ c)
/-- The same, read at the TensorCore's references: what region 2 is entered with. -/
abbrev entry2 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (entry2 m ρ) c).arrAt w cfg2.N
theorem W6_arr (c : Dev nD) (w : Fin cfg2.W) :
    W6 m ρ c (Proc.devRef .tc (Pipeline.arrRef spec2 w)) = (dat2 (entry2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev exit2 : (c : Dev nD) → (b : Ref sig .tc) → Buf (Elt F) ((c : Thread nD τ).loc b) := fun c b => W6 m ρ c b
theorem hF2 (c : Dev nD) (w : Fin cfg2.W) : (dat2 (entry2 m ρ) c).arrAt w cfg2.N = exit2 m ρ c (Pipeline.arrRef spec2 w) :=
  (W6_arr m ρ c w).symm
theorem hrest2 (c : Dev nD) : ∀ b, b ∉ Finset.univ.image (Pipeline.arrRef spec2) → exit2 m ρ c b = entry2 m ρ c b :=
  fun b hb => W6_of_ne m ρ c b fun w e => hb (Finset.mem_image.mpr ⟨w, Finset.mem_univ _, e⟩)
/-- A region changes only its output array: an input window's array ends as entered, any other buffer is untouched. -/
theorem W6_keep (c : Dev nD) (b : Ref sig .tc) (hb : b ≠ main_v51) :
    W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin 5, Pipeline.arrRef spec2 w ≠ main_v51 → (cfg2.win w).isOut = false) w hb
    rw [W6_arr]
    exact ((dat2 (entry2 m ρ) c).arrAt_in w hin _).trans (A_eq2 (entry2 m ρ) c w)
  · exact W6_of_ne m ρ c b fun w e => h ⟨w, e⟩
/-- After host stretch 3. -/
abbrev W7 : Dev nD → Valuation τ sig (Elt F) := fun c => StableHlo.after hostOps3 (W6 m ρ c)
/-- The same, read at the TensorCore's references: what region 3 is entered with. -/
abbrev entry3 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (entry3 m ρ) c).arrAt w cfg3.N
theorem W8_arr (c : Dev nD) (w : Fin cfg3.W) :
    W8 m ρ c (Proc.devRef .tc (Pipeline.arrRef spec3 w)) = (dat3 (entry3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev exit3 : (c : Dev nD) → (b : Ref sig .tc) → Buf (Elt F) ((c : Thread nD τ).loc b) := fun c b => W8 m ρ c b
theorem hF3 (c : Dev nD) (w : Fin cfg3.W) : (dat3 (entry3 m ρ) c).arrAt w cfg3.N = exit3 m ρ c (Pipeline.arrRef spec3 w) :=
  (W8_arr m ρ c w).symm
theorem hrest3 (c : Dev nD) : ∀ b, b ∉ Finset.univ.image (Pipeline.arrRef spec3) → exit3 m ρ c b = entry3 m ρ c b :=
  fun b hb => W8_of_ne m ρ c b fun w e => hb (Finset.mem_image.mpr ⟨w, Finset.mem_univ _, e⟩)
/-- A region changes only its output array: an input window's array ends as entered, any other buffer is untouched. -/
theorem W8_keep (c : Dev nD) (b : Ref sig .tc) (hb : b ≠ main_v65) :
    W8 m ρ c (Proc.devRef .tc b) = W7 m ρ c (Proc.devRef .tc b) := by
  by_cases h : ∃ w, Pipeline.arrRef spec3 w = b
  · obtain ⟨w, rfl⟩ := h
    have hin : (cfg3.win w).isOut = false :=
      (by decide : ∀ w : Fin 7, Pipeline.arrRef spec3 w ≠ main_v65 → (cfg3.win w).isOut = false) w hb
    rw [W8_arr]
    exact ((dat3 (entry3 m ρ) c).arrAt_in w hin _).trans (A_eq3 (entry3 m ρ) c w)
  · exact W8_of_ne m ρ c b fun w e => h ⟨w, e⟩
/-- After host stretch 4. -/
abbrev W9 : Dev nD → Valuation τ sig (Elt F) := fun c => StableHlo.after hostOps4 (W8 m ρ c)
/-- The same, read at the TensorCore's references: what region 4 is entered with. -/
abbrev entry4 : (c : Dev nD) → (b : Ref sig .tc) → Buf (Elt F) ((c : Thread nD τ).loc b) := fun c b => W9 m ρ c b
/-- After region 4: its arrays at what the pipeline leaves, every other buffer as entered. -/
def W10 (c : Dev nD) : Valuation τ sig (Elt F) :=
  Pipeline.withArrays spec4 c (W9 m ρ c) fun w => (dat4 (entry4 m ρ) c).arrAt w cfg4.N
theorem W10_arr (c : Dev nD) (w : Fin cfg4.W) :
    W10 m ρ c (Proc.devRef .tc (Pipeline.arrRef spec4 w)) = (dat4 (entry4 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev exit4 : (c : Dev nD) → (b : Ref sig .tc) → Buf (Elt F) ((c : Thread nD τ).loc b) := fun c b => W10 m ρ c b
theorem hF4 (c : Dev nD) (w : Fin cfg4.W) : (dat4 (entry4 m ρ) c).arrAt w cfg4.N = exit4 m ρ c (Pipeline.arrRef spec4 w) :=
  (W10_arr m ρ c w).symm
theorem hrest4 (c : Dev nD) : ∀ b, b ∉ Finset.univ.image (Pipeline.arrRef spec4) → exit4 m ρ c b = entry4 m ρ c b :=
  fun b hb => W10_of_ne m ρ c b fun w e => hb (Finset.mem_image.mpr ⟨w, Finset.mem_univ _, e⟩)
/-- A region changes only its output array: an input window's array ends as entered, any other buffer is untouched. -/
theorem W10_keep (c : Dev nD) (b : Ref sig .tc) (hb : b ≠ main_v86) :
    W10 m ρ c (Proc.devRef .tc b) = W9 m ρ c (Proc.devRef .tc b) := by
  by_cases h : ∃ w, Pipeline.arrRef spec4 w = b
  · obtain ⟨w, rfl⟩ := h
    have hin : (cfg4.win w).isOut = false :=
      (by decide : ∀ w : Fin 5, Pipeline.arrRef spec4 w ≠ main_v86 → (cfg4.win w).isOut = false) w hb
    rw [W10_arr]
    exact ((dat4 (entry4 m ρ) c).arrAt_in w hin _).trans (A_eq4 (entry4 m ρ) c w)
  · exact W10_of_ne m ρ c b fun w e => h ⟨w, e⟩
/-- After host stretch 5. -/
abbrev W11 : Dev nD → Valuation τ sig (Elt F) := fun c => StableHlo.after hostOps5 (W10 m ρ c)
/-- The same, read at the TensorCore's references: what region 5 is entered with. -/
abbrev entry5 : (c : Dev nD) → (b : Ref sig .tc) → Buf (Elt F) ((c : Thread nD τ).loc b) := fun c b => W11 m ρ c b
/-- After region 5: its arrays at what the pipeline leaves, every other buffer as entered. -/
def W12 (c : Dev nD) : Valuation τ sig (Elt F) :=
  Pipeline.withArrays spec5 c (W11 m ρ c) fun w => (dat5 (entry5 m ρ) c).arrAt w cfg5.N
theorem W12_arr (c : Dev nD) (w : Fin cfg5.W) :
    W12 m ρ c (Proc.devRef .tc (Pipeline.arrRef spec5 w)) = (dat5 (entry5 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev exit5 : (c : Dev nD) → (b : Ref sig .tc) → Buf (Elt F) ((c : Thread nD τ).loc b) := fun c b => W12 m ρ c b
theorem hF5 (c : Dev nD) (w : Fin cfg5.W) : (dat5 (entry5 m ρ) c).arrAt w cfg5.N = exit5 m ρ c (Pipeline.arrRef spec5 w) :=
  (W12_arr m ρ c w).symm
theorem hrest5 (c : Dev nD) : ∀ b, b ∉ Finset.univ.image (Pipeline.arrRef spec5) → exit5 m ρ c b = entry5 m ρ c b :=
  fun b hb => W12_of_ne m ρ c b fun w e => hb (Finset.mem_image.mpr ⟨w, Finset.mem_univ _, e⟩)
/-- A region changes only its output array: an input window's array ends as entered, any other buffer is untouched. -/
theorem W12_keep (c : Dev nD) (b : Ref sig .tc) (hb : b ≠ main_v100) :
    W12 m ρ c (Proc.devRef .tc b) = W11 m ρ c (Proc.devRef .tc b) := by
  by_cases h : ∃ w, Pipeline.arrRef spec5 w = b
  · obtain ⟨w, rfl⟩ := h
    have hin : (cfg5.win w).isOut = false :=
      (by decide : ∀ w : Fin 7, Pipeline.arrRef spec5 w ≠ main_v100 → (cfg5.win w).isOut = false) w hb
    rw [W12_arr]
    exact ((dat5 (entry5 m ρ) c).arrAt_in w hin _).trans (A_eq5 (entry5 m ρ) c w)
  · exact W12_of_ne m ρ c b fun w e => h ⟨w, e⟩
/-- After host stretch 6. -/
abbrev W13 : Dev nD → Valuation τ sig (Elt F) := fun c => StableHlo.after hostOps6 (W12 m ρ c)

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (entry0 m ρ) c
  | ⟨1, _⟩ => fun c => dat1 (entry1 m ρ) c
  | ⟨2, _⟩ => fun c => dat2 (entry2 m ρ) c
  | ⟨3, _⟩ => fun c => dat3 (entry3 m ρ) c
  | ⟨4, _⟩ => fun c => dat4 (entry4 m ρ) c
  | ⟨5, _⟩ => fun c => dat5 (entry5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 over the thread state: entered with every unscoped buffer at boundary 1's contents, left at boundary 2's.
    Its arrays are split out of the unscoped buffers on entry and put back at their final contents on exit; the
    generator register passes through the pipeline's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (exit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at boundary 3's contents, left at boundary 4's.
    Its arrays are split out of the unscoped buffers on entry and put back at their final contents on exit; the
    generator register passes through the pipeline's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (entry1 m ρ c) (exit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at boundary 5's contents, left at boundary 6's.
    Its arrays are split out of the unscoped buffers on entry and put back at their final contents on exit; the
    generator register passes through the pipeline's invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (entry2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (entry2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (entry2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (entry2 m ρ c) (exit2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at boundary 7's contents, left at boundary 8's.
    Its arrays are split out of the unscoped buffers on entry and put back at their final contents on exit; the
    generator register passes through the pipeline's invariant; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (entry3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (entry3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (entry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (entry3 m ρ c) (exit3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at boundary 9's contents, left at boundary 10's.
    Its arrays are split out of the unscoped buffers on entry and put back at their final contents on exit; the
    generator register passes through the pipeline's invariant; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (entry4 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (entry4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (entry4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (entry4 m ρ c) (exit4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at boundary 11's contents, left at boundary 12's.
    Its arrays are split out of the unscoped buffers on entry and put back at their final contents on exit; the
    generator register passes through the pipeline's invariant; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (entry5 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (entry5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (entry5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (entry5 m ρ c) (exit5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- @main is the run of the segments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters, every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-! ## The argument arrays end as launched -/

/-- A host stretch leaves alone every buffer it does not write; a region every buffer but its output array. So a
    buffer written by nothing reaches the last boundary with its launch contents. -/
theorem W13_of_unwritten (c : Dev nD) (b : Ref sig .tc)
    (h0 : b ∉ hostOps0_W) (h1 : b ∉ hostOps1_W) (h2 : b ∉ hostOps2_W) (h3 : b ∉ hostOps3_W) (h4 : b ∉ hostOps4_W)
    (h5 : b ∉ hostOps5_W) (h6 : b ∉ hostOps6_W)
    (r0 : b ≠ main_v16) (r1 : b ≠ main_v30) (r2 : b ≠ main_v51) (r3 : b ≠ main_v65) (r4 : b ≠ main_v86) (r5 : b ≠ main_v100) :
    W13 m ρ c (Proc.devRef .tc b) = m ((c : Thread nD τ).loc b) :=
  calc W13 m ρ c (Proc.devRef .tc b)
    _ = W12 m ρ c (Proc.devRef .tc b) := StableHlo.after_of_writes_sub hostOps6 _ hostOps6_writes h6
    _ = W11 m ρ c (Proc.devRef .tc b) := W12_keep m ρ c b r5
    _ = W10 m ρ c (Proc.devRef .tc b) := StableHlo.after_of_writes_sub hostOps5 _ hostOps5_writes h5
    _ = W9 m ρ c (Proc.devRef .tc b) := W10_keep m ρ c b r4
    _ = W8 m ρ c (Proc.devRef .tc b) := StableHlo.after_of_writes_sub hostOps4 _ hostOps4_writes h4
    _ = W7 m ρ c (Proc.devRef .tc b) := W8_keep m ρ c b r3
    _ = W6 m ρ c (Proc.devRef .tc b) := StableHlo.after_of_writes_sub hostOps3 _ hostOps3_writes h3
    _ = W5 m ρ c (Proc.devRef .tc b) := W6_keep m ρ c b r2
    _ = W4 m ρ c (Proc.devRef .tc b) := StableHlo.after_of_writes_sub hostOps2 _ hostOps2_writes h2
    _ = W3 m ρ c (Proc.devRef .tc b) := W4_keep m ρ c b r1
    _ = W2 m ρ c (Proc.devRef .tc b) := StableHlo.after_of_writes_sub hostOps1 _ hostOps1_writes h1
    _ = W1 m ρ c (Proc.devRef .tc b) := W2_keep m ρ c b r0
    _ = W0 m ρ c (Proc.devRef .tc b) := StableHlo.after_of_writes_sub hostOps0 _ hostOps0_writes h0
    _ = m ((c : Thread nD τ).loc b) := rfl

/-- The run with the ten argument arrays read back: the frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W13_of_unwritten m ρ c main_arg0 (by decide) (by decide) (by decide) (by decide) (by decide) (by decide) (by decide) (by decide) (by decide) (by decide) (by decide) (by decide) (by decide)),
    (h c _ (mem_uc main_arg1 (by decide))).trans (W13_of_unwritten m ρ c main_arg1 (by decide) (by decide) (by decide) (by decide) (by decide) (by decide) (by decide) (by decide) (by decide) (by decide) (by decide) (by decide) (by decide)),
    (h c _ (mem_uc main_arg2 (by decide))).trans (W13_of_unwritten m ρ c main_arg2 (by decide) (by decide) (by decide) (by decide) (by decide) (by decide) (by decide) (by decide) (by decide) (by decide) (by decide) (by decide) (by decide)),
    (h c _ (mem_uc main_arg3 (by decide))).trans (W13_of_unwritten m ρ c main_arg3 (by decide) (by decide) (by decide) (by decide) (by decide) (by decide) (by decide) (by decide) (by decide) (by decide) (by decide) (by decide) (by decide)),
    (h c _ (mem_uc main_arg4 (by decide))).trans (W13_of_unwritten m ρ c main_arg4 (by decide) (by decide) (by decide) (by decide) (by decide) (by decide) (by decide) (by decide) (by decide) (by decide) (by decide) (by decide) (by decide)),
    (h c _ (mem_uc main_arg5 (by decide))).trans (W13_of_unwritten m ρ c main_arg5 (by decide) (by decide) (by decide) (by decide) (by decide) (by decide) (by decide) (by decide) (by decide) (by decide) (by decide) (by decide) (by decide)),
    (h c _ (mem_uc main_arg6 (by decide))).trans (W13_of_unwritten m ρ c main_arg6 (by decide) (by decide) (by decide) (by decide) (by decide) (by decide) (by decide) (by decide) (by decide) (by decide) (by decide) (by decide) (by decide)),
    (h c _ (mem_uc main_arg7 (by decide))).trans (W13_of_unwritten m ρ c main_arg7 (by decide) (by decide) (by decide) (by decide) (by decide) (by decide) (by decide) (by decide) (by decide) (by decide) (by decide) (by decide) (by decide)),
    (h c _ (mem_uc main_arg8 (by decide))).trans (W13_of_unwritten m ρ c main_arg8 (by decide) (by decide) (by decide) (by decide) (by decide) (by decide) (by decide) (by decide) (by decide) (by decide) (by decide) (by decide) (by decide)),
    (h c _ (mem_uc main_arg9 (by decide))).trans (W13_of_unwritten m ρ c main_arg9 (by decide) (by decide) (by decide) (by decide) (by decide) (by decide) (by decide) (by decide) (by decide) (by decide) (by decide) (by decide) (by decide))⟩)
    (run_all m ρ)

end Cert.KernelIdeal.Regions

end
-- ==== Proof.KernelIdealKeep.lean ====
/-
  Which buffers a stretch of the program leaves alone.  A host stretch writes only the buffers its operations name; a
  region writes only its output array. So a buffer no step between two boundaries writes holds, at the later boundary,
  what it held at the earlier one — the argument arrays all the way from the launch, the two index vectors from the
  first stretch on, and each layer's output from the stretch that forms it.
-/
import proofs.«155749_j23802708754725_1_alg».proof.Proof.KernelIdealRun

set_option maxRecDepth 16384

noncomputable section

namespace Cert.KernelIdeal.Regions

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_eq_W0 (c : Dev nD) (b : Ref sig .tc) (h1 : b ∉ hostOps0_W) :
    W1 m ρ c (Proc.devRef .tc b) = W0 m ρ c (Proc.devRef .tc b) :=
  calc W1 m ρ c (Proc.devRef .tc b)
    _ = W0 m ρ c (Proc.devRef .tc b) := StableHlo.after_of_writes_sub hostOps0 _ hostOps0_writes h1

theorem W2_eq_W0 (c : Dev nD) (b : Ref sig .tc) (h1 : b ∉ hostOps0_W) (r2 : b ≠ main_v16) :
    W2 m ρ c (Proc.devRef .tc b) = W0 m ρ c (Proc.devRef .tc b) :=
  calc W2 m ρ c (Proc.devRef .tc b)
    _ = W1 m ρ c (Proc.devRef .tc b) := W2_keep m ρ c b r2
    _ = W0 m ρ c (Proc.devRef .tc b) := StableHlo.after_of_writes_sub hostOps0 _ hostOps0_writes h1

theorem W3_eq_W0 (c : Dev nD) (b : Ref sig .tc) (h1 : b ∉ hostOps0_W) (r2 : b ≠ main_v16) (h3 : b ∉ hostOps1_W) :
    W3 m ρ c (Proc.devRef .tc b) = W0 m ρ c (Proc.devRef .tc b) :=
  calc W3 m ρ c (Proc.devRef .tc b)
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W4_eq_W0 (c : Dev nD) (b : Ref sig .tc) (h1 : b ∉ hostOps0_W) (r2 : b ≠ main_v16) (h3 : b ∉ hostOps1_W) (r4 : b ≠ main_v30) :
    W4 m ρ c (Proc.devRef .tc b) = W0 m ρ c (Proc.devRef .tc b) :=
  calc W4 m ρ c (Proc.devRef .tc b)
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W5_eq_W0 (c : Dev nD) (b : Ref sig .tc) (h1 : b ∉ hostOps0_W) (r2 : b ≠ main_v16) (h3 : b ∉ hostOps1_W) (r4 : b ≠ main_v30) (h5 : b ∉ hostOps2_W) :
    W5 m ρ c (Proc.devRef .tc b) = W0 m ρ c (Proc.devRef .tc b) :=
  calc W5 m ρ c (Proc.devRef .tc b)
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W6_eq_W0 (c : Dev nD) (b : Ref sig .tc) (h1 : b ∉ hostOps0_W) (r2 : b ≠ main_v16) (h3 : b ∉ hostOps1_W) (r4 : b ≠ main_v30) (h5 : b ∉ hostOps2_W) (r6 : b ≠ main_v51) :
    W6 m ρ c (Proc.devRef .tc b) = W0 m ρ c (Proc.devRef .tc b) :=
  calc W6 m ρ c (Proc.devRef .tc b)
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W7_eq_W0 (c : Dev nD) (b : Ref sig .tc) (h1 : b ∉ hostOps0_W) (r2 : b ≠ main_v16) (h3 : b ∉ hostOps1_W) (r4 : b ≠ main_v30) (h5 : b ∉ hostOps2_W) (r6 : b ≠ main_v51) (h7 : b ∉ hostOps3_W) :
    W7 m ρ c (Proc.devRef .tc b) = W0 m ρ c (Proc.devRef .tc b) :=
  calc W7 m ρ c (Proc.devRef .tc b)
    _ = W6 m ρ c (Proc.devRef .tc b) := StableHlo.after_of_writes_sub hostOps3 _ hostOps3_writes h7
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W8_eq_W0 (c : Dev nD) (b : Ref sig .tc) (h1 : b ∉ hostOps0_W) (r2 : b ≠ main_v16) (h3 : b ∉ hostOps1_W) (r4 : b ≠ main_v30) (h5 : b ∉ hostOps2_W) (r6 : b ≠ main_v51) (h7 : b ∉ hostOps3_W) (r8 : b ≠ main_v65) :
    W8 m ρ c (Proc.devRef .tc b) = W0 m ρ c (Proc.devRef .tc b) :=
  calc W8 m ρ c (Proc.devRef .tc b)
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W9_eq_W0 (c : Dev nD) (b : Ref sig .tc) (h1 : b ∉ hostOps0_W) (r2 : b ≠ main_v16) (h3 : b ∉ hostOps1_W) (r4 : b ≠ main_v30) (h5 : b ∉ hostOps2_W) (r6 : b ≠ main_v51) (h7 : b ∉ hostOps3_W) (r8 : b ≠ main_v65) (h9 : b ∉ hostOps4_W) :
    W9 m ρ c (Proc.devRef .tc b) = W0 m ρ c (Proc.devRef .tc b) :=
  calc W9 m ρ c (Proc.devRef .tc b)
    _ = W8 m ρ c (Proc.devRef .tc b) := StableHlo.after_of_writes_sub hostOps4 _ hostOps4_writes h9
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W10_eq_W0 (c : Dev nD) (b : Ref sig .tc) (h1 : b ∉ hostOps0_W) (r2 : b ≠ main_v16) (h3 : b ∉ hostOps1_W) (r4 : b ≠ main_v30) (h5 : b ∉ hostOps2_W) (r6 : b ≠ main_v51) (h7 : b ∉ hostOps3_W) (r8 : b ≠ main_v65) (h9 : b ∉ hostOps4_W) (r10 : b ≠ main_v86) :
    W10 m ρ c (Proc.devRef .tc b) = W0 m ρ c (Proc.devRef .tc b) :=
  calc W10 m ρ c (Proc.devRef .tc b)
    _ = W9 m ρ c (Proc.devRef .tc b) := W10_keep m ρ c b r10
    _ = W8 m ρ c (Proc.devRef .tc b) := StableHlo.after_of_writes_sub hostOps4 _ hostOps4_writes h9
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W11_eq_W0 (c : Dev nD) (b : Ref sig .tc) (h1 : b ∉ hostOps0_W) (r2 : b ≠ main_v16) (h3 : b ∉ hostOps1_W) (r4 : b ≠ main_v30) (h5 : b ∉ hostOps2_W) (r6 : b ≠ main_v51) (h7 : b ∉ hostOps3_W) (r8 : b ≠ main_v65) (h9 : b ∉ hostOps4_W) (r10 : b ≠ main_v86) (h11 : b ∉ hostOps5_W) :
    W11 m ρ c (Proc.devRef .tc b) = W0 m ρ c (Proc.devRef .tc b) :=
  calc W11 m ρ c (Proc.devRef .tc b)
    _ = W10 m ρ c (Proc.devRef .tc b) := StableHlo.after_of_writes_sub hostOps5 _ hostOps5_writes h11
    _ = W9 m ρ c (Proc.devRef .tc b) := W10_keep m ρ c b r10
    _ = W8 m ρ c (Proc.devRef .tc b) := StableHlo.after_of_writes_sub hostOps4 _ hostOps4_writes h9
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W12_eq_W0 (c : Dev nD) (b : Ref sig .tc) (h1 : b ∉ hostOps0_W) (r2 : b ≠ main_v16) (h3 : b ∉ hostOps1_W) (r4 : b ≠ main_v30) (h5 : b ∉ hostOps2_W) (r6 : b ≠ main_v51) (h7 : b ∉ hostOps3_W) (r8 : b ≠ main_v65) (h9 : b ∉ hostOps4_W) (r10 : b ≠ main_v86) (h11 : b ∉ hostOps5_W) (r12 : b ≠ main_v100) :
    W12 m ρ c (Proc.devRef .tc b) = W0 m ρ c (Proc.devRef .tc b) :=
  calc W12 m ρ c (Proc.devRef .tc b)
    _ = W11 m ρ c (Proc.devRef .tc b) := W12_keep m ρ c b r12
    _ = W10 m ρ c (Proc.devRef .tc b) := StableHlo.after_of_writes_sub hostOps5 _ hostOps5_writes h11
    _ = W9 m ρ c (Proc.devRef .tc b) := W10_keep m ρ c b r10
    _ = W8 m ρ c (Proc.devRef .tc b) := StableHlo.after_of_writes_sub hostOps4 _ hostOps4_writes h9
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2
    _ = W0 m ρ c (Proc.devRef .tc b) := StableHlo.after_of_writes_sub hostOps0 _ hostOps0_writes h1

theorem W2_eq_W1 (c : Dev nD) (b : Ref sig .tc) (r2 : b ≠ main_v16) :
    W2 m ρ c (Proc.devRef .tc b) = W1 m ρ c (Proc.devRef .tc b) :=
  calc W2 m ρ c (Proc.devRef .tc b)
    _ = W1 m ρ c (Proc.devRef .tc b) := W2_keep m ρ c b r2

theorem W4_eq_W1 (c : Dev nD) (b : Ref sig .tc) (r2 : b ≠ main_v16) (h3 : b ∉ hostOps1_W) (r4 : b ≠ main_v30) :
    W4 m ρ c (Proc.devRef .tc b) = W1 m ρ c (Proc.devRef .tc b) :=
  calc W4 m ρ c (Proc.devRef .tc b)
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2

theorem W6_eq_W1 (c : Dev nD) (b : Ref sig .tc) (r2 : b ≠ main_v16) (h3 : b ∉ hostOps1_W) (r4 : b ≠ main_v30) (h5 : b ∉ hostOps2_W) (r6 : b ≠ main_v51) :
    W6 m ρ c (Proc.devRef .tc b) = W1 m ρ c (Proc.devRef .tc b) :=
  calc W6 m ρ c (Proc.devRef .tc b)
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2

theorem W8_eq_W1 (c : Dev nD) (b : Ref sig .tc) (r2 : b ≠ main_v16) (h3 : b ∉ hostOps1_W) (r4 : b ≠ main_v30) (h5 : b ∉ hostOps2_W) (r6 : b ≠ main_v51) (h7 : b ∉ hostOps3_W) (r8 : b ≠ main_v65) :
    W8 m ρ c (Proc.devRef .tc b) = W1 m ρ c (Proc.devRef .tc b) :=
  calc W8 m ρ c (Proc.devRef .tc b)
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2

theorem W10_eq_W1 (c : Dev nD) (b : Ref sig .tc) (r2 : b ≠ main_v16) (h3 : b ∉ hostOps1_W) (r4 : b ≠ main_v30) (h5 : b ∉ hostOps2_W) (r6 : b ≠ main_v51) (h7 : b ∉ hostOps3_W) (r8 : b ≠ main_v65) (h9 : b ∉ hostOps4_W) (r10 : b ≠ main_v86) :
    W10 m ρ c (Proc.devRef .tc b) = W1 m ρ c (Proc.devRef .tc b) :=
  calc W10 m ρ c (Proc.devRef .tc b)
    _ = W9 m ρ c (Proc.devRef .tc b) := W10_keep m ρ c b r10
    _ = W8 m ρ c (Proc.devRef .tc b) := StableHlo.after_of_writes_sub hostOps4 _ hostOps4_writes h9
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6
    _ = W4 m ρ c (Proc.devRef .tc b) := StableHlo.after_of_writes_sub hostOps2 _ hostOps2_writes h5
    _ = W3 m ρ c (Proc.devRef .tc b) := W4_keep m ρ c b r4
    _ = W2 m ρ c (Proc.devRef .tc b) := StableHlo.after_of_writes_sub hostOps1 _ hostOps1_writes h3
    _ = W1 m ρ c (Proc.devRef .tc b) := W2_keep m ρ c b r2

theorem W7_eq_W5 (c : Dev nD) (b : Ref sig .tc) (r6 : b ≠ main_v51) (h7 : b ∉ hostOps3_W) :
    W7 m ρ c (Proc.devRef .tc b) = W5 m ρ c (Proc.devRef .tc b) :=
  calc W7 m ρ c (Proc.devRef .tc b)
    _ = W6 m ρ c (Proc.devRef .tc b) := StableHlo.after_of_writes_sub hostOps3 _ hostOps3_writes h7
    _ = W5 m ρ c (Proc.devRef .tc b) := W6_keep m ρ c b r6

theorem W8_eq_W5 (c : Dev nD) (b : Ref sig .tc) (r6 : b ≠ main_v51) (h7 : b ∉ hostOps3_W) (r8 : b ≠ main_v65) :
    W8 m ρ c (Proc.devRef .tc b) = W5 m ρ c (Proc.devRef .tc b) :=
  calc W8 m ρ c (Proc.devRef .tc b)
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6

theorem W12_eq_W5 (c : Dev nD) (b : Ref sig .tc) (r6 : b ≠ main_v51) (h7 : b ∉ hostOps3_W) (r8 : b ≠ main_v65) (h9 : b ∉ hostOps4_W) (r10 : b ≠ main_v86) (h11 : b ∉ hostOps5_W) (r12 : b ≠ main_v100) :
    W12 m ρ c (Proc.devRef .tc b) = W5 m ρ c (Proc.devRef .tc b) :=
  calc W12 m ρ c (Proc.devRef .tc b)
    _ = W11 m ρ c (Proc.devRef .tc b) := W12_keep m ρ c b r12
    _ = W10 m ρ c (Proc.devRef .tc b) := StableHlo.after_of_writes_sub hostOps5 _ hostOps5_writes h11
    _ = W9 m ρ c (Proc.devRef .tc b) := W10_keep m ρ c b r10
    _ = W8 m ρ c (Proc.devRef .tc b) := StableHlo.after_of_writes_sub hostOps4 _ hostOps4_writes h9
    _ = W7 m ρ c (Proc.devRef .tc b) := W8_keep m ρ c b r8
    _ = W6 m ρ c (Proc.devRef .tc b) := StableHlo.after_of_writes_sub hostOps3 _ hostOps3_writes h7
    _ = W5 m ρ c (Proc.devRef .tc b) := W6_keep m ρ c b r6

theorem W11_eq_W9 (c : Dev nD) (b : Ref sig .tc) (r10 : b ≠ main_v86) (h11 : b ∉ hostOps5_W) :
    W11 m ρ c (Proc.devRef .tc b) = W9 m ρ c (Proc.devRef .tc b) :=
  calc W11 m ρ c (Proc.devRef .tc b)
    _ = W10 m ρ c (Proc.devRef .tc b) := StableHlo.after_of_writes_sub hostOps5 _ hostOps5_writes h11
    _ = W9 m ρ c (Proc.devRef .tc b) := W10_keep m ρ c b r10

theorem W12_eq_W9 (c : Dev nD) (b : Ref sig .tc) (r10 : b ≠ main_v86) (h11 : b ∉ hostOps5_W) (r12 : b ≠ main_v100) :
    W12 m ρ c (Proc.devRef .tc b) = W9 m ρ c (Proc.devRef .tc b) :=
  calc W12 m ρ c (Proc.devRef .tc b)
    _ = W11 m ρ c (Proc.devRef .tc b) := W12_keep m ρ c b r12
    _ = W10 m ρ c (Proc.devRef .tc b) := StableHlo.after_of_writes_sub hostOps5 _ hostOps5_writes h11
    _ = W9 m ρ c (Proc.devRef .tc b) := W10_keep m ρ c b r10

end Cert.KernelIdeal.Regions

end
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.EdgeEntry.lean ====
/-
  The edge message at one entry.  In exact arithmetic the body of the edge kernel leaves, at row p and column q of its
  block, the larger of 0 and  source(p,q) + (Σₖ features(p,k) · weight(k,q) + bias(0,q)):  the change of float format on
  the way into the product is the identity there, the product into a zero accumulator is the plain sum of products,
  and the one-row bias is repeated down the rows.
-/
import proofs.«155749_j23802708754725_1_alg».proof.Proof.Gen.KernelIdeal.Skeleton
import proofs.«155749_j23802708754725_1_alg».proof.Proof.LibMatmulRead
import proofs.«155749_j23802708754725_1_alg».proof.Proof.LibRowsProduct
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Entries

open Cert.KernelIdeal Cert.KernelIdeal.Gen Idealize.ShloMosaic Idealize.ShloMosaic.ValueIdx

/-- Where the 5000×32 by 32×64 product's record sends an output index and a contraction index. -/
theorem lhs32_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs32_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhs32_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhs32_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The edge message at (p, q), as a function of the four blocks' entries. -/
def edgeAt (feat : S5000x32.Idx → EReal) (w : S32x64.Idx → EReal) (b : S1x64.Idx → EReal) (src : S5000x64.Idx → EReal)
    (p : Fin 5000) (q : Fin 64) : EReal :=
  max (src (ix2 p q) + ((∑ k : Fin 32, feat (ix2 p k) * w (ix2 k q)) + b (ix2 (0 : Fin 1) q))) 0

/-- The body's arithmetic, read at an entry. -/
theorem k0_pay1_apply (v0 : FVec Ideal S5000x32 .f32) (v2 : FVec Ideal S32x64 .f32) (v6 : FVec Ideal S1x64 .f32) (v10 : FVec Ideal S5000x64 .f32)
    (p : Fin 5000) (q : Fin 64) :
    k0_pay1 (F := Ideal) v0 v2 v6 v10 (ix2 p q) = edgeAt v0 v2 v6 v10 p q := by
  have hprod : FloatOps.matmul dot_S5000x32_S32x64_S5000x64_1_0_0_1_n_n none (truncf .bf16 v0 bitsLt_bf16_f32)
        (truncf .bf16 (shapeCast S32x64 v2 shapeCasts_S32x64_S32x64) bitsLt_bf16_f32) (constant (F := Ideal) S5000x64 .f32 0x00000000#32) (ix2 p q)
      = ∑ k : Fin 32, v0 (ix2 p k) * v2 (ix2 k q) := by
    refine (Cert.Contract.matmul_zero_ix2 dot_S5000x32_S32x64_S5000x64_1_0_0_1_n_n none rfl rfl lhs32_0 lhs32_1 rhs32_0 rhs32_1 _ _ p q).trans ?_
    refine Finset.sum_congr rfl fun k _ => ?_
    show v0 (ix2 p k) * shapeCast S32x64 v2 shapeCasts_S32x64_S32x64 (ix2 k q) = _
    rw [shapeCast_self]
  have hbias : broadcastTo S5000x64 (shapeCast S1x64 v6 shapeCasts_S1x64_S1x64) broadcasts_S1x64_S5000x64 (ix2 p q) = v6 (ix2 (0 : Fin 1) q) := by
    refine (Cert.RowsProduct.broadcastTo_1n_an_apply _ broadcasts_S1x64_S5000x64 p q).trans ?_
    rw [shapeCast_self]
  have hsrc : shapeCast S5000x64 v10 shapeCasts_S5000x64_S5000x64 (ix2 p q) = v10 (ix2 p q) := by rw [shapeCast_self]
  unfold k0_pay1 edgeAt
  show max (shapeCast S5000x64 v10 shapeCasts_S5000x64_S5000x64 (ix2 p q)
      + (FloatOps.matmul dot_S5000x32_S32x64_S5000x64_1_0_0_1_n_n none (truncf .bf16 v0 bitsLt_bf16_f32)
            (truncf .bf16 (shapeCast S32x64 v2 shapeCasts_S32x64_S32x64) bitsLt_bf16_f32) (constant (F := Ideal) S5000x64 .f32 0x00000000#32) (ix2 p q)
          + broadcastTo S5000x64 (shapeCast S1x64 v6 shapeCasts_S1x64_S1x64) broadcasts_S1x64_S5000x64 (ix2 p q)))
      (Ideal.ofBits .f32 0x00000000#32) = _
  rw [hprod, hbias, hsrc, Ideal.ofBits_zero_f32]

/-- The whole message array, entry by entry, from the edge features [1250000, 32], the gathered source rows
    [1250000, 64], the weight and the one-row bias. -/
def edgeArr (feat : S1250000x32.Idx → EReal) (src : S1250000x64.Idx → EReal) (w : S32x64.Idx → EReal) (b : S1x64.Idx → EReal) :
    S1250000x64.Idx → EReal := fun i =>
  max (src i + ((∑ k : Fin 32, feat (ix2 (⟨(i 0).val, (i 0).isLt⟩ : Fin 1250000) k) * w (ix2 k (⟨(i 1).val, (i 1).isLt⟩ : Fin 64)))
    + b (ix2 (0 : Fin 1) (⟨(i 1).val, (i 1).isLt⟩ : Fin 64)))) 0

/-- A block's message at (p, q) is the array's message at the index i, once each block entry the message reads is the
    array entry at the matching position: the source at i, the features along row i₀, the weight along column i₁, the
    bias at column i₁. -/
theorem edge_block_eq (feat : S1250000x32.Idx → EReal) (src : S1250000x64.Idx → EReal) (w : S32x64.Idx → EReal) (b : S1x64.Idx → EReal)
    (bf : S5000x32.Idx → EReal) (bs : S5000x64.Idx → EReal) (bw : S32x64.Idx → EReal) (bb : S1x64.Idx → EReal)
    (i : S1250000x64.Idx) (p : Fin 5000) (q : Fin 64)
    (hs : bs (ix2 p q) = src i)
    (hf : ∀ k : Fin 32, bf (ix2 p k) = feat (ix2 (⟨(i 0).val, (i 0).isLt⟩ : Fin 1250000) k))
    (hw : ∀ k : Fin 32, bw (ix2 k q) = w (ix2 k (⟨(i 1).val, (i 1).isLt⟩ : Fin 64)))
    (hb : bb (ix2 (0 : Fin 1) q) = b (ix2 (0 : Fin 1) (⟨(i 1).val, (i 1).isLt⟩ : Fin 64))) :
    edgeAt bf bw bb bs p q = edgeArr feat src w b i := by
  unfold edgeAt edgeArr
  rw [hs, hb]
  simp only [hf, hw]

/-- The second and third layers' edge bodies are the same arithmetic. -/
theorem k2_pay1_eq : @k2_pay1 Ideal _ = @k0_pay1 Ideal _ := rfl
theorem k4_pay1_eq : @k4_pay1 Ideal _ = @k0_pay1 Ideal _ := rfl

end Cert.KernelIdeal.Entries

end
-- ==== Proof.EdgeBlocks4.lean ====
/-
  Region 4's message array as one function of the arrays it is entered with.  Grid point t owns rows
  5000·t … 5000·t+4999; what it writes back is the edge message of exactly those rows of the features and of the gathered
  source rows, with the whole weight and bias; the 250 blocks tile the 1,250,000 rows. So after the region the array
  holds, at (r, q),  max(source(r,q) + (Σₖ features(r,k)·weight(k,q) + bias(0,q)), 0).
-/
import proofs.«155749_j23802708754725_1_alg».proof.Proof.KernelIdealEdge4
import proofs.«155749_j23802708754725_1_alg».proof.Proof.EdgeEntry

set_option maxRecDepth 16384

noncomputable section

namespace Cert.KernelIdeal.Regions

open Cert.KernelIdeal Cert.KernelIdeal.Gen Cert.KernelIdeal.Entries
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the two row-blocked inputs move with the output along the rows, nothing moves
    along the columns, the weight and the bias stay at block (0, 0), and the output's row block is the grid point. -/
theorem idx_facts4 : ∀ t : Fin cfg4.N, win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

set_option maxHeartbeats 1000000 in
/-- WHAT POINT t WRITES BACK is block t of the message array of the arrays as the region finds them. -/
theorem flushed4_eq (c : Dev nD) (t : Fin cfg4.N) :
    (dat4 V c).flushed 4 t = ((cfg4.win 4).blk t).view.read (Elt Ideal)
      (edgeArr (V c main_arg2) (V c main_v80) (V c main_v82) (V c main_v85)) := by
  show (cfg4.win 4).cut (grid4.coords t) ((dat4 V c).after 4 t) = _
  rw [after4_4]
  unfold out4_4
  rw [View.canon_unit_zero hz4]
  simp only [View.ld_unit_zero (S := S5000x32) hz4, View.ld_unit_zero (S := S5000x64) hz4, View.ld_unit_zero (S := S32x64) hz4, View.ld_unit_zero (S := S1x64) hz4]
  obtain ⟨e00, e01, e10, e11, e20, e21, e30, e31, e40, e41⟩ := idx_facts4 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have hsrc : ((cfg4.win 1).blk t).view.emb (ix2 p q) = (((cfg4.win 4).blk t).view.emb (ix2 p q)) := by
    funext a; apply Fin.ext
    match a with
    | ⟨0, _⟩ => show win4_1.index t (0 : Fin 2) * 5000 + 1 * p.val = win4_4.index t (0 : Fin 2) * 5000 + 1 * p.val; omega
    | ⟨1, _⟩ => show win4_1.index t (1 : Fin 2) * 64 + 1 * q.val = win4_4.index t (1 : Fin 2) * 64 + 1 * q.val; omega
  have hfeat : ∀ k : Fin 32, ((cfg4.win 0).blk t).view.emb (ix2 p k) = ix2 (⟨((((cfg4.win 4).blk t).view.emb (ix2 p q)) 0).val, ((((cfg4.win 4).blk t).view.emb (ix2 p q)) 0).isLt⟩ : Fin 1250000) k := by
    intro k; funext a; apply Fin.ext
    have hk : k.val < 32 := k.isLt
    match a with
    | ⟨0, _⟩ => show win4_0.index t (0 : Fin 2) * 5000 + 1 * p.val = win4_4.index t (0 : Fin 2) * 5000 + 1 * p.val; omega
    | ⟨1, _⟩ => show win4_0.index t (1 : Fin 2) * 32 + 1 * k.val = k.val; omega
  have hw : ∀ k : Fin 32, ((cfg4.win 2).blk t).view.emb (ix2 k q) = ix2 k (⟨((((cfg4.win 4).blk t).view.emb (ix2 p q)) 1).val, ((((cfg4.win 4).blk t).view.emb (ix2 p q)) 1).isLt⟩ : Fin 64) := by
    intro k; funext a; apply Fin.ext
    have hk : k.val < 32 := k.isLt
    match a with
    | ⟨0, _⟩ => show win4_2.index t (0 : Fin 2) * 32 + 1 * k.val = k.val; omega
    | ⟨1, _⟩ => show win4_2.index t (1 : Fin 2) * 64 + 1 * q.val = win4_4.index t (1 : Fin 2) * 64 + 1 * q.val; omega
  have hb : ((cfg4.win 3).blk t).view.emb (ix2 (0 : Fin 1) q) = ix2 (0 : Fin 1) (⟨((((cfg4.win 4).blk t).view.emb (ix2 p q)) 1).val, ((((cfg4.win 4).blk t).view.emb (ix2 p q)) 1).isLt⟩ : Fin 64) := by
    funext a; apply Fin.ext
    match a with
    | ⟨0, _⟩ => show win4_3.index t (0 : Fin 2) * 1 + 1 * 0 = 0; omega
    | ⟨1, _⟩ => show win4_3.index t (1 : Fin 2) * 64 + 1 * q.val = win4_4.index t (1 : Fin 2) * 64 + 1 * q.val; omega
  show k4_pay1 (F := Ideal) (iblk4 V c 0 t) (iblk4 V c 2 t) (iblk4 V c 3 t) (iblk4 V c 1 t) (ix2 p q)
      = edgeArr (V c main_arg2) (V c main_v80) (V c main_v82) (V c main_v85) (((cfg4.win 4).blk t).view.emb (ix2 p q))
  rw [k4_pay1_eq]
  refine (k0_pay1_apply (iblk4 V c 0 t) (iblk4 V c 2 t) (iblk4 V c 3 t) (iblk4 V c 1 t) p q).trans ?_
  refine edge_block_eq (V c main_arg2) (V c main_v80) (V c main_v82) (V c main_v85) (iblk4 V c 0 t) (iblk4 V c 1 t) (iblk4 V c 2 t) (iblk4 V c 3 t)
    (((cfg4.win 4).blk t).view.emb (ix2 p q)) p q ?_ (fun k => ?_) (fun k => ?_) ?_
  · show V c main_v80 (((cfg4.win 1).blk t).view.emb (ix2 p q)) = V c main_v80 (((cfg4.win 4).blk t).view.emb (ix2 p q))
    rw [hsrc]
  · show V c main_arg2 (((cfg4.win 0).blk t).view.emb (ix2 p k)) = V c main_arg2 (ix2 (⟨((((cfg4.win 4).blk t).view.emb (ix2 p q)) 0).val, ((((cfg4.win 4).blk t).view.emb (ix2 p q)) 0).isLt⟩ : Fin 1250000) k)
    rw [hfeat k]
  · show V c main_v82 (((cfg4.win 2).blk t).view.emb (ix2 k q)) = V c main_v82 (ix2 k (⟨((((cfg4.win 4).blk t).view.emb (ix2 p q)) 1).val, ((((cfg4.win 4).blk t).view.emb (ix2 p q)) 1).isLt⟩ : Fin 64))
    rw [hw k]
  · show V c main_v85 (((cfg4.win 3).blk t).view.emb (ix2 (0 : Fin 1) q)) = V c main_v85 (ix2 (0 : Fin 1) (⟨((((cfg4.win 4).blk t).view.emb (ix2 p q)) 1).val, ((((cfg4.win 4).blk t).view.emb (ix2 p q)) 1).isLt⟩ : Fin 64))
    rw [hb]

/-- An index of the array is in point t's block iff each coordinate is in the block's range on its axis. -/
theorem mem_blk4 (t : Fin cfg4.N) (i : S1250000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v86).slice (win4_4.rect t)).set ↔ _
  rw [View.set_slice_whole, Rect.mem_set_unit]
  exact Iff.rfl

/-- THE ARRAY after the region: the message array of the arrays as the region finds them — row r lies in the block of
    point r / 5000. -/
theorem final4 (c : Dev nD) : (dat4 V c).arrAt 4 cfg4.N = edgeArr (V c main_arg2) (V c main_v80) (V c main_v82) (V c main_v85) :=
  (dat4 V c).arrAt_eq_of_cover 4 _ (fun t _ => flushed4_eq V c t) fun i => by
    have hN : cfg4.N = 250 := N_4
    have hi0 : (i 0).val < 1250000 := (i 0).isLt
    have hi1 : (i 1).val < 64 := (i 1).isLt
    let t : Fin cfg4.N := ⟨(i 0).val / 5000, by rw [hN]; omega⟩
    obtain ⟨e00, e01, e10, e11, e20, e21, e30, e31, e40, e41⟩ := idx_facts4 t
    have ht : t.val = (i 0).val / 5000 := rfl
    refine ⟨t, flush4_4 t, ?_⟩
    rw [mem_blk4]
    intro a
    match a with
    | ⟨0, _⟩ => show win4_4.index t (0 : Fin 2) * 5000 ≤ (i 0).val ∧ (i 0).val < win4_4.index t (0 : Fin 2) * 5000 + 5000; omega
    | ⟨1, _⟩ => show win4_4.index t (1 : Fin 2) * 64 ≤ (i 1).val ∧ (i 1).val < win4_4.index t (1 : Fin 2) * 64 + 64; omega

end Cert.KernelIdeal.Regions

end
-- ==== Proof.NodeEntry.lean ====
/-
  The node update at one entry.  In exact arithmetic the body of the node kernel leaves, at row p and column q of its
  block,   Σⱼ hidden(p,j) · W₂(j,q) + b₂(0,q),   where   hidden(p,j) = max(Σₖ (x(p,k) + aggregate(p,k)) · W₁(k,j) + b₁(0,j), 0):
  the changes of float format on the way into the two products are the identity there, each product into a zero
  accumulator is the plain sum of products, and each one-row bias is repeated down the rows.
-/
import proofs.«155749_j23802708754725_1_alg».proof.Proof.Gen.KernelIdeal.Skeleton
import proofs.«155749_j23802708754725_1_alg».proof.Proof.LibMatmulRead
import proofs.«155749_j23802708754725_1_alg».proof.Proof.LibRowsProduct
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Entries

open Cert.KernelIdeal Cert.KernelIdeal.Gen Idealize.ShloMosaic Idealize.ShloMosaic.ValueIdx

/-- Where the 5000×64 by 64×64 product's record sends an output index and a contraction index. -/
theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The hidden activation at (p, j). -/
def hiddenAt (x aggr : S5000x64.Idx → EReal) (w1 : S64x64.Idx → EReal) (b1 : S1x64.Idx → EReal) (p : Fin 5000) (j : Fin 64) : EReal :=
  max ((∑ k : Fin 64, (x (ix2 p k) + aggr (ix2 p k)) * w1 (ix2 k j)) + b1 (ix2 (0 : Fin 1) j)) 0

/-- The node update at (p, q). -/
def nodeAt (x aggr : S5000x64.Idx → EReal) (w1 : S64x64.Idx → EReal) (b1 : S1x64.Idx → EReal) (w2 : S64x64.Idx → EReal) (b2 : S1x64.Idx → EReal)
    (p : Fin 5000) (q : Fin 64) : EReal :=
  (∑ j : Fin 64, hiddenAt x aggr w1 b1 p j * w2 (ix2 j q)) + b2 (ix2 (0 : Fin 1) q)

/-- A 5000×64 by 64×64 product into the zero accumulator, whatever float formats its operands were changed to. -/
theorem prod64 {φ₁ φ₂ : FTy} (L : FVec Ideal S5000x64 φ₁) (R : FVec Ideal S64x64 φ₂) (p : Fin 5000) (q : Fin 64) :
    FloatOps.matmul dot_S5000x64_S64x64_S5000x64_1_0_0_1_n_n none L R (constant (F := Ideal) S5000x64 .f32 0x00000000#32) (ix2 p q) = ∑ k : Fin 64, L (ix2 p k) * R (ix2 k q) :=
  Cert.Contract.matmul_zero_ix2 dot_S5000x64_S64x64_S5000x64_1_0_0_1_n_n none rfl rfl lhs64_0 lhs64_1 rhs64_0 rhs64_1 L R p q

theorem bias64 (b : FVec Ideal S1x64 .f32) (p : Fin 5000) (q : Fin 64) :
    broadcastTo S5000x64 (shapeCast S1x64 b shapeCasts_S1x64_S1x64) broadcasts_S1x64_S5000x64 (ix2 p q) = b (ix2 (0 : Fin 1) q) := by
  refine (Cert.RowsProduct.broadcastTo_1n_an_apply _ broadcasts_S1x64_S5000x64 p q).trans ?_
  rw [shapeCast_self]

/-- The body's arithmetic, read at an entry. -/
theorem k1_pay1_apply (v0 v1 : FVec Ideal S5000x64 .f32) (v5 : FVec Ideal S64x64 .f32) (v9 : FVec Ideal S1x64 .f32) (v16 : FVec Ideal S64x64 .f32) (v20 : FVec Ideal S1x64 .f32)
    (p : Fin 5000) (q : Fin 64) :
    k1_pay1 (F := Ideal) v0 v1 v5 v9 v16 v20 (ix2 p q) = nodeAt v0 v1 v5 v9 v16 v20 p q := by
  -- the hidden activation, as the body spells it
  have hhid : ∀ j : Fin 64,
      max (FloatOps.matmul dot_S5000x64_S64x64_S5000x64_1_0_0_1_n_n none (truncf .bf16 (addf v0 (shapeCast S5000x64 v1 shapeCasts_S5000x64_S5000x64)) bitsLt_bf16_f32)
              (truncf .bf16 (shapeCast S64x64 v5 shapeCasts_S64x64_S64x64) bitsLt_bf16_f32) (constant (F := Ideal) S5000x64 .f32 0x00000000#32) (ix2 p j)
            + broadcastTo S5000x64 (shapeCast S1x64 v9 shapeCasts_S1x64_S1x64) broadcasts_S1x64_S5000x64 (ix2 p j))
          (Ideal.ofBits .f32 0x00000000#32)
        = hiddenAt v0 v1 v5 v9 p j := by
    intro j
    unfold hiddenAt
    rw [prod64, bias64, Ideal.ofBits_zero_f32]
    refine congrArg (fun s => max (s + v9 (ix2 (0 : Fin 1) j)) 0) (Finset.sum_congr rfl fun k _ => ?_)
    show (v0 (ix2 p k) + shapeCast S5000x64 v1 shapeCasts_S5000x64_S5000x64 (ix2 p k)) * shapeCast S64x64 v5 shapeCasts_S64x64_S64x64 (ix2 k j) = _
    rw [shapeCast_self, shapeCast_self]
  unfold k1_pay1 nodeAt
  show FloatOps.matmul dot_S5000x64_S64x64_S5000x64_1_0_0_1_n_n none
        (truncf .bf16 (maximumf (addf (matmul dot_S5000x64_S64x64_S5000x64_1_0_0_1_n_n none (truncf .bf16 (addf v0 (shapeCast S5000x64 v1 shapeCasts_S5000x64_S5000x64)) bitsLt_bf16_f32)
              (truncf .bf16 (shapeCast S64x64 v5 shapeCasts_S64x64_S64x64) bitsLt_bf16_f32) (constant S5000x64 .f32 0x00000000#32))
            (broadcastTo S5000x64 (shapeCast S1x64 v9 shapeCasts_S1x64_S1x64) broadcasts_S1x64_S5000x64))
          (broadcast S5000x64 (Scalar.ofBits .f32 0x00000000#32))) bitsLt_bf16_f32)
        (truncf .bf16 (shapeCast S64x64 v16 shapeCasts_S64x64_S64x64) bitsLt_bf16_f32) (constant (F := Ideal) S5000x64 .f32 0x00000000#32) (ix2 p q)
      + broadcastTo S5000x64 (shapeCast S1x64 v20 shapeCasts_S1x64_S1x64) broadcasts_S1x64_S5000x64 (ix2 p q) = _
  rw [prod64, bias64]
  refine congrArg (fun s => s + v20 (ix2 (0 : Fin 1) q)) (Finset.sum_congr rfl fun j _ => ?_)
  refine congrArg₂ (· * ·) (hhid j) ?_
  show shapeCast S64x64 v16 shapeCasts_S64x64_S64x64 (ix2 j q) = _
  rw [shapeCast_self]

/-- The whole updated array, entry by entry, from the node features and the aggregated messages [100000, 64], the two
    weights and the two one-row biases. -/
def nodeArr (x aggr : S100000x64.Idx → EReal) (w1 : S64x64.Idx → EReal) (b1 : S1x64.Idx → EReal) (w2 : S64x64.Idx → EReal) (b2 : S1x64.Idx → EReal) :
    S100000x64.Idx → EReal := fun i =>
  (∑ j : Fin 64, max ((∑ k : Fin 64, (x (ix2 (⟨(i 0).val, (i 0).isLt⟩ : Fin 100000) k) + aggr (ix2 (⟨(i 0).val, (i 0).isLt⟩ : Fin 100000) k)) * w1 (ix2 k j))
      + b1 (ix2 (0 : Fin 1) j)) 0 * w2 (ix2 j (⟨(i 1).val, (i 1).isLt⟩ : Fin 64)))
    + b2 (ix2 (0 : Fin 1) (⟨(i 1).val, (i 1).isLt⟩ : Fin 64))

/-- A block's update at (p, q) is the array's update at the index i, once each block entry the update reads is the array
    entry at the matching position: the node and aggregate rows along row i₀, the first weight and bias where they
    stand, the second weight along column i₁ and the second bias at column i₁. -/
theorem node_block_eq (x aggr : S100000x64.Idx → EReal) (w1 : S64x64.Idx → EReal) (b1 : S1x64.Idx → EReal) (w2 : S64x64.Idx → EReal) (b2 : S1x64.Idx → EReal)
    (bx bag : S5000x64.Idx → EReal) (bw1 : S64x64.Idx → EReal) (bb1 : S1x64.Idx → EReal) (bw2 : S64x64.Idx → EReal) (bb2 : S1x64.Idx → EReal)
    (i : S100000x64.Idx) (p : Fin 5000) (q : Fin 64)
    (hx : ∀ k : Fin 64, bx (ix2 p k) = x (ix2 (⟨(i 0).val, (i 0).isLt⟩ : Fin 100000) k))
    (hag : ∀ k : Fin 64, bag (ix2 p k) = aggr (ix2 (⟨(i 0).val, (i 0).isLt⟩ : Fin 100000) k))
    (hw1 : ∀ k j : Fin 64, bw1 (ix2 k j) = w1 (ix2 k j))
    (hb1 : ∀ j : Fin 64, bb1 (ix2 (0 : Fin 1) j) = b1 (ix2 (0 : Fin 1) j))
    (hw2 : ∀ j : Fin 64, bw2 (ix2 j q) = w2 (ix2 j (⟨(i 1).val, (i 1).isLt⟩ : Fin 64)))
    (hb2 : bb2 (ix2 (0 : Fin 1) q) = b2 (ix2 (0 : Fin 1) (⟨(i 1).val, (i 1).isLt⟩ : Fin 64))) :
    nodeAt bx bag bw1 bb1 bw2 bb2 p q = nodeArr x aggr w1 b1 w2 b2 i := by
  unfold nodeAt hiddenAt nodeArr
  rw [hb2]
  simp only [hx, hag, hw1, hb1, hw2]

/-- The second and third layers' node bodies re-lay the node rows onto their own shape first; the arithmetic is the same. -/
theorem k3_pay1_eq (v0 v1 : FVec Ideal S5000x64 .f32) (v5 : FVec Ideal S64x64 .f32) (v9 : FVec Ideal S1x64 .f32) (v16 : FVec Ideal S64x64 .f32) (v20 : FVec Ideal S1x64 .f32) :
    k3_pay1 (F := Ideal) v0 v1 v5 v9 v16 v20 = k1_pay1 (F := Ideal) v0 v1 v5 v9 v16 v20 := by
  unfold k3_pay1 k1_pay1
  rw [shapeCast_self (v := v0)]
theorem k5_pay1_eq (v0 v1 : FVec Ideal S5000x64 .f32) (v5 : FVec Ideal S64x64 .f32) (v9 : FVec Ideal S1x64 .f32) (v16 : FVec Ideal S64x64 .f32) (v20 : FVec Ideal S1x64 .f32) :
    k5_pay1 (F := Ideal) v0 v1 v5 v9 v16 v20 = k1_pay1 (F := Ideal) v0 v1 v5 v9 v16 v20 := by
  unfold k5_pay1 k1_pay1
  rw [shapeCast_self (v := v0)]

end Cert.KernelIdeal.Entries

end
-- ==== Proof.NodeBlocks5.lean ====
/-
  Region 5's updated array as one function of the arrays it is entered with.  Grid point t owns rows
  5000·t … 5000·t+4999; what it writes back is the node update of exactly those rows of the node features and of the
  aggregated messages, with the two whole weights and biases; the 20 blocks tile the 100,000 rows. So after the region the
  array holds, at (r, q),  Σⱼ max(Σₖ (x(r,k) + aggregate(r,k))·W₁(k,j) + b₁(0,j), 0)·W₂(j,q) + b₂(0,q).
-/
import proofs.«155749_j23802708754725_1_alg».proof.Proof.KernelIdealNode5
import proofs.«155749_j23802708754725_1_alg».proof.Proof.NodeEntry

set_option maxRecDepth 16384

noncomputable section

namespace Cert.KernelIdeal.Regions

open Cert.KernelIdeal Cert.KernelIdeal.Gen Cert.KernelIdeal.Entries
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the two row-blocked inputs move with the output along the rows, nothing moves
    along the columns, the weights and biases stay at block (0, 0), and the output's row block is the grid point. -/
theorem idx_facts5 : ∀ t : Fin cfg5.N, win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

set_option maxHeartbeats 1000000 in
/-- WHAT POINT t WRITES BACK is block t of the updated array of the arrays as the region finds them. -/
theorem flushed5_eq (c : Dev nD) (t : Fin cfg5.N) :
    (dat5 V c).flushed 6 t = ((cfg5.win 6).blk t).view.read (Elt Ideal) (nodeArr (V c main_v73) (V c main_v89) (V c main_v91) (V c main_v98) (V c main_v95) (V c main_v99)) := by
  show (cfg5.win 6).cut (grid5.coords t) ((dat5 V c).after 6 t) = _
  rw [after5_6]
  unfold out5_6
  rw [View.canon_unit_zero hz5]
  simp only [View.ld_unit_zero (S := S5000x64) hz5, View.ld_unit_zero (S := S64x64) hz5, View.ld_unit_zero (S := S1x64) hz5]
  obtain ⟨e00, e01, e10, e11, e20, e21, e30, e31, e40, e41, e50, e51, e60, e61⟩ := idx_facts5 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have hx : ∀ k : Fin 64, ((cfg5.win 0).blk t).view.emb (ix2 p k) = ix2 (⟨((((cfg5.win 6).blk t).view.emb (ix2 p q)) 0).val, ((((cfg5.win 6).blk t).view.emb (ix2 p q)) 0).isLt⟩ : Fin 100000) k := by
    intro k; funext a; apply Fin.ext
    have hk : k.val < 64 := k.isLt
    match a with
    | ⟨0, _⟩ => show win5_0.index t (0 : Fin 2) * 5000 + 1 * p.val = win5_6.index t (0 : Fin 2) * 5000 + 1 * p.val; omega
    | ⟨1, _⟩ => show win5_0.index t (1 : Fin 2) * 64 + 1 * k.val = k.val; omega
  have hag : ∀ k : Fin 64, ((cfg5.win 1).blk t).view.emb (ix2 p k) = ix2 (⟨((((cfg5.win 6).blk t).view.emb (ix2 p q)) 0).val, ((((cfg5.win 6).blk t).view.emb (ix2 p q)) 0).isLt⟩ : Fin 100000) k := by
    intro k; funext a; apply Fin.ext
    have hk : k.val < 64 := k.isLt
    match a with
    | ⟨0, _⟩ => show win5_1.index t (0 : Fin 2) * 5000 + 1 * p.val = win5_6.index t (0 : Fin 2) * 5000 + 1 * p.val; omega
    | ⟨1, _⟩ => show win5_1.index t (1 : Fin 2) * 64 + 1 * k.val = k.val; omega
  have hw1 : ∀ (k j : Fin 64), ((cfg5.win 2).blk t).view.emb (ix2 k j) = ix2 k j := by
    intro k j; funext a; apply Fin.ext
    match a with
    | ⟨0, _⟩ => show win5_2.index t (0 : Fin 2) * 64 + 1 * k.val = k.val; omega
    | ⟨1, _⟩ => show win5_2.index t (1 : Fin 2) * 64 + 1 * j.val = j.val; omega
  have hb1 : ∀ j : Fin 64, ((cfg5.win 3).blk t).view.emb (ix2 (0 : Fin 1) j) = ix2 (0 : Fin 1) j := by
    intro j; funext a; apply Fin.ext
    match a with
    | ⟨0, _⟩ => show win5_3.index t (0 : Fin 2) * 1 + 1 * 0 = 0; omega
    | ⟨1, _⟩ => show win5_3.index t (1 : Fin 2) * 64 + 1 * j.val = j.val; omega
  have hw2 : ∀ j : Fin 64, ((cfg5.win 4).blk t).view.emb (ix2 j q) = ix2 j (⟨((((cfg5.win 6).blk t).view.emb (ix2 p q)) 1).val, ((((cfg5.win 6).blk t).view.emb (ix2 p q)) 1).isLt⟩ : Fin 64) := by
    intro j; funext a; apply Fin.ext
    match a with
    | ⟨0, _⟩ => show win5_4.index t (0 : Fin 2) * 64 + 1 * j.val = j.val; omega
    | ⟨1, _⟩ => show win5_4.index t (1 : Fin 2) * 64 + 1 * q.val = win5_6.index t (1 : Fin 2) * 64 + 1 * q.val; omega
  have hb2 : ((cfg5.win 5).blk t).view.emb (ix2 (0 : Fin 1) q) = ix2 (0 : Fin 1) (⟨((((cfg5.win 6).blk t).view.emb (ix2 p q)) 1).val, ((((cfg5.win 6).blk t).view.emb (ix2 p q)) 1).isLt⟩ : Fin 64) := by
    funext a; apply Fin.ext
    match a with
    | ⟨0, _⟩ => show win5_5.index t (0 : Fin 2) * 1 + 1 * 0 = 0; omega
    | ⟨1, _⟩ => show win5_5.index t (1 : Fin 2) * 64 + 1 * q.val = win5_6.index t (1 : Fin 2) * 64 + 1 * q.val; omega
  show k5_pay1 (F := Ideal) (iblk5 V c 0 t) (iblk5 V c 1 t) (iblk5 V c 2 t) (iblk5 V c 3 t) (iblk5 V c 4 t) (iblk5 V c 5 t) (ix2 p q) = nodeArr (V c main_v73) (V c main_v89) (V c main_v91) (V c main_v98) (V c main_v95) (V c main_v99) (((cfg5.win 6).blk t).view.emb (ix2 p q))
  refine (congrFun (k5_pay1_eq (iblk5 V c 0 t) (iblk5 V c 1 t) (iblk5 V c 2 t) (iblk5 V c 3 t) (iblk5 V c 4 t) (iblk5 V c 5 t)) (ix2 p q)).trans ?_
  refine (k1_pay1_apply (iblk5 V c 0 t) (iblk5 V c 1 t) (iblk5 V c 2 t) (iblk5 V c 3 t) (iblk5 V c 4 t) (iblk5 V c 5 t) p q).trans ?_
  refine node_block_eq (V c main_v73) (V c main_v89) (V c main_v91) (V c main_v98) (V c main_v95) (V c main_v99) (iblk5 V c 0 t) (iblk5 V c 1 t) (iblk5 V c 2 t) (iblk5 V c 3 t) (iblk5 V c 4 t) (iblk5 V c 5 t) (((cfg5.win 6).blk t).view.emb (ix2 p q)) p q (fun k => ?_) (fun k => ?_) (fun k j => ?_) (fun j => ?_) (fun j => ?_) ?_
  · show V c main_v73 (((cfg5.win 0).blk t).view.emb (ix2 p k)) = V c main_v73 (ix2 (⟨((((cfg5.win 6).blk t).view.emb (ix2 p q)) 0).val, ((((cfg5.win 6).blk t).view.emb (ix2 p q)) 0).isLt⟩ : Fin 100000) k)
    rw [hx k]
  · show V c main_v89 (((cfg5.win 1).blk t).view.emb (ix2 p k)) = V c main_v89 (ix2 (⟨((((cfg5.win 6).blk t).view.emb (ix2 p q)) 0).val, ((((cfg5.win 6).blk t).view.emb (ix2 p q)) 0).isLt⟩ : Fin 100000) k)
    rw [hag k]
  · show V c main_v91 (((cfg5.win 2).blk t).view.emb (ix2 k j)) = V c main_v91 (ix2 k j)
    rw [hw1 k j]
  · show V c main_v98 (((cfg5.win 3).blk t).view.emb (ix2 (0 : Fin 1) j)) = V c main_v98 (ix2 (0 : Fin 1) j)
    rw [hb1 j]
  · show V c main_v95 (((cfg5.win 4).blk t).view.emb (ix2 j q)) = V c main_v95 (ix2 j (⟨((((cfg5.win 6).blk t).view.emb (ix2 p q)) 1).val, ((((cfg5.win 6).blk t).view.emb (ix2 p q)) 1).isLt⟩ : Fin 64))
    rw [hw2 j]
  · show V c main_v99 (((cfg5.win 5).blk t).view.emb (ix2 (0 : Fin 1) q)) = V c main_v99 (ix2 (0 : Fin 1) (⟨((((cfg5.win 6).blk t).view.emb (ix2 p q)) 1).val, ((((cfg5.win 6).blk t).view.emb (ix2 p q)) 1).isLt⟩ : Fin 64))
    rw [hb2]

/-- An index of the array is in point t's block iff each coordinate is in the block's range on its axis. -/
theorem mem_blk5 (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v100).slice (win5_6.rect t)).set ↔ _
  rw [View.set_slice_whole, Rect.mem_set_unit]
  exact Iff.rfl

/-- THE ARRAY after the region: the updated array of the arrays as the region finds them — row r lies in the block of
    point r / 5000. -/
theorem final5 (c : Dev nD) : (dat5 V c).arrAt 6 cfg5.N = nodeArr (V c main_v73) (V c main_v89) (V c main_v91) (V c main_v98) (V c main_v95) (V c main_v99) :=
  (dat5 V c).arrAt_eq_of_cover 6 _ (fun t _ => flushed5_eq V c t) fun i => by
    have hN : cfg5.N = 20 := N_5
    have hi0 : (i 0).val < 100000 := (i 0).isLt
    have hi1 : (i 1).val < 64 := (i 1).isLt
    let t : Fin cfg5.N := ⟨(i 0).val / 5000, by rw [hN]; omega⟩
    obtain ⟨e00, e01, e10, e11, e20, e21, e30, e31, e40, e41, e50, e51, e60, e61⟩ := idx_facts5 t
    have ht : t.val = (i 0).val / 5000 := rfl
    refine ⟨t, flush5_6 t, ?_⟩
    rw [mem_blk5]
    intro a
    match a with
    | ⟨0, _⟩ => show win5_6.index t (0 : Fin 2) * 5000 ≤ (i 0).val ∧ (i 0).val < win5_6.index t (0 : Fin 2) * 5000 + 5000; omega
    | ⟨1, _⟩ => show win5_6.index t (1 : Fin 2) * 64 ≤ (i 1).val ∧ (i 1).val < win5_6.index t (1 : Fin 2) * 64 + 64; omega

end Cert.KernelIdeal.Regions

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.EdgeBridge3.lean ====
/-
  Layer 3's edge message, read off the array program's own stages.  The message array built from the array program's
  gathered rows, its slice of the edge weight and its slice of the edge bias (laid out as one row) is the array program's
  own rectified sum: its product is the same sum of products, its two bias broadcasts read the same bias entry, and its
  rectifier compares with the same zero.
-/
import proofs.«155749_j23802708754725_1_alg».proof.Proof.EdgeEntry
import proofs.«155749_j23802708754725_1_alg».proof.Proof.LibBroadcast
import proofs.«155749_j23802708754725_1_alg».proof.Proof.Gen.ReferenceIdeal.Read

noncomputable section

namespace Cert.Bridge

open Cert.ReferenceIdeal Cert.ReferenceIdeal.Read Idealize.ShloMosaic Idealize.ShloMosaic.ValueIdx

theorem edge_bridge3 (x0 : (⟨S100000x64, .f32⟩ : BufTy).Contents (Elt Ideal)) (x1 : (⟨S2x1250000, .i32⟩ : BufTy).Contents (Elt Ideal)) (x2 : (⟨S1250000x32, .f32⟩ : BufTy).Contents (Elt Ideal)) (x3 : (⟨S3x32x64, .f32⟩ : BufTy).Contents (Elt Ideal)) (x4 : (⟨S3x64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) (x9 : (⟨S3, .f32⟩ : BufTy).Contents (Elt Ideal)) (h : S64.ShapeCasts S1x64) :
    Cert.KernelIdeal.Entries.edgeArr x2 (val_main_v122 (F := Ideal) x0 x1 x2 x3 x4 x5 x6 x7 x8 x9) (val_main_v101 (F := Ideal) x3) (shapeCast S1x64 (val_main_v103 (F := Ideal) x4) h)
      = val_main_v124 (F := Ideal) x0 x1 x2 x3 x4 x5 x6 x7 x8 x9 := by
  funext i
  rw [val_main_v124_apply, val_main_v123_apply, val_main_v115_apply, val_main_v112_apply, val_main_v114_apply, val_main_v113_apply,
    val_main_call4_v0_apply, val_main_call4_cst_apply]
  unfold Cert.KernelIdeal.Entries.edgeArr
  have hl : ∀ k : Fin 32, ix2 (⟨(i 0).val, (i 0).isLt⟩ : Fin 1250000) k = lidx_main_v112 i k :=
    fun k => funext fun a => by match a with | ⟨0, _⟩ => rfl | ⟨1, _⟩ => rfl
  have hr : ∀ k : Fin 32, ix2 k (⟨(i 1).val, (i 1).isLt⟩ : Fin 64) = ridx_main_v112 i k :=
    fun k => funext fun a => by match a with | ⟨0, _⟩ => rfl | ⟨1, _⟩ => rfl
  have hb : shapeCast S1x64 (val_main_v103 (F := Ideal) x4) h (ix2 (0 : Fin 1) (⟨(i 1).val, (i 1).isLt⟩ : Fin 64))
      = val_main_v103 (F := Ideal) x4 (idx_main_v113 (idx_main_v114 i)) := by
    refine (Cert.Layout.shapeCast_row_apply _ h _).trans (congrArg (val_main_v103 (F := Ideal) x4) ?_)
    funext a; match a with | ⟨0, _⟩ => rfl
  rw [hb]
  simp only [hl, hr, Ideal.maximumf_def, Ideal.addf_def, Ideal.ofBits_def, Ideal.ofBits_zero_f32]

end Cert.Bridge

end
-- ==== Proof.NodeBridge3.lean ====
/-
  Layer 3's node update, read off the array program's own stages.  The updated array built from the layer's input,
  the array program's summed messages, and its slices of the two weights and the two biases (each bias laid out as one
  row) is the array program's own second affine map of its rectified first one: each product is the same sum of products,
  each pair of bias broadcasts reads the same bias entry, and the rectifier compares with the same zero.
-/
import proofs.«155749_j23802708754725_1_alg».proof.Proof.NodeEntry
import proofs.«155749_j23802708754725_1_alg».proof.Proof.LibBroadcast
import proofs.«155749_j23802708754725_1_alg».proof.Proof.Gen.ReferenceIdeal.Read

noncomputable section

namespace Cert.Bridge

open Cert.ReferenceIdeal Cert.ReferenceIdeal.Read Idealize.ShloMosaic Idealize.ShloMosaic.ValueIdx

set_option maxHeartbeats 1000000 in
theorem node_bridge3 (x0 : (⟨S100000x64, .f32⟩ : BufTy).Contents (Elt Ideal)) (x1 : (⟨S2x1250000, .i32⟩ : BufTy).Contents (Elt Ideal)) (x2 : (⟨S1250000x32, .f32⟩ : BufTy).Contents (Elt Ideal)) (x3 : (⟨S3x32x64, .f32⟩ : BufTy).Contents (Elt Ideal)) (x4 : (⟨S3x64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) (x9 : (⟨S3, .f32⟩ : BufTy).Contents (Elt Ideal)) (xin : (⟨S100000x64, .f32⟩ : BufTy).Contents (Elt Ideal))
    (hin : val_main_v128 (F := Ideal) x0 x1 x2 x3 x4 x5 x6 x7 x8 x9 = addf (F := Ideal) (s := S100000x64) (φ := .f32) xin (val_main_v127 (F := Ideal) x0 x1 x2 x3 x4 x5 x6 x7 x8 x9)) (h : S64.ShapeCasts S1x64) :
    Cert.KernelIdeal.Entries.nodeArr xin (val_main_v127 (F := Ideal) x0 x1 x2 x3 x4 x5 x6 x7 x8 x9) (val_main_v105 (F := Ideal) x5) (shapeCast S1x64 (val_main_v107 (F := Ideal) x6) h)
        (val_main_v109 (F := Ideal) x7) (shapeCast S1x64 (val_main_v111 (F := Ideal) x8) h)
      = val_main_v137 (F := Ideal) x0 x1 x2 x3 x4 x5 x6 x7 x8 x9 := by
  funext i
  rw [val_main_v137_apply, val_main_v134_apply, val_main_v136_apply, val_main_v135_apply]
  simp only [val_main_v133_apply, val_main_v132_apply, val_main_v129_apply, val_main_v131_apply, val_main_v130_apply,
    val_main_call5_v0_apply, val_main_call5_cst_apply, hin]
  unfold Cert.KernelIdeal.Entries.nodeArr
  have hb1 : ∀ j : Fin 64, val_main_v107 (F := Ideal) x6 (idx_main_v130 (idx_main_v131 (lidx_main_v134 i j)))
      = shapeCast S1x64 (val_main_v107 (F := Ideal) x6) h (ix2 (0 : Fin 1) j) := by
    intro j
    refine ((Cert.Layout.shapeCast_row_apply _ h _).trans (congrArg (val_main_v107 (F := Ideal) x6) ?_)).symm
    funext a; match a with | ⟨0, _⟩ => rfl
  have hb2 : val_main_v111 (F := Ideal) x8 (idx_main_v135 (idx_main_v136 i))
      = shapeCast S1x64 (val_main_v111 (F := Ideal) x8) h (ix2 (0 : Fin 1) (⟨(i 1).val, (i 1).isLt⟩ : Fin 64)) := by
    refine ((Cert.Layout.shapeCast_row_apply _ h _).trans (congrArg (val_main_v111 (F := Ideal) x8) ?_)).symm
    funext a; match a with | ⟨0, _⟩ => rfl
  have hl2 : ∀ j : Fin 64, ridx_main_v134 i j = ix2 j (⟨(i 1).val, (i 1).isLt⟩ : Fin 64) :=
    fun j => funext fun a => by match a with | ⟨0, _⟩ => rfl | ⟨1, _⟩ => rfl
  have hl1 : ∀ j k : Fin 64, lidx_main_v129 (lidx_main_v134 i j) k = ix2 (⟨(i 0).val, (i 0).isLt⟩ : Fin 100000) k :=
    fun j k => funext fun a => by match a with | ⟨0, _⟩ => rfl | ⟨1, _⟩ => rfl
  have hr1 : ∀ j k : Fin 64, ridx_main_v129 (lidx_main_v134 i j) k = ix2 k j :=
    fun j k => funext fun a => by match a with | ⟨0, _⟩ => rfl | ⟨1, _⟩ => rfl
  simp only [hb1, hb2, hl2, hl1, hr1, Ideal.maximumf_def, Ideal.addf_def, Ideal.ofBits_def, Ideal.ofBits_zero_f32, addf]

end Cert.Bridge

end
-- ==== Proof.EdgeBlocks2.lean ====
/-
  Region 2's message array as one function of the arrays it is entered with.  Grid point t owns rows
  5000·t … 5000·t+4999; what it writes back is the edge message of exactly those rows of the features and of the gathered
  source rows, with the whole weight and bias; the 250 blocks tile the 1,250,000 rows. So after the region the array
  holds, at (r, q),  max(source(r,q) + (Σₖ features(r,k)·weight(k,q) + bias(0,q)), 0).
-/
import proofs.«155749_j23802708754725_1_alg».proof.Proof.KernelIdealEdge2
import proofs.«155749_j23802708754725_1_alg».proof.Proof.EdgeEntry

set_option maxRecDepth 16384

noncomputable section

namespace Cert.KernelIdeal.Regions

open Cert.KernelIdeal Cert.KernelIdeal.Gen Cert.KernelIdeal.Entries
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the two row-blocked inputs move with the output along the rows, nothing moves
    along the columns, the weight and the bias stay at block (0, 0), and the output's row block is the grid point. -/
theorem idx_facts2 : ∀ t : Fin cfg2.N, win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 1000000 in
/-- WHAT POINT t WRITES BACK is block t of the message array of the arrays as the region finds them. -/
theorem flushed2_eq (c : Dev nD) (t : Fin cfg2.N) :
    (dat2 V c).flushed 4 t = ((cfg2.win 4).blk t).view.read (Elt Ideal)
      (edgeArr (V c main_arg2) (V c main_v45) (V c main_v47) (V c main_v50)) := by
  show (cfg2.win 4).cut (grid2.coords t) ((dat2 V c).after 4 t) = _
  rw [after2_4]
  unfold out2_4
  rw [View.canon_unit_zero hz2]
  simp only [View.ld_unit_zero (S := S5000x32) hz2, View.ld_unit_zero (S := S5000x64) hz2, View.ld_unit_zero (S := S32x64) hz2, View.ld_unit_zero (S := S1x64) hz2]
  obtain ⟨e00, e01, e10, e11, e20, e21, e30, e31, e40, e41⟩ := idx_facts2 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have hsrc : ((cfg2.win 1).blk t).view.emb (ix2 p q) = (((cfg2.win 4).blk t).view.emb (ix2 p q)) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 64 + 1 * q.val = win2_4.index t (1 : Fin 2) * 64 + 1 * q.val; omega
  have hfeat : ∀ k : Fin 32, ((cfg2.win 0).blk t).view.emb (ix2 p k) = ix2 (⟨((((cfg2.win 4).blk t).view.emb (ix2 p q)) 0).val, ((((cfg2.win 4).blk t).view.emb (ix2 p q)) 0).isLt⟩ : Fin 1250000) k := by
    intro k; funext a; apply Fin.ext
    have hk : k.val < 32 := k.isLt
    match a with
    | ⟨0, _⟩ => show win2_0.index t (0 : Fin 2) * 5000 + 1 * p.val = win2_4.index t (0 : Fin 2) * 5000 + 1 * p.val; omega
    | ⟨1, _⟩ => show win2_0.index t (1 : Fin 2) * 32 + 1 * k.val = k.val; omega
  have hw : ∀ k : Fin 32, ((cfg2.win 2).blk t).view.emb (ix2 k q) = ix2 k (⟨((((cfg2.win 4).blk t).view.emb (ix2 p q)) 1).val, ((((cfg2.win 4).blk t).view.emb (ix2 p q)) 1).isLt⟩ : Fin 64) := by
    intro k; funext a; apply Fin.ext
    have hk : k.val < 32 := k.isLt
    match a with
    | ⟨0, _⟩ => show win2_2.index t (0 : Fin 2) * 32 + 1 * k.val = k.val; omega
    | ⟨1, _⟩ => show win2_2.index t (1 : Fin 2) * 64 + 1 * q.val = win2_4.index t (1 : Fin 2) * 64 + 1 * q.val; omega
  have hb : ((cfg2.win 3).blk t).view.emb (ix2 (0 : Fin 1) q) = ix2 (0 : Fin 1) (⟨((((cfg2.win 4).blk t).view.emb (ix2 p q)) 1).val, ((((cfg2.win 4).blk t).view.emb (ix2 p q)) 1).isLt⟩ : Fin 64) := by
    funext a; apply Fin.ext
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  show k2_pay1 (F := Ideal) (iblk2 V c 0 t) (iblk2 V c 2 t) (iblk2 V c 3 t) (iblk2 V c 1 t) (ix2 p q)
      = edgeArr (V c main_arg2) (V c main_v45) (V c main_v47) (V c main_v50) (((cfg2.win 4).blk t).view.emb (ix2 p q))
  rw [k2_pay1_eq]
  refine (k0_pay1_apply (iblk2 V c 0 t) (iblk2 V c 2 t) (iblk2 V c 3 t) (iblk2 V c 1 t) p q).trans ?_
  refine edge_block_eq (V c main_arg2) (V c main_v45) (V c main_v47) (V c main_v50) (iblk2 V c 0 t) (iblk2 V c 1 t) (iblk2 V c 2 t) (iblk2 V c 3 t)
    (((cfg2.win 4).blk t).view.emb (ix2 p q)) p q ?_ (fun k => ?_) (fun k => ?_) ?_
  · show V c main_v45 (((cfg2.win 1).blk t).view.emb (ix2 p q)) = V c main_v45 (((cfg2.win 4).blk t).view.emb (ix2 p q))
    rw [hsrc]
  · show V c main_arg2 (((cfg2.win 0).blk t).view.emb (ix2 p k)) = V c main_arg2 (ix2 (⟨((((cfg2.win 4).blk t).view.emb (ix2 p q)) 0).val, ((((cfg2.win 4).blk t).view.emb (ix2 p q)) 0).isLt⟩ : Fin 1250000) k)
    rw [hfeat k]
  · show V c main_v47 (((cfg2.win 2).blk t).view.emb (ix2 k q)) = V c main_v47 (ix2 k (⟨((((cfg2.win 4).blk t).view.emb (ix2 p q)) 1).val, ((((cfg2.win 4).blk t).view.emb (ix2 p q)) 1).isLt⟩ : Fin 64))
    rw [hw k]
  · show V c main_v50 (((cfg2.win 3).blk t).view.emb (ix2 (0 : Fin 1) q)) = V c main_v50 (ix2 (0 : Fin 1) (⟨((((cfg2.win 4).blk t).view.emb (ix2 p q)) 1).val, ((((cfg2.win 4).blk t).view.emb (ix2 p q)) 1).isLt⟩ : Fin 64))
    rw [hb]

/-- An index of the array is in point t's block iff each coordinate is in the block's range on its axis. -/
theorem mem_blk2 (t : Fin cfg2.N) (i : S1250000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v51).slice (win2_4.rect t)).set ↔ _
  rw [View.set_slice_whole, Rect.mem_set_unit]
  exact Iff.rfl

/-- THE ARRAY after the region: the message array of the arrays as the region finds them — row r lies in the block of
    point r / 5000. -/
theorem final2 (c : Dev nD) : (dat2 V c).arrAt 4 cfg2.N = edgeArr (V c main_arg2) (V c main_v45) (V c main_v47) (V c main_v50) :=
  (dat2 V c).arrAt_eq_of_cover 4 _ (fun t _ => flushed2_eq V c t) fun i => by
    have hN : cfg2.N = 250 := N_2
    have hi0 : (i 0).val < 1250000 := (i 0).isLt
    have hi1 : (i 1).val < 64 := (i 1).isLt
    let t : Fin cfg2.N := ⟨(i 0).val / 5000, by rw [hN]; omega⟩
    obtain ⟨e00, e01, e10, e11, e20, e21, e30, e31, e40, e41⟩ := idx_facts2 t
    have ht : t.val = (i 0).val / 5000 := rfl
    refine ⟨t, flush2_4 t, ?_⟩
    rw [mem_blk2]
    intro a
    match a with
    | ⟨0, _⟩ => show win2_4.index t (0 : Fin 2) * 5000 ≤ (i 0).val ∧ (i 0).val < win2_4.index t (0 : Fin 2) * 5000 + 5000; omega
    | ⟨1, _⟩ => show win2_4.index t (1 : Fin 2) * 64 ≤ (i 1).val ∧ (i 1).val < win2_4.index t (1 : Fin 2) * 64 + 64; omega

end Cert.KernelIdeal.Regions

end
-- ==== Proof.NodeBlocks3.lean ====
/-
  Region 3's updated array as one function of the arrays it is entered with.  Grid point t owns rows
  5000·t … 5000·t+4999; what it writes back is the node update of exactly those rows of the node features and of the
  aggregated messages, with the two whole weights and biases; the 20 blocks tile the 100,000 rows. So after the region the
  array holds, at (r, q),  Σⱼ max(Σₖ (x(r,k) + aggregate(r,k))·W₁(k,j) + b₁(0,j), 0)·W₂(j,q) + b₂(0,q).
-/
import proofs.«155749_j23802708754725_1_alg».proof.Proof.KernelIdealNode3
import proofs.«155749_j23802708754725_1_alg».proof.Proof.NodeEntry

set_option maxRecDepth 16384

noncomputable section

namespace Cert.KernelIdeal.Regions

open Cert.KernelIdeal Cert.KernelIdeal.Gen Cert.KernelIdeal.Entries
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the two row-blocked inputs move with the output along the rows, nothing moves
    along the columns, the weights and biases stay at block (0, 0), and the output's row block is the grid point. -/
theorem idx_facts3 : ∀ t : Fin cfg3.N, win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 1000000 in
/-- WHAT POINT t WRITES BACK is block t of the updated array of the arrays as the region finds them. -/
theorem flushed3_eq (c : Dev nD) (t : Fin cfg3.N) :
    (dat3 V c).flushed 6 t = ((cfg3.win 6).blk t).view.read (Elt Ideal) (nodeArr (V c main_v38) (V c main_v54) (V c main_v56) (V c main_v63) (V c main_v60) (V c main_v64)) := by
  show (cfg3.win 6).cut (grid3.coords t) ((dat3 V c).after 6 t) = _
  rw [after3_6]
  unfold out3_6
  rw [View.canon_unit_zero hz3]
  simp only [View.ld_unit_zero (S := S5000x64) hz3, View.ld_unit_zero (S := S64x64) hz3, View.ld_unit_zero (S := S1x64) hz3]
  obtain ⟨e00, e01, e10, e11, e20, e21, e30, e31, e40, e41, e50, e51, e60, e61⟩ := idx_facts3 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have hx : ∀ k : Fin 64, ((cfg3.win 0).blk t).view.emb (ix2 p k) = ix2 (⟨((((cfg3.win 6).blk t).view.emb (ix2 p q)) 0).val, ((((cfg3.win 6).blk t).view.emb (ix2 p q)) 0).isLt⟩ : Fin 100000) k := by
    intro k; funext a; apply Fin.ext
    have hk : k.val < 64 := k.isLt
    match a with
    | ⟨0, _⟩ => show win3_0.index t (0 : Fin 2) * 5000 + 1 * p.val = win3_6.index t (0 : Fin 2) * 5000 + 1 * p.val; omega
    | ⟨1, _⟩ => show win3_0.index t (1 : Fin 2) * 64 + 1 * k.val = k.val; omega
  have hag : ∀ k : Fin 64, ((cfg3.win 1).blk t).view.emb (ix2 p k) = ix2 (⟨((((cfg3.win 6).blk t).view.emb (ix2 p q)) 0).val, ((((cfg3.win 6).blk t).view.emb (ix2 p q)) 0).isLt⟩ : Fin 100000) k := by
    intro k; funext a; apply Fin.ext
    have hk : k.val < 64 := k.isLt
    match a with
    | ⟨0, _⟩ => show win3_1.index t (0 : Fin 2) * 5000 + 1 * p.val = win3_6.index t (0 : Fin 2) * 5000 + 1 * p.val; omega
    | ⟨1, _⟩ => show win3_1.index t (1 : Fin 2) * 64 + 1 * k.val = k.val; omega
  have hw1 : ∀ (k j : Fin 64), ((cfg3.win 2).blk t).view.emb (ix2 k j) = ix2 k j := by
    intro k j; funext a; apply Fin.ext
    match a with
    | ⟨0, _⟩ => show win3_2.index t (0 : Fin 2) * 64 + 1 * k.val = k.val; omega
    | ⟨1, _⟩ => show win3_2.index t (1 : Fin 2) * 64 + 1 * j.val = j.val; omega
  have hb1 : ∀ j : Fin 64, ((cfg3.win 3).blk t).view.emb (ix2 (0 : Fin 1) j) = ix2 (0 : Fin 1) j := by
    intro j; funext a; apply Fin.ext
    match a with
    | ⟨0, _⟩ => show win3_3.index t (0 : Fin 2) * 1 + 1 * 0 = 0; omega
    | ⟨1, _⟩ => show win3_3.index t (1 : Fin 2) * 64 + 1 * j.val = j.val; omega
  have hw2 : ∀ j : Fin 64, ((cfg3.win 4).blk t).view.emb (ix2 j q) = ix2 j (⟨((((cfg3.win 6).blk t).view.emb (ix2 p q)) 1).val, ((((cfg3.win 6).blk t).view.emb (ix2 p q)) 1).isLt⟩ : Fin 64) := by
    intro j; funext a; apply Fin.ext
    match a with
    | ⟨0, _⟩ => show win3_4.index t (0 : Fin 2) * 64 + 1 * j.val = j.val; omega
    | ⟨1, _⟩ => show win3_4.index t (1 : Fin 2) * 64 + 1 * q.val = win3_6.index t (1 : Fin 2) * 64 + 1 * q.val; omega
  have hb2 : ((cfg3.win 5).blk t).view.emb (ix2 (0 : Fin 1) q) = ix2 (0 : Fin 1) (⟨((((cfg3.win 6).blk t).view.emb (ix2 p q)) 1).val, ((((cfg3.win 6).blk t).view.emb (ix2 p q)) 1).isLt⟩ : Fin 64) := by
    funext a; apply Fin.ext
    match a with
    | ⟨0, _⟩ => show win3_5.index t (0 : Fin 2) * 1 + 1 * 0 = 0; omega
    | ⟨1, _⟩ => show win3_5.index t (1 : Fin 2) * 64 + 1 * q.val = win3_6.index t (1 : Fin 2) * 64 + 1 * q.val; omega
  show k3_pay1 (F := Ideal) (iblk3 V c 0 t) (iblk3 V c 1 t) (iblk3 V c 2 t) (iblk3 V c 3 t) (iblk3 V c 4 t) (iblk3 V c 5 t) (ix2 p q) = nodeArr (V c main_v38) (V c main_v54) (V c main_v56) (V c main_v63) (V c main_v60) (V c main_v64) (((cfg3.win 6).blk t).view.emb (ix2 p q))
  refine (congrFun (k3_pay1_eq (iblk3 V c 0 t) (iblk3 V c 1 t) (iblk3 V c 2 t) (iblk3 V c 3 t) (iblk3 V c 4 t) (iblk3 V c 5 t)) (ix2 p q)).trans ?_
  refine (k1_pay1_apply (iblk3 V c 0 t) (iblk3 V c 1 t) (iblk3 V c 2 t) (iblk3 V c 3 t) (iblk3 V c 4 t) (iblk3 V c 5 t) p q).trans ?_
  refine node_block_eq (V c main_v38) (V c main_v54) (V c main_v56) (V c main_v63) (V c main_v60) (V c main_v64) (iblk3 V c 0 t) (iblk3 V c 1 t) (iblk3 V c 2 t) (iblk3 V c 3 t) (iblk3 V c 4 t) (iblk3 V c 5 t) (((cfg3.win 6).blk t).view.emb (ix2 p q)) p q (fun k => ?_) (fun k => ?_) (fun k j => ?_) (fun j => ?_) (fun j => ?_) ?_
  · show V c main_v38 (((cfg3.win 0).blk t).view.emb (ix2 p k)) = V c main_v38 (ix2 (⟨((((cfg3.win 6).blk t).view.emb (ix2 p q)) 0).val, ((((cfg3.win 6).blk t).view.emb (ix2 p q)) 0).isLt⟩ : Fin 100000) k)
    rw [hx k]
  · show V c main_v54 (((cfg3.win 1).blk t).view.emb (ix2 p k)) = V c main_v54 (ix2 (⟨((((cfg3.win 6).blk t).view.emb (ix2 p q)) 0).val, ((((cfg3.win 6).blk t).view.emb (ix2 p q)) 0).isLt⟩ : Fin 100000) k)
    rw [hag k]
  · show V c main_v56 (((cfg3.win 2).blk t).view.emb (ix2 k j)) = V c main_v56 (ix2 k j)
    rw [hw1 k j]
  · show V c main_v63 (((cfg3.win 3).blk t).view.emb (ix2 (0 : Fin 1) j)) = V c main_v63 (ix2 (0 : Fin 1) j)
    rw [hb1 j]
  · show V c main_v60 (((cfg3.win 4).blk t).view.emb (ix2 j q)) = V c main_v60 (ix2 j (⟨((((cfg3.win 6).blk t).view.emb (ix2 p q)) 1).val, ((((cfg3.win 6).blk t).view.emb (ix2 p q)) 1).isLt⟩ : Fin 64))
    rw [hw2 j]
  · show V c main_v64 (((cfg3.win 5).blk t).view.emb (ix2 (0 : Fin 1) q)) = V c main_v64 (ix2 (0 : Fin 1) (⟨((((cfg3.win 6).blk t).view.emb (ix2 p q)) 1).val, ((((cfg3.win 6).blk t).view.emb (ix2 p q)) 1).isLt⟩ : Fin 64))
    rw [hb2]

/-- An index of the array is in point t's block iff each coordinate is in the block's range on its axis. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v65).slice (win3_6.rect t)).set ↔ _
  rw [View.set_slice_whole, Rect.mem_set_unit]
  exact Iff.rfl

/-- THE ARRAY after the region: the updated array of the arrays as the region finds them — row r lies in the block of
    point r / 5000. -/
theorem final3 (c : Dev nD) : (dat3 V c).arrAt 6 cfg3.N = nodeArr (V c main_v38) (V c main_v54) (V c main_v56) (V c main_v63) (V c main_v60) (V c main_v64) :=
  (dat3 V c).arrAt_eq_of_cover 6 _ (fun t _ => flushed3_eq V c t) fun i => by
    have hN : cfg3.N = 20 := N_3
    have hi0 : (i 0).val < 100000 := (i 0).isLt
    have hi1 : (i 1).val < 64 := (i 1).isLt
    let t : Fin cfg3.N := ⟨(i 0).val / 5000, by rw [hN]; omega⟩
    obtain ⟨e00, e01, e10, e11, e20, e21, e30, e31, e40, e41, e50, e51, e60, e61⟩ := idx_facts3 t
    have ht : t.val = (i 0).val / 5000 := rfl
    refine ⟨t, flush3_6 t, ?_⟩
    rw [mem_blk3]
    intro a
    match a with
    | ⟨0, _⟩ => show win3_6.index t (0 : Fin 2) * 5000 ≤ (i 0).val ∧ (i 0).val < win3_6.index t (0 : Fin 2) * 5000 + 5000; omega
    | ⟨1, _⟩ => show win3_6.index t (1 : Fin 2) * 64 ≤ (i 1).val ∧ (i 1).val < win3_6.index t (1 : Fin 2) * 64 + 64; omega

end Cert.KernelIdeal.Regions

end
-- ==== Proof.EdgeBridge2.lean ====
/-
  Layer 2's edge message, read off the array program's own stages.  The message array built from the array program's
  gathered rows, its slice of the edge weight and its slice of the edge bias (laid out as one row) is the array program's
  own rectified sum: its product is the same sum of products, its two bias broadcasts read the same bias entry, and its
  rectifier compares with the same zero.
-/
import proofs.«155749_j23802708754725_1_alg».proof.Proof.EdgeEntry
import proofs.«155749_j23802708754725_1_alg».proof.Proof.LibBroadcast
import proofs.«155749_j23802708754725_1_alg».proof.Proof.Gen.ReferenceIdeal.Read

noncomputable section

namespace Cert.Bridge

open Cert.ReferenceIdeal Cert.ReferenceIdeal.Read Idealize.ShloMosaic Idealize.ShloMosaic.ValueIdx

theorem edge_bridge2 (x0 : (⟨S100000x64, .f32⟩ : BufTy).Contents (Elt Ideal)) (x1 : (⟨S2x1250000, .i32⟩ : BufTy).Contents (Elt Ideal)) (x2 : (⟨S1250000x32, .f32⟩ : BufTy).Contents (Elt Ideal)) (x3 : (⟨S3x32x64, .f32⟩ : BufTy).Contents (Elt Ideal)) (x4 : (⟨S3x64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) (x9 : (⟨S3, .f32⟩ : BufTy).Contents (Elt Ideal)) (h : S64.ShapeCasts S1x64) :
    Cert.KernelIdeal.Entries.edgeArr x2 (val_main_v74 (F := Ideal) x0 x1 x2 x3 x4 x5 x6 x7 x8 x9) (val_main_v53 (F := Ideal) x3) (shapeCast S1x64 (val_main_v55 (F := Ideal) x4) h)
      = val_main_v76 (F := Ideal) x0 x1 x2 x3 x4 x5 x6 x7 x8 x9 := by
  funext i
  rw [val_main_v76_apply, val_main_v75_apply, val_main_v67_apply, val_main_v64_apply, val_main_v66_apply, val_main_v65_apply,
    val_main_call2_v0_apply, val_main_call2_cst_apply]
  unfold Cert.KernelIdeal.Entries.edgeArr
  have hl : ∀ k : Fin 32, ix2 (⟨(i 0).val, (i 0).isLt⟩ : Fin 1250000) k = lidx_main_v64 i k :=
    fun k => funext fun a => by match a with | ⟨0, _⟩ => rfl | ⟨1, _⟩ => rfl
  have hr : ∀ k : Fin 32, ix2 k (⟨(i 1).val, (i 1).isLt⟩ : Fin 64) = ridx_main_v64 i k :=
    fun k => funext fun a => by match a with | ⟨0, _⟩ => rfl | ⟨1, _⟩ => rfl
  have hb : shapeCast S1x64 (val_main_v55 (F := Ideal) x4) h (ix2 (0 : Fin 1) (⟨(i 1).val, (i 1).isLt⟩ : Fin 64))
      = val_main_v55 (F := Ideal) x4 (idx_main_v65 (idx_main_v66 i)) := by
    refine (Cert.Layout.shapeCast_row_apply _ h _).trans (congrArg (val_main_v55 (F := Ideal) x4) ?_)
    funext a; match a with | ⟨0, _⟩ => rfl
  rw [hb]
  simp only [hl, hr, Ideal.maximumf_def, Ideal.addf_def, Ideal.ofBits_def, Ideal.ofBits_zero_f32]

end Cert.Bridge

end
-- ==== Proof.NodeBridge2.lean ====
/-
  Layer 2's node update, read off the array program's own stages.  The updated array built from the layer's input,
  the array program's summed messages, and its slices of the two weights and the two biases (each bias laid out as one
  row) is the array program's own second affine map of its rectified first one: each product is the same sum of products,
  each pair of bias broadcasts reads the same bias entry, and the rectifier compares with the same zero.
-/
import proofs.«155749_j23802708754725_1_alg».proof.Proof.NodeEntry
import proofs.«155749_j23802708754725_1_alg».proof.Proof.LibBroadcast
import proofs.«155749_j23802708754725_1_alg».proof.Proof.Gen.ReferenceIdeal.Read

noncomputable section

namespace Cert.Bridge

open Cert.ReferenceIdeal Cert.ReferenceIdeal.Read Idealize.ShloMosaic Idealize.ShloMosaic.ValueIdx

set_option maxHeartbeats 1000000 in
theorem node_bridge2 (x0 : (⟨S100000x64, .f32⟩ : BufTy).Contents (Elt Ideal)) (x1 : (⟨S2x1250000, .i32⟩ : BufTy).Contents (Elt Ideal)) (x2 : (⟨S1250000x32, .f32⟩ : BufTy).Contents (Elt Ideal)) (x3 : (⟨S3x32x64, .f32⟩ : BufTy).Contents (Elt Ideal)) (x4 : (⟨S3x64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) (x9 : (⟨S3, .f32⟩ : BufTy).Contents (Elt Ideal)) (xin : (⟨S100000x64, .f32⟩ : BufTy).Contents (Elt Ideal))
    (hin : val_main_v80 (F := Ideal) x0 x1 x2 x3 x4 x5 x6 x7 x8 x9 = addf (F := Ideal) (s := S100000x64) (φ := .f32) xin (val_main_v79 (F := Ideal) x0 x1 x2 x3 x4 x5 x6 x7 x8 x9)) (h : S64.ShapeCasts S1x64) :
    Cert.KernelIdeal.Entries.nodeArr xin (val_main_v79 (F := Ideal) x0 x1 x2 x3 x4 x5 x6 x7 x8 x9) (val_main_v57 (F := Ideal) x5) (shapeCast S1x64 (val_main_v59 (F := Ideal) x6) h)
        (val_main_v61 (F := Ideal) x7) (shapeCast S1x64 (val_main_v63 (F := Ideal) x8) h)
      = val_main_v89 (F := Ideal) x0 x1 x2 x3 x4 x5 x6 x7 x8 x9 := by
  funext i
  rw [val_main_v89_apply, val_main_v86_apply, val_main_v88_apply, val_main_v87_apply]
  simp only [val_main_v85_apply, val_main_v84_apply, val_main_v81_apply, val_main_v83_apply, val_main_v82_apply,
    val_main_call3_v0_apply, val_main_call3_cst_apply, hin]
  unfold Cert.KernelIdeal.Entries.nodeArr
  have hb1 : ∀ j : Fin 64, val_main_v59 (F := Ideal) x6 (idx_main_v82 (idx_main_v83 (lidx_main_v86 i j)))
      = shapeCast S1x64 (val_main_v59 (F := Ideal) x6) h (ix2 (0 : Fin 1) j) := by
    intro j
    refine ((Cert.Layout.shapeCast_row_apply _ h _).trans (congrArg (val_main_v59 (F := Ideal) x6) ?_)).symm
    funext a; match a with | ⟨0, _⟩ => rfl
  have hb2 : val_main_v63 (F := Ideal) x8 (idx_main_v87 (idx_main_v88 i))
      = shapeCast S1x64 (val_main_v63 (F := Ideal) x8) h (ix2 (0 : Fin 1) (⟨(i 1).val, (i 1).isLt⟩ : Fin 64)) := by
    refine ((Cert.Layout.shapeCast_row_apply _ h _).trans (congrArg (val_main_v63 (F := Ideal) x8) ?_)).symm
    funext a; match a with | ⟨0, _⟩ => rfl
  have hl2 : ∀ j : Fin 64, ridx_main_v86 i j = ix2 j (⟨(i 1).val, (i 1).isLt⟩ : Fin 64) :=
    fun j => funext fun a => by match a with | ⟨0, _⟩ => rfl | ⟨1, _⟩ => rfl
  have hl1 : ∀ j k : Fin 64, lidx_main_v81 (lidx_main_v86 i j) k = ix2 (⟨(i 0).val, (i 0).isLt⟩ : Fin 100000) k :=
    fun j k => funext fun a => by match a with | ⟨0, _⟩ => rfl | ⟨1, _⟩ => rfl
  have hr1 : ∀ j k : Fin 64, ridx_main_v81 (lidx_main_v86 i j) k = ix2 k j :=
    fun j k => funext fun a => by match a with | ⟨0, _⟩ => rfl | ⟨1, _⟩ => rfl
  simp only [hb1, hb2, hl2, hl1, hr1, Ideal.maximumf_def, Ideal.addf_def, Ideal.ofBits_def, Ideal.ofBits_zero_f32, addf]

end Cert.Bridge

end
-- ==== Proof.EdgeBlocks0.lean ====
/-
  Region 0's message array as one function of the arrays it is entered with.  Grid point t owns rows
  5000·t … 5000·t+4999; what it writes back is the edge message of exactly those rows of the features and of the gathered
  source rows, with the whole weight and bias; the 250 blocks tile the 1,250,000 rows. So after the region the array
  holds, at (r, q),  max(source(r,q) + (Σₖ features(r,k)·weight(k,q) + bias(0,q)), 0).
-/
import proofs.«155749_j23802708754725_1_alg».proof.Proof.KernelIdealEdge0
import proofs.«155749_j23802708754725_1_alg».proof.Proof.EdgeEntry

set_option maxRecDepth 16384

noncomputable section

namespace Cert.KernelIdeal.Regions

open Cert.KernelIdeal Cert.KernelIdeal.Gen Cert.KernelIdeal.Entries
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the two row-blocked inputs move with the output along the rows, nothing moves
    along the columns, the weight and the bias stay at block (0, 0), and the output's row block is the grid point. -/
theorem idx_facts0 : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

set_option maxHeartbeats 1000000 in
/-- WHAT POINT t WRITES BACK is block t of the message array of the arrays as the region finds them. -/
theorem flushed0_eq (c : Dev nD) (t : Fin cfg0.N) :
    (dat0 V c).flushed 4 t = ((cfg0.win 4).blk t).view.read (Elt Ideal)
      (edgeArr (V c main_arg2) (V c main_v10) (V c main_v12) (V c main_v15)) := by
  show (cfg0.win 4).cut (grid0.coords t) ((dat0 V c).after 4 t) = _
  rw [after0_4]
  unfold out0_4
  rw [View.canon_unit_zero hz0]
  simp only [View.ld_unit_zero (S := S5000x32) hz0, View.ld_unit_zero (S := S5000x64) hz0, View.ld_unit_zero (S := S32x64) hz0, View.ld_unit_zero (S := S1x64) hz0]
  obtain ⟨e00, e01, e10, e11, e20, e21, e30, e31, e40, e41⟩ := idx_facts0 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have hsrc : ((cfg0.win 1).blk t).view.emb (ix2 p q) = (((cfg0.win 4).blk t).view.emb (ix2 p q)) := by
    funext a; apply Fin.ext
    match a with
    | ⟨0, _⟩ => show win0_1.index t (0 : Fin 2) * 5000 + 1 * p.val = win0_4.index t (0 : Fin 2) * 5000 + 1 * p.val; omega
    | ⟨1, _⟩ => show win0_1.index t (1 : Fin 2) * 64 + 1 * q.val = win0_4.index t (1 : Fin 2) * 64 + 1 * q.val; omega
  have hfeat : ∀ k : Fin 32, ((cfg0.win 0).blk t).view.emb (ix2 p k) = ix2 (⟨((((cfg0.win 4).blk t).view.emb (ix2 p q)) 0).val, ((((cfg0.win 4).blk t).view.emb (ix2 p q)) 0).isLt⟩ : Fin 1250000) k := by
    intro k; funext a; apply Fin.ext
    have hk : k.val < 32 := k.isLt
    match a with
    | ⟨0, _⟩ => show win0_0.index t (0 : Fin 2) * 5000 + 1 * p.val = win0_4.index t (0 : Fin 2) * 5000 + 1 * p.val; omega
    | ⟨1, _⟩ => show win0_0.index t (1 : Fin 2) * 32 + 1 * k.val = k.val; omega
  have hw : ∀ k : Fin 32, ((cfg0.win 2).blk t).view.emb (ix2 k q) = ix2 k (⟨((((cfg0.win 4).blk t).view.emb (ix2 p q)) 1).val, ((((cfg0.win 4).blk t).view.emb (ix2 p q)) 1).isLt⟩ : Fin 64) := by
    intro k; funext a; apply Fin.ext
    have hk : k.val < 32 := k.isLt
    match a with
    | ⟨0, _⟩ => show win0_2.index t (0 : Fin 2) * 32 + 1 * k.val = k.val; omega
    | ⟨1, _⟩ => show win0_2.index t (1 : Fin 2) * 64 + 1 * q.val = win0_4.index t (1 : Fin 2) * 64 + 1 * q.val; omega
  have hb : ((cfg0.win 3).blk t).view.emb (ix2 (0 : Fin 1) q) = ix2 (0 : Fin 1) (⟨((((cfg0.win 4).blk t).view.emb (ix2 p q)) 1).val, ((((cfg0.win 4).blk t).view.emb (ix2 p q)) 1).isLt⟩ : Fin 64) := by
    funext a; apply Fin.ext
    match a with
    | ⟨0, _⟩ => show win0_3.index t (0 : Fin 2) * 1 + 1 * 0 = 0; omega
    | ⟨1, _⟩ => show win0_3.index t (1 : Fin 2) * 64 + 1 * q.val = win0_4.index t (1 : Fin 2) * 64 + 1 * q.val; omega
  show k0_pay1 (F := Ideal) (iblk0 V c 0 t) (iblk0 V c 2 t) (iblk0 V c 3 t) (iblk0 V c 1 t) (ix2 p q)
      = edgeArr (V c main_arg2) (V c main_v10) (V c main_v12) (V c main_v15) (((cfg0.win 4).blk t).view.emb (ix2 p q))
  refine (k0_pay1_apply (iblk0 V c 0 t) (iblk0 V c 2 t) (iblk0 V c 3 t) (iblk0 V c 1 t) p q).trans ?_
  refine edge_block_eq (V c main_arg2) (V c main_v10) (V c main_v12) (V c main_v15) (iblk0 V c 0 t) (iblk0 V c 1 t) (iblk0 V c 2 t) (iblk0 V c 3 t)
    (((cfg0.win 4).blk t).view.emb (ix2 p q)) p q ?_ (fun k => ?_) (fun k => ?_) ?_
  · show V c main_v10 (((cfg0.win 1).blk t).view.emb (ix2 p q)) = V c main_v10 (((cfg0.win 4).blk t).view.emb (ix2 p q))
    rw [hsrc]
  · show V c main_arg2 (((cfg0.win 0).blk t).view.emb (ix2 p k)) = V c main_arg2 (ix2 (⟨((((cfg0.win 4).blk t).view.emb (ix2 p q)) 0).val, ((((cfg0.win 4).blk t).view.emb (ix2 p q)) 0).isLt⟩ : Fin 1250000) k)
    rw [hfeat k]
  · show V c main_v12 (((cfg0.win 2).blk t).view.emb (ix2 k q)) = V c main_v12 (ix2 k (⟨((((cfg0.win 4).blk t).view.emb (ix2 p q)) 1).val, ((((cfg0.win 4).blk t).view.emb (ix2 p q)) 1).isLt⟩ : Fin 64))
    rw [hw k]
  · show V c main_v15 (((cfg0.win 3).blk t).view.emb (ix2 (0 : Fin 1) q)) = V c main_v15 (ix2 (0 : Fin 1) (⟨((((cfg0.win 4).blk t).view.emb (ix2 p q)) 1).val, ((((cfg0.win 4).blk t).view.emb (ix2 p q)) 1).isLt⟩ : Fin 64))
    rw [hb]

/-- An index of the array is in point t's block iff each coordinate is in the block's range on its axis. -/
theorem mem_blk0 (t : Fin cfg0.N) (i : S1250000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v16).slice (win0_4.rect t)).set ↔ _
  rw [View.set_slice_whole, Rect.mem_set_unit]
  exact Iff.rfl

/-- THE ARRAY after the region: the message array of the arrays as the region finds them — row r lies in the block of
    point r / 5000. -/
theorem final0 (c : Dev nD) : (dat0 V c).arrAt 4 cfg0.N = edgeArr (V c main_arg2) (V c main_v10) (V c main_v12) (V c main_v15) :=
  (dat0 V c).arrAt_eq_of_cover 4 _ (fun t _ => flushed0_eq V c t) fun i => by
    have hN : cfg0.N = 250 := N_0
    have hi0 : (i 0).val < 1250000 := (i 0).isLt
    have hi1 : (i 1).val < 64 := (i 1).isLt
    let t : Fin cfg0.N := ⟨(i 0).val / 5000, by rw [hN]; omega⟩
    obtain ⟨e00, e01, e10, e11, e20, e21, e30, e31, e40, e41⟩ := idx_facts0 t
    have ht : t.val = (i 0).val / 5000 := rfl
    refine ⟨t, flush0_4 t, ?_⟩
    rw [mem_blk0]
    intro a
    match a with
    | ⟨0, _⟩ => show win0_4.index t (0 : Fin 2) * 5000 ≤ (i 0).val ∧ (i 0).val < win0_4.index t (0 : Fin 2) * 5000 + 5000; omega
    | ⟨1, _⟩ => show win0_4.index t (1 : Fin 2) * 64 ≤ (i 1).val ∧ (i 1).val < win0_4.index t (1 : Fin 2) * 64 + 64; omega

end Cert.KernelIdeal.Regions

end
-- ==== Proof.NodeBlocks1.lean ====
/-
  Region 1's updated array as one function of the arrays it is entered with.  Grid point t owns rows
  5000·t … 5000·t+4999; what it writes back is the node update of exactly those rows of the node features and of the
  aggregated messages, with the two whole weights and biases; the 20 blocks tile the 100,000 rows. So after the region the
  array holds, at (r, q),  Σⱼ max(Σₖ (x(r,k) + aggregate(r,k))·W₁(k,j) + b₁(0,j), 0)·W₂(j,q) + b₂(0,q).
-/
import proofs.«155749_j23802708754725_1_alg».proof.Proof.KernelIdealNode1
import proofs.«155749_j23802708754725_1_alg».proof.Proof.NodeEntry

set_option maxRecDepth 16384

noncomputable section

namespace Cert.KernelIdeal.Regions

open Cert.KernelIdeal Cert.KernelIdeal.Gen Cert.KernelIdeal.Entries
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the two row-blocked inputs move with the output along the rows, nothing moves
    along the columns, the weights and biases stay at block (0, 0), and the output's row block is the grid point. -/
theorem idx_facts1 : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 1000000 in
/-- WHAT POINT t WRITES BACK is block t of the updated array of the arrays as the region finds them. -/
theorem flushed1_eq (c : Dev nD) (t : Fin cfg1.N) :
    (dat1 V c).flushed 6 t = ((cfg1.win 6).blk t).view.read (Elt Ideal) (nodeArr (V c main_arg0) (V c main_v19) (V c main_v21) (V c main_v28) (V c main_v25) (V c main_v29)) := by
  show (cfg1.win 6).cut (grid1.coords t) ((dat1 V c).after 6 t) = _
  rw [after1_6]
  unfold out1_6
  rw [View.canon_unit_zero hz1]
  simp only [View.ld_unit_zero (S := S5000x64) hz1, View.ld_unit_zero (S := S64x64) hz1, View.ld_unit_zero (S := S1x64) hz1]
  obtain ⟨e00, e01, e10, e11, e20, e21, e30, e31, e40, e41, e50, e51, e60, e61⟩ := idx_facts1 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have hx : ∀ k : Fin 64, ((cfg1.win 0).blk t).view.emb (ix2 p k) = ix2 (⟨((((cfg1.win 6).blk t).view.emb (ix2 p q)) 0).val, ((((cfg1.win 6).blk t).view.emb (ix2 p q)) 0).isLt⟩ : Fin 100000) k := by
    intro k; funext a; apply Fin.ext
    have hk : k.val < 64 := k.isLt
    match a with
    | ⟨0, _⟩ => show win1_0.index t (0 : Fin 2) * 5000 + 1 * p.val = win1_6.index t (0 : Fin 2) * 5000 + 1 * p.val; omega
    | ⟨1, _⟩ => show win1_0.index t (1 : Fin 2) * 64 + 1 * k.val = k.val; omega
  have hag : ∀ k : Fin 64, ((cfg1.win 1).blk t).view.emb (ix2 p k) = ix2 (⟨((((cfg1.win 6).blk t).view.emb (ix2 p q)) 0).val, ((((cfg1.win 6).blk t).view.emb (ix2 p q)) 0).isLt⟩ : Fin 100000) k := by
    intro k; funext a; apply Fin.ext
    have hk : k.val < 64 := k.isLt
    match a with
    | ⟨0, _⟩ => show win1_1.index t (0 : Fin 2) * 5000 + 1 * p.val = win1_6.index t (0 : Fin 2) * 5000 + 1 * p.val; omega
    | ⟨1, _⟩ => show win1_1.index t (1 : Fin 2) * 64 + 1 * k.val = k.val; omega
  have hw1 : ∀ (k j : Fin 64), ((cfg1.win 2).blk t).view.emb (ix2 k j) = ix2 k j := by
    intro k j; funext a; apply Fin.ext
    match a with
    | ⟨0, _⟩ => show win1_2.index t (0 : Fin 2) * 64 + 1 * k.val = k.val; omega
    | ⟨1, _⟩ => show win1_2.index t (1 : Fin 2) * 64 + 1 * j.val = j.val; omega
  have hb1 : ∀ j : Fin 64, ((cfg1.win 3).blk t).view.emb (ix2 (0 : Fin 1) j) = ix2 (0 : Fin 1) j := by
    intro j; funext a; apply Fin.ext
    match a with
    | ⟨0, _⟩ => show win1_3.index t (0 : Fin 2) * 1 + 1 * 0 = 0; omega
    | ⟨1, _⟩ => show win1_3.index t (1 : Fin 2) * 64 + 1 * j.val = j.val; omega
  have hw2 : ∀ j : Fin 64, ((cfg1.win 4).blk t).view.emb (ix2 j q) = ix2 j (⟨((((cfg1.win 6).blk t).view.emb (ix2 p q)) 1).val, ((((cfg1.win 6).blk t).view.emb (ix2 p q)) 1).isLt⟩ : Fin 64) := by
    intro j; funext a; apply Fin.ext
    match a with
    | ⟨0, _⟩ => show win1_4.index t (0 : Fin 2) * 64 + 1 * j.val = j.val; omega
    | ⟨1, _⟩ => show win1_4.index t (1 : Fin 2) * 64 + 1 * q.val = win1_6.index t (1 : Fin 2) * 64 + 1 * q.val; omega
  have hb2 : ((cfg1.win 5).blk t).view.emb (ix2 (0 : Fin 1) q) = ix2 (0 : Fin 1) (⟨((((cfg1.win 6).blk t).view.emb (ix2 p q)) 1).val, ((((cfg1.win 6).blk t).view.emb (ix2 p q)) 1).isLt⟩ : Fin 64) := by
    funext a; apply Fin.ext
    match a with
    | ⟨0, _⟩ => show win1_5.index t (0 : Fin 2) * 1 + 1 * 0 = 0; omega
    | ⟨1, _⟩ => show win1_5.index t (1 : Fin 2) * 64 + 1 * q.val = win1_6.index t (1 : Fin 2) * 64 + 1 * q.val; omega
  show k1_pay1 (F := Ideal) (iblk1 V c 0 t) (iblk1 V c 1 t) (iblk1 V c 2 t) (iblk1 V c 3 t) (iblk1 V c 4 t) (iblk1 V c 5 t) (ix2 p q) = nodeArr (V c main_arg0) (V c main_v19) (V c main_v21) (V c main_v28) (V c main_v25) (V c main_v29) (((cfg1.win 6).blk t).view.emb (ix2 p q))
  refine (k1_pay1_apply (iblk1 V c 0 t) (iblk1 V c 1 t) (iblk1 V c 2 t) (iblk1 V c 3 t) (iblk1 V c 4 t) (iblk1 V c 5 t) p q).trans ?_
  refine node_block_eq (V c main_arg0) (V c main_v19) (V c main_v21) (V c main_v28) (V c main_v25) (V c main_v29) (iblk1 V c 0 t) (iblk1 V c 1 t) (iblk1 V c 2 t) (iblk1 V c 3 t) (iblk1 V c 4 t) (iblk1 V c 5 t) (((cfg1.win 6).blk t).view.emb (ix2 p q)) p q (fun k => ?_) (fun k => ?_) (fun k j => ?_) (fun j => ?_) (fun j => ?_) ?_
  · show V c main_arg0 (((cfg1.win 0).blk t).view.emb (ix2 p k)) = V c main_arg0 (ix2 (⟨((((cfg1.win 6).blk t).view.emb (ix2 p q)) 0).val, ((((cfg1.win 6).blk t).view.emb (ix2 p q)) 0).isLt⟩ : Fin 100000) k)
    rw [hx k]
  · show V c main_v19 (((cfg1.win 1).blk t).view.emb (ix2 p k)) = V c main_v19 (ix2 (⟨((((cfg1.win 6).blk t).view.emb (ix2 p q)) 0).val, ((((cfg1.win 6).blk t).view.emb (ix2 p q)) 0).isLt⟩ : Fin 100000) k)
    rw [hag k]
  · show V c main_v21 (((cfg1.win 2).blk t).view.emb (ix2 k j)) = V c main_v21 (ix2 k j)
    rw [hw1 k j]
  · show V c main_v28 (((cfg1.win 3).blk t).view.emb (ix2 (0 : Fin 1) j)) = V c main_v28 (ix2 (0 : Fin 1) j)
    rw [hb1 j]
  · show V c main_v25 (((cfg1.win 4).blk t).view.emb (ix2 j q)) = V c main_v25 (ix2 j (⟨((((cfg1.win 6).blk t).view.emb (ix2 p q)) 1).val, ((((cfg1.win 6).blk t).view.emb (ix2 p q)) 1).isLt⟩ : Fin 64))
    rw [hw2 j]
  · show V c main_v29 (((cfg1.win 5).blk t).view.emb (ix2 (0 : Fin 1) q)) = V c main_v29 (ix2 (0 : Fin 1) (⟨((((cfg1.win 6).blk t).view.emb (ix2 p q)) 1).val, ((((cfg1.win 6).blk t).view.emb (ix2 p q)) 1).isLt⟩ : Fin 64))
    rw [hb2]

/-- An index of the array is in point t's block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v30).slice (win1_6.rect t)).set ↔ _
  rw [View.set_slice_whole, Rect.mem_set_unit]
  exact Iff.rfl

/-- THE ARRAY after the region: the updated array of the arrays as the region finds them — row r lies in the block of
    point r / 5000. -/
theorem final1 (c : Dev nD) : (dat1 V c).arrAt 6 cfg1.N = nodeArr (V c main_arg0) (V c main_v19) (V c main_v21) (V c main_v28) (V c main_v25) (V c main_v29) :=
  (dat1 V c).arrAt_eq_of_cover 6 _ (fun t _ => flushed1_eq V c t) fun i => by
    have hN : cfg1.N = 20 := N_1
    have hi0 : (i 0).val < 100000 := (i 0).isLt
    have hi1 : (i 1).val < 64 := (i 1).isLt
    let t : Fin cfg1.N := ⟨(i 0).val / 5000, by rw [hN]; omega⟩
    obtain ⟨e00, e01, e10, e11, e20, e21, e30, e31, e40, e41, e50, e51, e60, e61⟩ := idx_facts1 t
    have ht : t.val = (i 0).val / 5000 := rfl
    refine ⟨t, flush1_6 t, ?_⟩
    rw [mem_blk1]
    intro a
    match a with
    | ⟨0, _⟩ => show win1_6.index t (0 : Fin 2) * 5000 ≤ (i 0).val ∧ (i 0).val < win1_6.index t (0 : Fin 2) * 5000 + 5000; omega
    | ⟨1, _⟩ => show win1_6.index t (1 : Fin 2) * 64 ≤ (i 1).val ∧ (i 1).val < win1_6.index t (1 : Fin 2) * 64 + 64; omega

end Cert.KernelIdeal.Regions

end
-- ==== Proof.EdgeBridge1.lean ====
/-
  Layer 1's edge message, read off the array program's own stages.  The message array built from the array program's
  gathered rows, its slice of the edge weight and its slice of the edge bias (laid out as one row) is the array program's
  own rectified sum: its product is the same sum of products, its two bias broadcasts read the same bias entry, and its
  rectifier compares with the same zero.
-/
import proofs.«155749_j23802708754725_1_alg».proof.Proof.EdgeEntry
import proofs.«155749_j23802708754725_1_alg».proof.Proof.LibBroadcast
import proofs.«155749_j23802708754725_1_alg».proof.Proof.Gen.ReferenceIdeal.Read

noncomputable section

namespace Cert.Bridge

open Cert.ReferenceIdeal Cert.ReferenceIdeal.Read Idealize.ShloMosaic Idealize.ShloMosaic.ValueIdx

theorem edge_bridge1 (x0 : (⟨S100000x64, .f32⟩ : BufTy).Contents (Elt Ideal)) (x1 : (⟨S2x1250000, .i32⟩ : BufTy).Contents (Elt Ideal)) (x2 : (⟨S1250000x32, .f32⟩ : BufTy).Contents (Elt Ideal)) (x3 : (⟨S3x32x64, .f32⟩ : BufTy).Contents (Elt Ideal)) (x4 : (⟨S3x64, .f32⟩ : BufTy).Contents (Elt Ideal)) (h : S64.ShapeCasts S1x64) :
    Cert.KernelIdeal.Entries.edgeArr x2 (val_main_v26 (F := Ideal) x0 x1) (val_main_v5 (F := Ideal) x3) (shapeCast S1x64 (val_main_v7 (F := Ideal) x4) h)
      = val_main_v28 (F := Ideal) x0 x1 x2 x3 x4 := by
  funext i
  rw [val_main_v28_apply, val_main_v27_apply, val_main_v19_apply, val_main_v16_apply, val_main_v18_apply, val_main_v17_apply,
    val_main_call0_v0_apply, val_main_call0_cst_apply]
  unfold Cert.KernelIdeal.Entries.edgeArr
  have hl : ∀ k : Fin 32, ix2 (⟨(i 0).val, (i 0).isLt⟩ : Fin 1250000) k = lidx_main_v16 i k :=
    fun k => funext fun a => by match a with | ⟨0, _⟩ => rfl | ⟨1, _⟩ => rfl
  have hr : ∀ k : Fin 32, ix2 k (⟨(i 1).val, (i 1).isLt⟩ : Fin 64) = ridx_main_v16 i k :=
    fun k => funext fun a => by match a with | ⟨0, _⟩ => rfl | ⟨1, _⟩ => rfl
  have hb : shapeCast S1x64 (val_main_v7 (F := Ideal) x4) h (ix2 (0 : Fin 1) (⟨(i 1).val, (i 1).isLt⟩ : Fin 64))
      = val_main_v7 (F := Ideal) x4 (idx_main_v17 (idx_main_v18 i)) := by
    refine (Cert.Layout.shapeCast_row_apply _ h _).trans (congrArg (val_main_v7 (F := Ideal) x4) ?_)
    funext a; match a with | ⟨0, _⟩ => rfl
  rw [hb]
  simp only [hl, hr, Ideal.maximumf_def, Ideal.addf_def, Ideal.ofBits_def, Ideal.ofBits_zero_f32]

end Cert.Bridge

end
-- ==== Proof.NodeBridge1.lean ====
/-
  Layer 1's node update, read off the array program's own stages.  The updated array built from the layer's input,
  the array program's summed messages, and its slices of the two weights and the two biases (each bias laid out as one
  row) is the array program's own second affine map of its rectified first one: each product is the same sum of products,
  each pair of bias broadcasts reads the same bias entry, and the rectifier compares with the same zero.
-/
import proofs.«155749_j23802708754725_1_alg».proof.Proof.NodeEntry
import proofs.«155749_j23802708754725_1_alg».proof.Proof.LibBroadcast
import proofs.«155749_j23802708754725_1_alg».proof.Proof.Gen.ReferenceIdeal.Read

noncomputable section

namespace Cert.Bridge

open Cert.ReferenceIdeal Cert.ReferenceIdeal.Read Idealize.ShloMosaic Idealize.ShloMosaic.ValueIdx

set_option maxHeartbeats 1000000 in
theorem node_bridge1 (x0 : (⟨S100000x64, .f32⟩ : BufTy).Contents (Elt Ideal)) (x1 : (⟨S2x1250000, .i32⟩ : BufTy).Contents (Elt Ideal)) (x2 : (⟨S1250000x32, .f32⟩ : BufTy).Contents (Elt Ideal)) (x3 : (⟨S3x32x64, .f32⟩ : BufTy).Contents (Elt Ideal)) (x4 : (⟨S3x64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) (xin : (⟨S100000x64, .f32⟩ : BufTy).Contents (Elt Ideal))
    (hin : val_main_v32 (F := Ideal) x0 x1 x2 x3 x4 = addf (F := Ideal) (s := S100000x64) (φ := .f32) xin (val_main_v31 (F := Ideal) x0 x1 x2 x3 x4)) (h : S64.ShapeCasts S1x64) :
    Cert.KernelIdeal.Entries.nodeArr xin (val_main_v31 (F := Ideal) x0 x1 x2 x3 x4) (val_main_v9 (F := Ideal) x5) (shapeCast S1x64 (val_main_v11 (F := Ideal) x6) h)
        (val_main_v13 (F := Ideal) x7) (shapeCast S1x64 (val_main_v15 (F := Ideal) x8) h)
      = val_main_v41 (F := Ideal) x0 x1 x2 x3 x4 x5 x6 x7 x8 := by
  funext i
  rw [val_main_v41_apply, val_main_v38_apply, val_main_v40_apply, val_main_v39_apply]
  simp only [val_main_v37_apply, val_main_v36_apply, val_main_v33_apply, val_main_v35_apply, val_main_v34_apply,
    val_main_call1_v0_apply, val_main_call1_cst_apply, hin]
  unfold Cert.KernelIdeal.Entries.nodeArr
  have hb1 : ∀ j : Fin 64, val_main_v11 (F := Ideal) x6 (idx_main_v34 (idx_main_v35 (lidx_main_v38 i j)))
      = shapeCast S1x64 (val_main_v11 (F := Ideal) x6) h (ix2 (0 : Fin 1) j) := by
    intro j
    refine ((Cert.Layout.shapeCast_row_apply _ h _).trans (congrArg (val_main_v11 (F := Ideal) x6) ?_)).symm
    funext a; match a with | ⟨0, _⟩ => rfl
  have hb2 : val_main_v15 (F := Ideal) x8 (idx_main_v39 (idx_main_v40 i))
      = shapeCast S1x64 (val_main_v15 (F := Ideal) x8) h (ix2 (0 : Fin 1) (⟨(i 1).val, (i 1).isLt⟩ : Fin 64)) := by
    refine ((Cert.Layout.shapeCast_row_apply _ h _).trans (congrArg (val_main_v15 (F := Ideal) x8) ?_)).symm
    funext a; match a with | ⟨0, _⟩ => rfl
  have hl2 : ∀ j : Fin 64, ridx_main_v38 i j = ix2 j (⟨(i 1).val, (i 1).isLt⟩ : Fin 64) :=
    fun j => funext fun a => by match a with | ⟨0, _⟩ => rfl | ⟨1, _⟩ => rfl
  have hl1 : ∀ j k : Fin 64, lidx_main_v33 (lidx_main_v38 i j) k = ix2 (⟨(i 0).val, (i 0).isLt⟩ : Fin 100000) k :=
    fun j k => funext fun a => by match a with | ⟨0, _⟩ => rfl | ⟨1, _⟩ => rfl
  have hr1 : ∀ j k : Fin 64, ridx_main_v33 (lidx_main_v38 i j) k = ix2 k j :=
    fun j k => funext fun a => by match a with | ⟨0, _⟩ => rfl | ⟨1, _⟩ => rfl
  simp only [hb1, hb2, hl2, hl1, hr1, Ideal.maximumf_def, Ideal.addf_def, Ideal.ofBits_def, Ideal.ofBits_zero_f32, addf]

end Cert.Bridge

end
-- ==== Proof.Layer1Value.lean ====
/-
  Layer 1 of the kernel program, buffer by buffer, as the array program's own stages of the ten argument arrays: the
  gathered source rows, the layer's slices of the edge weight and bias, the message array the edge region leaves, the
  messages summed into their target rows, the slices of the two update weights and biases, the array the node region
  leaves, and the layer's output a · x + (1 − a) · update.  A host stretch is read by composing its operations over
  the buffers it finds; a region's array is the function of its inputs found for it, met with the array program's stage.
-/
import proofs.«155749_j23802708754725_1_alg».proof.Proof.KernelIdealKeep
import proofs.«155749_j23802708754725_1_alg».proof.Proof.EdgeBlocks0
import proofs.«155749_j23802708754725_1_alg».proof.Proof.NodeBlocks1
import proofs.«155749_j23802708754725_1_alg».proof.Proof.EdgeBridge1
import proofs.«155749_j23802708754725_1_alg».proof.Proof.NodeBridge1
import proofs.«155749_j23802708754725_1_alg».proof.Proof.Gen.ReferenceIdeal.Read
import Idealize.ShloMosaic.Lib.StableHlo.Run

set_option maxRecDepth 16384
-- composing a stretch of some twenty host operations and then meeting the array program's stage takes more steps than the default allows
set_option maxHeartbeats 4000000

noncomputable section

namespace Cert.KernelIdeal.Regions

open Cert.KernelIdeal Cert.KernelIdeal.Gen Cert.KernelIdeal.Entries Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The two index vectors, rows 0 and 1 of the edge list, formed once by the first stretch. -/
theorem srcVec : W1 m ρ c (Proc.devRef .tc main_v1) = val_main_v1 (F := Ideal) (m ((c : Thread nD τ).loc main_arg1)) := by
  dsimp only [W1, W0, hostOps0]; after_results; rfl
theorem dstVec : W1 m ρ c (Proc.devRef .tc main_v3) = val_main_v3 (F := Ideal) (m ((c : Thread nD τ).loc main_arg1)) := by
  dsimp only [W1, W0, hostOps0]; after_results; rfl

/-- The gathered source rows. -/
theorem layer1_src : W1 m ρ c (Proc.devRef .tc main_v10) = val_main_v26 (F := Ideal) (m ((c : Thread nD τ).loc main_arg0)) (m ((c : Thread nD τ).loc main_arg1)) := by
  dsimp only [W1, W0, hostOps0]; after_results
  rfl
/-- The layer's slice of the edge weight, and of the edge bias laid out as one row. -/
theorem layer1_w : W1 m ρ c (Proc.devRef .tc main_v12) = val_main_v5 (F := Ideal) (m ((c : Thread nD τ).loc main_arg3)) := by
  dsimp only [W1, W0, hostOps0]; after_results
  rfl
theorem layer1_b : W1 m ρ c (Proc.devRef .tc main_v15) = shapeCast S1x64 (val_main_v7 (F := Ideal) (m ((c : Thread nD τ).loc main_arg4))) shapeCasts_S64_S1x64 := by
  dsimp only [W1, W0, hostOps0]; after_results
  rfl
/-- The message array the edge region leaves. -/
theorem layer1_msg : W2 m ρ c (Proc.devRef .tc main_v16) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 4).trans ((final0 (entry0 m ρ) c).trans ?_)
  show edgeArr (W1 m ρ c (Proc.devRef .tc main_arg2)) (W1 m ρ c (Proc.devRef .tc main_v10)) (W1 m ρ c (Proc.devRef .tc main_v12)) (W1 m ρ c (Proc.devRef .tc main_v15)) = _
  rw [((W1_eq_W0 m ρ c main_arg2 (by decide)).trans rfl), layer1_src m ρ c, layer1_w m ρ c, layer1_b m ρ c]
  exact Cert.Bridge.edge_bridge1 (m ((c : Thread nD τ).loc main_arg0)) (m ((c : Thread nD τ).loc main_arg1)) (m ((c : Thread nD τ).loc main_arg2)) (m ((c : Thread nD τ).loc main_arg3)) (m ((c : Thread nD τ).loc main_arg4)) _
/-- The messages summed into their target rows. -/
theorem layer1_aggr : W3 m ρ c (Proc.devRef .tc main_v19) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W3, hostOps1]; after_results
  rw [layer1_msg m ρ c, ((W2_eq_W1 m ρ c main_v3 (by decide)).trans (dstVec m ρ c))]
  rfl
/-- The layer's slices of the two update weights, and of the two biases laid out as one row each. -/
theorem layer1_w1 : W3 m ρ c (Proc.devRef .tc main_v21) = val_main_v9 (F := Ideal) (m ((c : Thread nD τ).loc main_arg5)) := by
  dsimp only [W3, hostOps1]; after_results
  rw [((W2_eq_W0 m ρ c main_arg5 (by decide) (by decide)).trans rfl)]
  rfl
theorem layer1_b1 : W3 m ρ c (Proc.devRef .tc main_v28) = shapeCast S1x64 (val_main_v11 (F := Ideal) (m ((c : Thread nD τ).loc main_arg6))) shapeCasts_S64_S1x64 := by
  dsimp only [W3, hostOps1]; after_results
  rw [((W2_eq_W0 m ρ c main_arg6 (by decide) (by decide)).trans rfl)]
  rfl
theorem layer1_w2 : W3 m ρ c (Proc.devRef .tc main_v25) = val_main_v13 (F := Ideal) (m ((c : Thread nD τ).loc main_arg7)) := by
  dsimp only [W3, hostOps1]; after_results
  rw [((W2_eq_W0 m ρ c main_arg7 (by decide) (by decide)).trans rfl)]
  rfl
theorem layer1_b2 : W3 m ρ c (Proc.devRef .tc main_v29) = shapeCast S1x64 (val_main_v15 (F := Ideal) (m ((c : Thread nD τ).loc main_arg8))) shapeCasts_S64_S1x64 := by
  dsimp only [W3, hostOps1]; after_results
  rw [((W2_eq_W0 m ρ c main_arg8 (by decide) (by decide)).trans rfl)]
  rfl
/-- The array the node region leaves. -/
theorem layer1_upd : W4 m ρ c (Proc.devRef .tc main_v30) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ((final1 (entry1 m ρ) c).trans ?_)
  show nodeArr (W3 m ρ c (Proc.devRef .tc main_arg0)) (W3 m ρ c (Proc.devRef .tc main_v19)) (W3 m ρ c (Proc.devRef .tc main_v21)) (W3 m ρ c (Proc.devRef .tc main_v28)) (W3 m ρ c (Proc.devRef .tc main_v25)) (W3 m ρ c (Proc.devRef .tc main_v29)) = _
  rw [((W3_eq_W0 m ρ c main_arg0 (by decide) (by decide) (by decide)).trans rfl), layer1_aggr m ρ c, layer1_w1 m ρ c, layer1_b1 m ρ c, layer1_w2 m ρ c, layer1_b2 m ρ c]
  exact Cert.Bridge.node_bridge1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg0)) rfl _
/-- The layer's output: a · x + (1 − a) · update. -/
theorem layer1_out : W5 m ρ c (Proc.devRef .tc main_v38) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W5, hostOps2]; after_results
  rw [layer1_upd m ρ c, ((W4_eq_W0 m ρ c main_arg9 (by decide) (by decide) (by decide) (by decide)).trans rfl), ((W4_eq_W0 m ρ c main_arg0 (by decide) (by decide) (by decide) (by decide)).trans rfl)]
  rfl

end Cert.KernelIdeal.Regions

end
-- ==== Proof.Layer2Value.lean ====
/-
  Layer 2 of the kernel program, buffer by buffer, as the array program's own stages of the ten argument arrays: the
  gathered source rows, the layer's slices of the edge weight and bias, the message array the edge region leaves, the
  messages summed into their target rows, the slices of the two update weights and biases, the array the node region
  leaves, and the layer's output a · x + (1 − a) · update.  A host stretch is read by composing its operations over
  the buffers it finds; a region's array is the function of its inputs found for it, met with the array program's stage.
-/
import proofs.«155749_j23802708754725_1_alg».proof.Proof.KernelIdealKeep
import proofs.«155749_j23802708754725_1_alg».proof.Proof.EdgeBlocks2
import proofs.«155749_j23802708754725_1_alg».proof.Proof.NodeBlocks3
import proofs.«155749_j23802708754725_1_alg».proof.Proof.EdgeBridge2
import proofs.«155749_j23802708754725_1_alg».proof.Proof.NodeBridge2
import proofs.«155749_j23802708754725_1_alg».proof.Proof.Layer1Value
import proofs.«155749_j23802708754725_1_alg».proof.Proof.Gen.ReferenceIdeal.Read
import Idealize.ShloMosaic.Lib.StableHlo.Run

set_option maxRecDepth 16384
-- composing a stretch of some twenty host operations and then meeting the array program's stage takes more steps than the default allows
set_option maxHeartbeats 4000000

noncomputable section

namespace Cert.KernelIdeal.Regions

open Cert.KernelIdeal Cert.KernelIdeal.Gen Cert.KernelIdeal.Entries Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The gathered source rows. -/
theorem layer2_src : W5 m ρ c (Proc.devRef .tc main_v45) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W5, hostOps2]; after_results
  rw [layer1_upd m ρ c, ((W4_eq_W0 m ρ c main_arg9 (by decide) (by decide) (by decide) (by decide)).trans rfl), ((W4_eq_W0 m ρ c main_arg0 (by decide) (by decide) (by decide) (by decide)).trans rfl), ((W4_eq_W1 m ρ c main_v1 (by decide) (by decide) (by decide)).trans (srcVec m ρ c))]
  rfl
/-- The layer's slice of the edge weight, and of the edge bias laid out as one row. -/
theorem layer2_w : W5 m ρ c (Proc.devRef .tc main_v47) = val_main_v53 (F := Ideal) (m ((c : Thread nD τ).loc main_arg3)) := by
  dsimp only [W5, hostOps2]; after_results
  rw [((W4_eq_W0 m ρ c main_arg3 (by decide) (by decide) (by decide) (by decide)).trans rfl)]
  rfl
theorem layer2_b : W5 m ρ c (Proc.devRef .tc main_v50) = shapeCast S1x64 (val_main_v55 (F := Ideal) (m ((c : Thread nD τ).loc main_arg4))) shapeCasts_S64_S1x64 := by
  dsimp only [W5, hostOps2]; after_results
  rw [((W4_eq_W0 m ρ c main_arg4 (by decide) (by decide) (by decide) (by decide)).trans rfl)]
  rfl
/-- The message array the edge region leaves. -/
theorem layer2_msg : W6 m ρ c (Proc.devRef .tc main_v51) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 4).trans ((final2 (entry2 m ρ) c).trans ?_)
  show edgeArr (W5 m ρ c (Proc.devRef .tc main_arg2)) (W5 m ρ c (Proc.devRef .tc main_v45)) (W5 m ρ c (Proc.devRef .tc main_v47)) (W5 m ρ c (Proc.devRef .tc main_v50)) = _
  rw [((W5_eq_W0 m ρ c main_arg2 (by decide) (by decide) (by decide) (by decide) (by decide)).trans rfl), layer2_src m ρ c, layer2_w m ρ c, layer2_b m ρ c]
  exact Cert.Bridge.edge_bridge2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _
/-- The messages summed into their target rows. -/
theorem layer2_aggr : W7 m ρ c (Proc.devRef .tc main_v54) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W7, hostOps3]; after_results
  rw [layer2_msg m ρ c, ((W6_eq_W1 m ρ c main_v3 (by decide) (by decide) (by decide) (by decide) (by decide)).trans (dstVec m ρ c))]
  rfl
/-- The layer's slices of the two update weights, and of the two biases laid out as one row each. -/
theorem layer2_w1 : W7 m ρ c (Proc.devRef .tc main_v56) = val_main_v57 (F := Ideal) (m ((c : Thread nD τ).loc main_arg5)) := by
  dsimp only [W7, hostOps3]; after_results
  rw [((W6_eq_W0 m ρ c main_arg5 (by decide) (by decide) (by decide) (by decide) (by decide) (by decide)).trans rfl)]
  rfl
theorem layer2_b1 : W7 m ρ c (Proc.devRef .tc main_v63) = shapeCast S1x64 (val_main_v59 (F := Ideal) (m ((c : Thread nD τ).loc main_arg6))) shapeCasts_S64_S1x64 := by
  dsimp only [W7, hostOps3]; after_results
  rw [((W6_eq_W0 m ρ c main_arg6 (by decide) (by decide) (by decide) (by decide) (by decide) (by decide)).trans rfl)]
  rfl
theorem layer2_w2 : W7 m ρ c (Proc.devRef .tc main_v60) = val_main_v61 (F := Ideal) (m ((c : Thread nD τ).loc main_arg7)) := by
  dsimp only [W7, hostOps3]; after_results
  rw [((W6_eq_W0 m ρ c main_arg7 (by decide) (by decide) (by decide) (by decide) (by decide) (by decide)).trans rfl)]
  rfl
theorem layer2_b2 : W7 m ρ c (Proc.devRef .tc main_v64) = shapeCast S1x64 (val_main_v63 (F := Ideal) (m ((c : Thread nD τ).loc main_arg8))) shapeCasts_S64_S1x64 := by
  dsimp only [W7, hostOps3]; after_results
  rw [((W6_eq_W0 m ρ c main_arg8 (by decide) (by decide) (by decide) (by decide) (by decide) (by decide)).trans rfl)]
  rfl
/-- The array the node region leaves. -/
theorem layer2_upd : W8 m ρ c (Proc.devRef .tc main_v65) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 6).trans ((final3 (entry3 m ρ) c).trans ?_)
  show nodeArr (W7 m ρ c (Proc.devRef .tc main_v38)) (W7 m ρ c (Proc.devRef .tc main_v54)) (W7 m ρ c (Proc.devRef .tc main_v56)) (W7 m ρ c (Proc.devRef .tc main_v63)) (W7 m ρ c (Proc.devRef .tc main_v60)) (W7 m ρ c (Proc.devRef .tc main_v64)) = _
  rw [((W7_eq_W5 m ρ c main_v38 (by decide) (by decide)).trans (layer1_out m ρ c)), layer2_aggr m ρ c, layer2_w1 m ρ c, layer2_b1 m ρ c, layer2_w2 m ρ c, layer2_b2 m ρ c]
  exact Cert.Bridge.node_bridge2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) rfl _
/-- The layer's output: a · x + (1 − a) · update. -/
theorem layer2_out : W9 m ρ c (Proc.devRef .tc main_v73) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W9, hostOps4]; after_results
  rw [layer2_upd m ρ c, ((W8_eq_W0 m ρ c main_arg9 (by decide) (by decide) (by decide) (by decide) (by decide) (by decide) (by decide) (by decide)).trans rfl), ((W8_eq_W5 m ρ c main_v38 (by decide) (by decide) (by decide)).trans (layer1_out m ρ c))]
  rfl

end Cert.KernelIdeal.Regions

end
-- ==== Proof.Layer3Value.lean ====
/-
  Layer 3 of the kernel program, buffer by buffer, as the array program's own stages of the ten argument arrays: the
  gathered source rows, the layer's slices of the edge weight and bias, the message array the edge region leaves, the
  messages summed into their target rows, the slices of the two update weights and biases, the array the node region
  leaves, and the layer's output a · x + (1 − a) · update.  A host stretch is read by composing its operations over
  the buffers it finds; a region's array is the function of its inputs found for it, met with the array program's stage.
-/
import proofs.«155749_j23802708754725_1_alg».proof.Proof.KernelIdealKeep
import proofs.«155749_j23802708754725_1_alg».proof.Proof.EdgeBlocks4
import proofs.«155749_j23802708754725_1_alg».proof.Proof.NodeBlocks5
import proofs.«155749_j23802708754725_1_alg».proof.Proof.EdgeBridge3
import proofs.«155749_j23802708754725_1_alg».proof.Proof.NodeBridge3
import proofs.«155749_j23802708754725_1_alg».proof.Proof.Layer2Value
import proofs.«155749_j23802708754725_1_alg».proof.Proof.Gen.ReferenceIdeal.Read
import Idealize.ShloMosaic.Lib.StableHlo.Run

set_option maxRecDepth 16384
-- composing a stretch of some twenty host operations and then meeting the array program's stage takes more steps than the default allows
set_option maxHeartbeats 4000000

noncomputable section

namespace Cert.KernelIdeal.Regions

open Cert.KernelIdeal Cert.KernelIdeal.Gen Cert.KernelIdeal.Entries Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The gathered source rows. -/
theorem layer3_src : W9 m ρ c (Proc.devRef .tc main_v80) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W9, hostOps4]; after_results
  rw [layer2_upd m ρ c, ((W8_eq_W0 m ρ c main_arg9 (by decide) (by decide) (by decide) (by decide) (by decide) (by decide) (by decide) (by decide)).trans rfl), ((W8_eq_W5 m ρ c main_v38 (by decide) (by decide) (by decide)).trans (layer1_out m ρ c)), ((W8_eq_W1 m ρ c main_v1 (by decide) (by decide) (by decide) (by decide) (by decide) (by decide) (by decide)).trans (srcVec m ρ c))]
  rfl
/-- The layer's slice of the edge weight, and of the edge bias laid out as one row. -/
theorem layer3_w : W9 m ρ c (Proc.devRef .tc main_v82) = val_main_v101 (F := Ideal) (m ((c : Thread nD τ).loc main_arg3)) := by
  dsimp only [W9, hostOps4]; after_results
  rw [((W8_eq_W0 m ρ c main_arg3 (by decide) (by decide) (by decide) (by decide) (by decide) (by decide) (by decide) (by decide)).trans rfl)]
  rfl
theorem layer3_b : W9 m ρ c (Proc.devRef .tc main_v85) = shapeCast S1x64 (val_main_v103 (F := Ideal) (m ((c : Thread nD τ).loc main_arg4))) shapeCasts_S64_S1x64 := by
  dsimp only [W9, hostOps4]; after_results
  rw [((W8_eq_W0 m ρ c main_arg4 (by decide) (by decide) (by decide) (by decide) (by decide) (by decide) (by decide) (by decide)).trans rfl)]
  rfl
/-- The message array the edge region leaves. -/
theorem layer3_msg : W10 m ρ c (Proc.devRef .tc main_v86) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 4).trans ((final4 (entry4 m ρ) c).trans ?_)
  show edgeArr (W9 m ρ c (Proc.devRef .tc main_arg2)) (W9 m ρ c (Proc.devRef .tc main_v80)) (W9 m ρ c (Proc.devRef .tc main_v82)) (W9 m ρ c (Proc.devRef .tc main_v85)) = _
  rw [((W9_eq_W0 m ρ c main_arg2 (by decide) (by decide) (by decide) (by decide) (by decide) (by decide) (by decide) (by decide) (by decide)).trans rfl), layer3_src m ρ c, layer3_w m ρ c, layer3_b m ρ c]
  exact Cert.Bridge.edge_bridge3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _
/-- The messages summed into their target rows. -/
theorem layer3_aggr : W11 m ρ c (Proc.devRef .tc main_v89) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W11, hostOps5]; after_results
  rw [layer3_msg m ρ c, ((W10_eq_W1 m ρ c main_v3 (by decide) (by decide) (by decide) (by decide) (by decide) (by decide) (by decide) (by decide) (by decide)).trans (dstVec m ρ c))]
  rfl
/-- The layer's slices of the two update weights, and of the two biases laid out as one row each. -/
theorem layer3_w1 : W11 m ρ c (Proc.devRef .tc main_v91) = val_main_v105 (F := Ideal) (m ((c : Thread nD τ).loc main_arg5)) := by
  dsimp only [W11, hostOps5]; after_results
  rw [((W10_eq_W0 m ρ c main_arg5 (by decide) (by decide) (by decide) (by decide) (by decide) (by decide) (by decide) (by decide) (by decide) (by decide)).trans rfl)]
  rfl
theorem layer3_b1 : W11 m ρ c (Proc.devRef .tc main_v98) = shapeCast S1x64 (val_main_v107 (F := Ideal) (m ((c : Thread nD τ).loc main_arg6))) shapeCasts_S64_S1x64 := by
  dsimp only [W11, hostOps5]; after_results
  rw [((W10_eq_W0 m ρ c main_arg6 (by decide) (by decide) (by decide) (by decide) (by decide) (by decide) (by decide) (by decide) (by decide) (by decide)).trans rfl)]
  rfl
theorem layer3_w2 : W11 m ρ c (Proc.devRef .tc main_v95) = val_main_v109 (F := Ideal) (m ((c : Thread nD τ).loc main_arg7)) := by
  dsimp only [W11, hostOps5]; after_results
  rw [((W10_eq_W0 m ρ c main_arg7 (by decide) (by decide) (by decide) (by decide) (by decide) (by decide) (by decide) (by decide) (by decide) (by decide)).trans rfl)]
  rfl
theorem layer3_b2 : W11 m ρ c (Proc.devRef .tc main_v99) = shapeCast S1x64 (val_main_v111 (F := Ideal) (m ((c : Thread nD τ).loc main_arg8))) shapeCasts_S64_S1x64 := by
  dsimp only [W11, hostOps5]; after_results
  rw [((W10_eq_W0 m ρ c main_arg8 (by decide) (by decide) (by decide) (by decide) (by decide) (by decide) (by decide) (by decide) (by decide) (by decide)).trans rfl)]
  rfl
/-- The array the node region leaves. -/
theorem layer3_upd : W12 m ρ c (Proc.devRef .tc main_v100) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 6).trans ((final5 (entry5 m ρ) c).trans ?_)
  show nodeArr (W11 m ρ c (Proc.devRef .tc main_v73)) (W11 m ρ c (Proc.devRef .tc main_v89)) (W11 m ρ c (Proc.devRef .tc main_v91)) (W11 m ρ c (Proc.devRef .tc main_v98)) (W11 m ρ c (Proc.devRef .tc main_v95)) (W11 m ρ c (Proc.devRef .tc main_v99)) = _
  rw [((W11_eq_W9 m ρ c main_v73 (by decide) (by decide)).trans (layer2_out m ρ c)), layer3_aggr m ρ c, layer3_w1 m ρ c, layer3_b1 m ρ c, layer3_w2 m ρ c, layer3_b2 m ρ c]
  exact Cert.Bridge.node_bridge3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) rfl _
/-- The layer's output: a · x + (1 − a) · update. -/
theorem layer3_out : W13 m ρ c (Proc.devRef .tc main_v108) = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W13, hostOps6]; after_results
  rw [layer3_upd m ρ c, ((W12_eq_W0 m ρ c main_arg9 (by decide) (by decide) (by decide) (by decide) (by decide) (by decide) (by decide) (by decide) (by decide) (by decide) (by decide) (by decide)).trans rfl), ((W12_eq_W9 m ρ c main_v73 (by decide) (by decide) (by decide)).trans (layer2_out m ρ c))]
  rfl

end Cert.KernelIdeal.Regions

end
-- ==== Proof.ResultValue.lean ====
/-
  The kernel program's result.  The last stretch lays the input and the three layers' outputs side by side; the input
  is the first argument as launched, the first two outputs have stood untouched since the stretches that formed them, and
  the third is formed in this stretch from the last node region's array. With each layer's buffers already read as the
  array program's stages, the result array is the array program's final stage of the ten arguments; and the program's
  run is re-posted with that array named beside the unchanged arguments.
-/
import proofs.«155749_j23802708754725_1_alg».proof.Proof.Layer3Value

set_option maxRecDepth 16384
set_option maxHeartbeats 4000000

noncomputable section

namespace Cert.KernelIdeal.Regions

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-- The result array at the last boundary is the array program's final stage of the argument arrays. -/
theorem result_value (c : Dev nD) : W13 m ρ c (Proc.devRef .tc main_v109) = val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [W13, hostOps6]; after_results_simp
  dsimp only [Matrix.cons_val]
  -- each of the four operands, read through the nine operations before the concatenation
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [layer3_upd m ρ c, ((W12_eq_W0 m ρ c main_arg9 (by decide) (by decide) (by decide) (by decide) (by decide) (by decide) (by decide) (by decide) (by decide) (by decide) (by decide) (by decide)).trans rfl), ((W12_eq_W0 m ρ c main_arg0 (by decide) (by decide) (by decide) (by decide) (by decide) (by decide) (by decide) (by decide) (by decide) (by decide) (by decide) (by decide)).trans rfl),
    ((W12_eq_W5 m ρ c main_v38 (by decide) (by decide) (by decide) (by decide) (by decide) (by decide) (by decide)).trans (layer1_out m ρ c)), ((W12_eq_W9 m ρ c main_v73 (by decide) (by decide) (by decide)).trans (layer2_out m ρ c))]
  rfl

/-- The run, with the result named: every weakly fair execution terminates, nothing faulting, with the result array at
    the array program's final stage of the arguments and every argument as launched. -/
theorem value_run : θ_run defs (onTc (τ := τ) (main (F := Ideal))) ⟨m, fun _ => 0, ρ⟩ (fun r => ∀ c : Dev nD,
      r.2.mem ((c.tc : Thread nD τ).loc main_v109) = val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v109 (by decide))).trans (result_value m ρ c),
    (h c _ (mem_uc main_arg0 (by decide))).trans (W13_of_unwritten m ρ c main_arg0 (by decide) (by decide) (by decide) (by decide) (by decide) (by decide) (by decide) (by decide) (by decide) (by decide) (by decide) (by decide) (by decide)),
    (h c _ (mem_uc main_arg1 (by decide))).trans (W13_of_unwritten m ρ c main_arg1 (by decide) (by decide) (by decide) (by decide) (by decide) (by decide) (by decide) (by decide) (by decide) (by decide) (by decide) (by decide) (by decide)),
    (h c _ (mem_uc main_arg2 (by decide))).trans (W13_of_unwritten m ρ c main_arg2 (by decide) (by decide) (by decide) (by decide) (by decide) (by decide) (by decide) (by decide) (by decide) (by decide) (by decide) (by decide) (by decide)),
    (h c _ (mem_uc main_arg3 (by decide))).trans (W13_of_unwritten m ρ c main_arg3 (by decide) (by decide) (by decide) (by decide) (by decide) (by decide) (by decide) (by decide) (by decide) (by decide) (by decide) (by decide) (by decide)),
    (h c _ (mem_uc main_arg4 (by decide))).trans (W13_of_unwritten m ρ c main_arg4 (by decide) (by decide) (by decide) (by decide) (by decide) (by decide) (by decide) (by decide) (by decide) (by decide) (by decide) (by decide) (by decide)),
    (h c _ (mem_uc main_arg5 (by decide))).trans (W13_of_unwritten m ρ c main_arg5 (by decide) (by decide) (by decide) (by decide) (by decide) (by decide) (by decide) (by decide) (by decide) (by decide) (by decide) (by decide) (by decide)),
    (h c _ (mem_uc main_arg6 (by decide))).trans (W13_of_unwritten m ρ c main_arg6 (by decide) (by decide) (by decide) (by decide) (by decide) (by decide) (by decide) (by decide) (by decide) (by decide) (by decide) (by decide) (by decide)),
    (h c _ (mem_uc main_arg7 (by decide))).trans (W13_of_unwritten m ρ c main_arg7 (by decide) (by decide) (by decide) (by decide) (by decide) (by decide) (by decide) (by decide) (by decide) (by decide) (by decide) (by decide) (by decide)),
    (h c _ (mem_uc main_arg8 (by decide))).trans (W13_of_unwritten m ρ c main_arg8 (by decide) (by decide) (by decide) (by decide) (by decide) (by decide) (by decide) (by decide) (by decide) (by decide) (by decide) (by decide) (by decide)),
    (h c _ (mem_uc main_arg9 (by decide))).trans (W13_of_unwritten m ρ c main_arg9 (by decide) (by decide) (by decide) (by decide) (by decide) (by decide) (by decide) (by decide) (by decide) (by decide) (by decide) (by decide) (by decide))⟩)
    (run_all m ρ)

end Cert.KernelIdeal.Regions

end
-- ==== Proof.lean ====
/-
  Three layers of message passing on a graph, as a kernel program and as a plain array program.

  Each layer gathers a source row per edge, forms the edge message max(source + (features · weight + bias), 0), sums the
  messages into their target rows, updates every node by max((x + aggregate) · W₁ + b₁, 0) · W₂ + b₂ and mixes the result
  with the layer's input, a · x + (1 − a) · update; the result is the input and the three layers' outputs side by side.
  The kernel program computes the edge message and the node update blockwise, 5000 rows at a grid point, and does the
  gather, the row sum and the mixing on the host exactly as the array program does.

  The frames: each kernel program is seven host stretches around six regions; every region's body runs without fault
  from whole staging buffers, so the program terminates with every unscoped buffer at the last boundary of a fold over
  the launch memory, and no step of that fold writes an argument. The array program's frame is its run.
  Nothing was rewritten between the kernel program and its idealization.
  The values: in exact arithmetic a block's product into a zero accumulator is the plain sum of products, so each
  region's array is the same function of its inputs as the array program's stage; the host steps agree step by step.
-/
import proofs.«155749_j23802708754725_1_alg».proof.Defs
import proofs.«155749_j23802708754725_1_alg».proof.Proof.Gen.Kernel
import proofs.«155749_j23802708754725_1_alg».proof.Proof.Gen.KernelIdeal
import proofs.«155749_j23802708754725_1_alg».proof.Proof.Gen.ReferenceIdeal
import proofs.«155749_j23802708754725_1_alg».proof.Proof.Gen.ReferenceIdeal.Run
import proofs.«155749_j23802708754725_1_alg».proof.Proof.Gen.ReferenceIdeal.Read
import proofs.«155749_j23802708754725_1_alg».proof.Proof.Gen.Pre_finite_inputs
import proofs.«155749_j23802708754725_1_alg».proof.Proof.KernelRun
import proofs.«155749_j23802708754725_1_alg».proof.Proof.KernelIdealRun
import proofs.«155749_j23802708754725_1_alg».proof.Proof.ResultValue
import Idealize.ShloMosaic.Adequacy
import Idealize.ShloMosaic.Init

noncomputable section

namespace Cert.Proof

open Idealize.ShloMosaic Idealize.SL.Sem

/-- The word-level kernel program terminates without fault and leaves its arguments as launched. -/
theorem frame_kernel : Cert.frame_Kernel := fun m ρ _ => Cert.Kernel.Regions.frame m ρ

/-- So does its idealization. -/
theorem frame_kernelIdeal : Cert.frame_KernelIdeal := fun m ρ _ => Cert.KernelIdeal.Regions.frame m ρ

/-- The array program's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealization. -/
theorem preserves : Cert.preserves_Kernel_KernelIdeal := trivial

/-- From memories agreeing on the arguments both programs run to the end with one and the same result array: the kernel
    program's, read buffer by buffer as the array program's stages of the arguments, is the array program's final stage;
    the array program's run ends at that stage of its own arguments, which are the kernel program's. -/
theorem algebraic : Cert.algebraic_KernelIdeal_ReferenceIdeal := by
  intro m ρ m' ρ' _ hagree
  refine ⟨_, Cert.KernelIdeal.Regions.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v148_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
